-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x256 : Shape := ⟨2, ![65536, 256]⟩
abbrev S64x96 : Shape := ⟨2, ![64, 96]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part6 {F : FTy → Type} [FloatOps F] (main_arg21 : FVec F S256 .f32) (main_arg22 : FVec F S1x256 .f32) (main_arg23 : FVec F S1 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S1x256 .f32 := Host.absf main_arg22
  let main_cst_42 : FVec F S_ .f32 := constant S_ .f32 0x7F800000#32
  let main_v110 : FVec F S1x256 .f32 := broadcastInDim S1x256 ![] bcast_S_S1x256 main_cst_42
  let main_v111 : IVec S1x256 1 := cmpf .olt main_v109 main_v110
  let main_c_43 : IVec S_ 1 := constantI S_ 1 1#1
  let main_v112 : IVec S_ 1 := (fun x v => Host.reduce IntOp.andi x v reducesTo_S1x256_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S256x64 .f32) (main_arg19 : FVec F S256 .f32) (main_arg20 : FVec F S256x256 .f32) (main_arg21 : FVec F S256 .f32) (main_arg22 : FVec F S1x256 .f32) (main_arg23 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S256x64 .f32 := Host.absf main_arg18
  let main_cst_34 : FVec F S_ .f32 := constant S_ .f32 0x7F800000#32
  let main_v90 : FVec F S256x64 .f32 := broadcastInDim S256x64 ![] bcast_S_S256x64 main_cst_34
  let main_v91 : IVec S256x64 1 := cmpf .olt main_v89 main_v90
  let main_c_35 : IVec S_ 1 := constantI S_ 1 1#1
  let main_v92 : IVec S_ 1 := (fun x v => Host.reduce IntOp.andi x v reducesTo_S256x64_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S256x256 .f32) (main_arg15 : FVec F S256 .f32) (main_arg16 : FVec F S1x256 .f32) (main_arg17 : FVec F S1 .f32) (main_arg18 : FVec F S256x64 .f32) (main_arg19 : FVec F S256 .f32) (main_arg20 : FVec F S256x256 .f32) (main_arg21 : FVec F S256 .f32) (main_arg22 : FVec F S1x256 .f32) (main_arg23 : FVec F S1 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg16
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S1 .f32) (main_arg12 : FVec F S256x64 .f32) (main_arg13 : FVec F S256 .f32) (main_arg14 : FVec F S256x256 .f32) (main_arg15 : FVec F S256 .f32) (main_arg16 : FVec F S1x256 .f32) (main_arg17 : FVec F S1 .f32) (main_arg18 : FVec F S256x64 .f32) (main_arg19 : FVec F S256 .f32) (main_arg20 : FVec F S256x256 .f32) (main_arg21 : FVec F S256 .f32) (main_arg22 : FVec F S1x256 .f32) (main_arg23 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S32 .f32) (main_arg8 : FVec F S32x64 .f32) (main_arg9 : FVec F S32 .f32) (main_arg10 : FVec F S1x64 .f32) (main_arg11 : FVec F S1 .f32) (main_arg12 : FVec F S256x64 .f32) (main_arg13 : FVec F S256 .f32) (main_arg14 : FVec F S256x256 .f32) (main_arg15 : FVec F S256 .f32) (main_arg16 : FVec F S1x256 .f32) (main_arg17 : FVec F S1 .f32) (main_arg18 : FVec F S256x64 .f32) (main_arg19 : FVec F S256 .f32) (main_arg20 : FVec F S256x256 .f32) (main_arg21 : FVec F S256 .f32) (main_arg22 : FVec F S1x256 .f32) (main_arg23 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32x64 .f32) (main_arg5 : FVec F S32 .f32) (main_arg6 : FVec F S32x64 .f32) (main_arg7 : FVec F S32 .f32) (main_arg8 : FVec F S32x64 .f32) (main_arg9 : FVec F S32 .f32) (main_arg10 : FVec F S1x64 .f32) (main_arg11 : FVec F S1 .f32) (main_arg12 : FVec F S256x64 .f32) (main_arg13 : FVec F S256 .f32) (main_arg14 : FVec F S256x256 .f32) (main_arg15 : FVec F S256 .f32) (main_arg16 : FVec F S1x256 .f32) (main_arg17 : FVec F S1 .f32) (main_arg18 : FVec F S256x64 .f32) (main_arg19 : FVec F S256 .f32) (main_arg20 : FVec F S256x256 .f32) (main_arg21 : FVec F S256 .f32) (main_arg22 : FVec F S1x256 .f32) (main_arg23 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S65536x512 .f32) (main_arg1 : FVec F S65536x256 .f32) (main_arg2 : FVec F S64x96 .f32) (main_arg3 : FVec F S64 .f32) (main_arg4 : FVec F S32x64 .f32) (main_arg5 : FVec F S32 .f32) (main_arg6 : FVec F S32x64 .f32) (main_arg7 : FVec F S32 .f32) (main_arg8 : FVec F S32x64 .f32) (main_arg9 : FVec F S32 .f32) (main_arg10 : FVec F S1x64 .f32) (main_arg11 : FVec F S1 .f32) (main_arg12 : FVec F S256x64 .f32) (main_arg13 : FVec F S256 .f32) (main_arg14 : FVec F S256x256 .f32) (main_arg15 : FVec F S256 .f32) (main_arg16 : FVec F S1x256 .f32) (main_arg17 : FVec F S1 .f32) (main_arg18 : FVec F S256x64 .f32) (main_arg19 : FVec F S256 .f32) (main_arg20 : FVec F S256x256 .f32) (main_arg21 : FVec F S256 .f32) (main_arg22 : FVec F S1x256 .f32) (main_arg23 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S64x96 .f32 := Host.absf main_arg2
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S65536x512 : Shape := ⟨2, ![65536, 512]⟩
abbrev S65536x256 : Shape := ⟨2, ![65536, 256]⟩
abbrev S64x96 : Shape := ⟨2, ![64, 96]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S524288x64 : Shape := ⟨2, ![524288, 64]⟩
abbrev S524288x32 : Shape := ⟨2, ![524288, 32]⟩
abbrev S64x64 : Shape := ⟨2, ![64, 64]⟩
abbrev S64x32 : Shape := ⟨2, ![64, 32]⟩
abbrev S512x64 : Shape := ⟨2, ![512, 64]⟩
abbrev S512 : Shape := ⟨1, ![512]⟩
abbrev S65536x2 : Shape := ⟨2, ![65536, 2]⟩
abbrev S16384x64 : Shape := ⟨2, ![16384, 64]⟩
abbrev S16384x32 : Shape := ⟨2, ![16384, 32]⟩
abbrev S2048x2 : Shape := ⟨2, ![2048, 2]⟩
abbrev S2048x8x64 : Shape := ⟨3, ![2048, 8, 64]⟩
abbrev S2048x1x64 : Shape := ⟨3, ![2048, 1, 64]⟩
abbrev S2048x64 : Shape := ⟨2, ![2048, 64]⟩
abbrev S2048x32 : Shape := ⟨2, ![2048, 32]⟩
abbrev S1x32 : Shape := ⟨2, ![1, 32]⟩
abbrev S2048x8x32 : Shape := ⟨3, ![2048, 8, 32]⟩
abbrev S2048x7x32 : Shape := ⟨3, ![2048, 7, 32]⟩
abbrev S2048x1x32 : Shape := ⟨3, ![2048, 1, 32]⟩
abbrev S2048 : Shape := ⟨1, ![2048]⟩
abbrev S2048x1 : Shape := ⟨2, ![2048, 1]⟩
abbrev S1x1x32 : Shape := ⟨3, ![1, 1, 32]⟩
abbrev S2048x7 : Shape := ⟨2, ![2048, 7]⟩
abbrev S2048x7x1 : Shape := ⟨3, ![2048, 7, 1]⟩
abbrev S2048x1x1 : Shape := ⟨3, ![2048, 1, 1]⟩
abbrev S1x1x1 : Shape := ⟨3, ![1, 1, 1]⟩
abbrev S64x512 : Shape := ⟨2, ![64, 512]⟩
abbrev S2048x512 : Shape := ⟨2, ![2048, 512]⟩
abbrev S1x512 : Shape := ⟨2, ![1, 512]⟩
abbrev S2048x256 : Shape := ⟨2, ![2048, 256]⟩
abbrev S256x1 : Shape := ⟨2, ![256, 1]⟩
abbrev S1x1 : Shape := ⟨2, ![1, 1]⟩
abbrev S65536x1 : Shape := ⟨2, ![65536, 1]⟩

abbrev nBuf : Space → Nat
  | .hbm => 33
  | .vmem => 27
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S64x96, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S32, .f32⟩
  | .hbm, ⟨10, _⟩ => ⟨S1x64, .f32⟩
  | .hbm, ⟨11, _⟩ => ⟨S1, .f32⟩
  | .hbm, ⟨12, _⟩ => ⟨S256x64, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1x256, .f32⟩
  | .hbm, ⟨17, _⟩ => ⟨S1, .f32⟩
  | .hbm, ⟨18, _⟩ => ⟨S256x64, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S1x256, .f32⟩
  | .hbm, ⟨23, _⟩ => ⟨S1, .f32⟩
  | .hbm, ⟨24, _⟩ => ⟨S524288x64, .f32⟩
  | .hbm, ⟨25, _⟩ => ⟨S524288x32, .f32⟩
  | .hbm, ⟨26, _⟩ => ⟨S64x64, .f32⟩
  | .hbm, ⟨27, _⟩ => ⟨S64x32, .f32⟩
  | .hbm, ⟨28, _⟩ => ⟨S512x64, .f32⟩
  | .hbm, ⟨29, _⟩ => ⟨S512, .f32⟩
  | .hbm, ⟨30, _⟩ => ⟨S65536x2, .f32⟩
  | .hbm, ⟨31, _⟩ => ⟨S65536x1, .f32⟩
  | .hbm, ⟨32, _⟩ => ⟨S65536x1, .f32⟩
  | .local _ .vmem, ⟨0, _⟩ => ⟨S16384x64, .f32⟩
  | .local _ .vmem, ⟨1, _⟩ => ⟨S16384x64, .f32⟩
  | .local _ .vmem, ⟨2, _⟩ => ⟨S16384x32, .f32⟩
  | .local _ .vmem, ⟨3, _⟩ => ⟨S16384x32, .f32⟩
  | .local _ .vmem, ⟨4, _⟩ => ⟨S64x64, .f32⟩
  | .local _ .vmem, ⟨5, _⟩ => ⟨S64x32, .f32⟩
  | .local _ .vmem, ⟨6, _⟩ => ⟨S64, .f32⟩
  | .local _ .vmem, ⟨7, _⟩ => ⟨S32x64, .f32⟩
  | .local _ .vmem, ⟨8, _⟩ => ⟨S32, .f32⟩
  | .local _ .vmem, ⟨9, _⟩ => ⟨S32x64, .f32⟩
  | .local _ .vmem, ⟨10, _⟩ => ⟨S32, .f32⟩
  | .local _ .vmem, ⟨11, _⟩ => ⟨S32x64, .f32⟩
  | .local _ .vmem, ⟨12, _⟩ => ⟨S32, .f32⟩
  | .local _ .vmem, ⟨13, _⟩ => ⟨S1x64, .f32⟩
  | .local _ .vmem, ⟨14, _⟩ => ⟨S1, .f32⟩
  | .local _ .vmem, ⟨15, _⟩ => ⟨S512x64, .f32⟩
  | .local _ .vmem, ⟨16, _⟩ => ⟨S512, .f32⟩
  | .local _ .vmem, ⟨17, _⟩ => ⟨S256x256, .f32⟩
  | .local _ .vmem, ⟨18, _⟩ => ⟨S256, .f32⟩
  | .local _ .vmem, ⟨19, _⟩ => ⟨S256x256, .f32⟩
  | .local _ .vmem, ⟨20, _⟩ => ⟨S256, .f32⟩
  | .local _ .vmem, ⟨21, _⟩ => ⟨S1x256, .f32⟩
  | .local _ .vmem, ⟨22, _⟩ => ⟨S1, .f32⟩
  | .local _ .vmem, ⟨23, _⟩ => ⟨S1x256, .f32⟩
  | .local _ .vmem, ⟨24, _⟩ => ⟨S1, .f32⟩
  | .local _ .vmem, ⟨25, _⟩ => ⟨S2048x2, .f32⟩
  | .local _ .vmem, ⟨26, _⟩ => ⟨S2048x2, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2048x2 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S65536x512_S524288x64 : S65536x512.ShapeCasts S524288x64
  shapeCasts_S65536x256_S524288x32 : S65536x256.ShapeCasts S524288x32
  slices_S64x96_S64x64_0_0 : S64x96.Slices ![0, 0] S64x64
  slices_S64x96_S64x32_0_64 : S64x96.Slices ![0, 64] S64x32
  concatenates_S256x64_S256x64_S512x64_d0 : Shape.Concatenates [S256x64, S256x64] S512x64 0
  concatenates_S256_S256_S512_d0 : Shape.Concatenates [S256, S256] S512 0
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64_S64_0 : ∀ a, (![0] : Fin 1 → Nat) a + S64.size a ≤ S64.size a
  h_S64 : 0 < S64.numel
  transposes_S64x64_p1_0_S64x64 : S64x64.Transposes [1, 0] S64x64
  transposes_S64x32_p1_0_S32x64 : S64x32.Transposes [1, 0] S32x64
  shapeCasts_S64_S1x64 : S64.ShapeCasts S1x64
  broadcasts_S1x64_S16384x64 : S1x64.Broadcasts S16384x64
  shapeCasts_S16384x64_S2048x8x64 : S16384x64.ShapeCasts S2048x8x64
  slices_S2048x8x64_o0_0_0_S2048x1x64 : S2048x8x64.Slices ![0, 0, 0] S2048x1x64
  shapeCasts_S2048x1x64_S2048x64 : S2048x1x64.ShapeCasts S2048x64
  inb_S32x64_S32x64_0_0 : ∀ a, (![0, 0] : Fin 2 → Nat) a + S32x64.size a ≤ S32x64.size a
  h_S32x64 : 0 < S32x64.numel
  inb_S32_S32_0 : ∀ a, (![0] : Fin 1 → Nat) a + S32.size a ≤ S32.size a
  h_S32 : 0 < S32.numel
  transposes_S32x64_p1_0_S64x32 : S32x64.Transposes [1, 0] S64x32
  shapeCasts_S32_S1x32 : S32.ShapeCasts S1x32
  broadcasts_S1x32_S2048x32 : S1x32.Broadcasts S2048x32
  broadcasts_S1x32_S16384x32 : S1x32.Broadcasts S16384x32
  shapeCasts_S16384x32_S2048x8x32 : S16384x32.ShapeCasts S2048x8x32
  slices_S2048x8x32_o0_1_0_S2048x7x32 : S2048x8x32.Slices ![0, 1, 0] S2048x7x32
  slices_S2048x8x32_o0_0_0_S2048x1x32 : S2048x8x32.Slices ![0, 0, 0] S2048x1x32
  shapeCasts_S2048x1x32_S2048x32 : S2048x1x32.ShapeCasts S2048x32
  inb_S1x64_S1x64_0_0 : ∀ a, (![0, 0] : Fin 2 → Nat) a + S1x64.size a ≤ S1x64.size a
  h_S1x64 : 0 < S1x64.numel
  slices_S1x64_o0_0_S1x32 : S1x64.Slices ![0, 0] S1x32
  shapeCasts_S1x32_S32 : S1x32.ShapeCasts S32
  slices_S1x64_o0_32_S1x32 : S1x64.Slices ![0, 32] S1x32
  inb_S1_S1_0 : ∀ a, (![0] : Fin 1 → Nat) a + S1.size a ≤ S1.size a
  h_S1 : 0 < S1.numel
  reduces_S2048x32_S2048 : S2048x32.Reduces [1] S2048
  shapeCasts_S2048_S2048x1 : S2048.ShapeCasts S2048x1
  shapeCasts_S32_S1x1x32 : S32.ShapeCasts S1x1x32
  broadcasts_S1x1x32_S2048x7x32 : S1x1x32.Broadcasts S2048x7x32
  reduces_S2048x7x32_S2048x7 : S2048x7x32.Reduces [2] S2048x7
  shapeCasts_S2048x7_S2048x7x1 : S2048x7.ShapeCasts S2048x7x1
  shapeCasts_S2048x1_S2048x1x1 : S2048x1.ShapeCasts S2048x1x1
  broadcasts_S2048x1x1_S2048x7x1 : S2048x1x1.Broadcasts S2048x7x1
  shapeCasts_S1_S1x1x1 : S1.ShapeCasts S1x1x1
  broadcasts_S1x1x1_S2048x7x1 : S1x1x1.Broadcasts S2048x7x1
  reduces_S2048x7x1_S2048x1 : S2048x7x1.Reduces [1] S2048x1
  broadcasts_S2048x7x1_S2048x7x32 : S2048x7x1.Broadcasts S2048x7x32
  reduces_S2048x7x32_S2048x32 : S2048x7x32.Reduces [1] S2048x32
  concatenates_S2048x32_S2048x32_S2048x64_d1 : Shape.Concatenates [S2048x32, S2048x32] S2048x64 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512_S512_0 : ∀ a, (![0] : Fin 1 → Nat) a + S512.size a ≤ S512.size a
  h_S512 : 0 < S512.numel
  shapeCasts_S512_S512 : S512.ShapeCasts S512
  transposes_S512x64_p1_0_S64x512 : S512x64.Transposes [1, 0] S64x512
  shapeCasts_S512_S1x512 : S512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x256_p1_0_S256x256 : S256x256.Transposes [1, 0] S256x256
  bitsLt_bf16_f32 : FTy.bits .bf16 < FTy.bits .f32
  shapeCasts_S256_S1x256 : S256.ShapeCasts S1x256
  broadcasts_S1x256_S2048x256 : S1x256.Broadcasts S2048x256
  inb_S1x256_S1x256_0_0 : ∀ a, (![0, 0] : Fin 2 → Nat) a + S1x256.size a ≤ S1x256.size a
  h_S1x256 : 0 < S1x256.numel
  transposes_S1x256_p1_0_S256x1 : S1x256.Transposes [1, 0] S256x1
  shapeCasts_S1_S1x1 : S1.ShapeCasts S1x1
  broadcasts_S1x1_S2048x1 : S1x1.Broadcasts S2048x1
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  slices_S65536x2_S65536x1_0_0 : S65536x2.Slices ![0, 0] S65536x1
  slices_S65536x2_S65536x1_0_1 : S65536x2.Slices ![0, 1] S65536x1
  dot_S16384x64_S64x64_S16384x64_1_0_0_1_n_n_wf : DotDims.WF S16384x64 S64x64 S16384x64 [1] [0] [0] [1] [] []
  dot_S16384x32_S32x64_S16384x64_1_0_0_1_n_n_wf : DotDims.WF S16384x32 S32x64 S16384x64 [1] [0] [0] [1] [] []
  dot_S2048x64_S64x32_S2048x32_1_0_0_1_n_n_wf : DotDims.WF S2048x64 S64x32 S2048x32 [1] [0] [0] [1] [] []
  dot_S16384x64_S64x32_S16384x32_1_0_0_1_n_n_wf : DotDims.WF S16384x64 S64x32 S16384x32 [1] [0] [0] [1] [] []
  dot_S2048x64_S64x512_S2048x512_1_0_0_1_n_n_wf : DotDims.WF S2048x64 S64x512 S2048x512 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S524288x64.size a
  hwx0_0 : ∀ i : grid0.Coords, EltTy.bits .f32 = 32 ∨ (Rect.block (s := S524288x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S524288x32.size a
  hwx0_1 : ∀ i : grid0.Coords, EltTy.bits .f32 = 32 ∨ (Rect.block (s := S524288x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x64.size a ≤ S512x64.size a
  hwx0_13 : ∀ i : grid0.Coords, EltTy.bits .f32 = 32 ∨ (Rect.block (s := S512x64) S512x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .f32 = 32 ∨ (Rect.block (s := S256x256) S256x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1.size a ≤ S1.size a
  hwx0_20 : ∀ i : grid0.Coords, EltTy.bits .f32 = 32 ∨ (Rect.block (s := S1) S1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1.size a ≤ S1.size a
  hwx0_22 : ∀ i : grid0.Coords, EltTy.bits .f32 = 32 ∨ (Rect.block (s := S1) S1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x2.size a ≤ S65536x2.size a
  hwx0_23 : ∀ i : grid0.Coords, EltTy.bits .f32 = 32 ∨ (Rect.block (s := S65536x2) S2048x2.size (cc0_transform_23 i) (hinb0_23 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S512x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg20) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg21) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg16) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg17) S1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg22) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg23) S1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v6) S2048x2.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x256 : Shape := ⟨2, ![65536, 256]⟩
abbrev S64x96 : Shape := ⟨2, ![64, 96]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S65536x8x64 : Shape := ⟨3, ![65536, 8, 64]⟩
abbrev S65536x8x32 : Shape := ⟨3, ![65536, 8, 32]⟩
abbrev S65536x8x96 : Shape := ⟨3, ![65536, 8, 96]⟩
abbrev S1x1x64 : Shape := ⟨3, ![1, 1, 64]⟩
abbrev S_ : Shape := ⟨0, ![]⟩
abbrev S65536x1x64 : Shape := ⟨3, ![65536, 1, 64]⟩
abbrev S65536x64 : Shape := ⟨2, ![65536, 64]⟩
abbrev S65536x7x64 : Shape := ⟨3, ![65536, 7, 64]⟩
abbrev S64x32 : Shape := ⟨2, ![64, 32]⟩
abbrev S65536x32 : Shape := ⟨2, ![65536, 32]⟩
abbrev S1x32 : Shape := ⟨2, ![1, 32]⟩
abbrev S65536x7x32 : Shape := ⟨3, ![65536, 7, 32]⟩
abbrev S1x1x32 : Shape := ⟨3, ![1, 1, 32]⟩
abbrev S32x1 : Shape := ⟨2, ![32, 1]⟩
abbrev S65536x1 : Shape := ⟨2, ![65536, 1]⟩
abbrev S65536x1x1 : Shape := ⟨3, ![65536, 1, 1]⟩
abbrev S65536x7x1 : Shape := ⟨3, ![65536, 7, 1]⟩
abbrev S1x1x1 : Shape := ⟨3, ![1, 1, 1]⟩
abbrev S64x256 : Shape := ⟨2, ![64, 256]⟩
abbrev S256x1 : Shape := ⟨2, ![256, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S65536x512, .f32⟩
  | 1 => ⟨S65536x256, .f32⟩
  | 2 => ⟨S64x96, .f32⟩
  | 3 => ⟨S64, .f32⟩
  | 4 => ⟨S32x64, .f32⟩
  | 5 => ⟨S32, .f32⟩
  | 6 => ⟨S32x64, .f32⟩
  | 7 => ⟨S32, .f32⟩
  | 8 => ⟨S32x64, .f32⟩
  | 9 => ⟨S32, .f32⟩
  | 10 => ⟨S1x64, .f32⟩
  | 11 => ⟨S1, .f32⟩
  | 12 => ⟨S256x64, .f32⟩
  | 13 => ⟨S256, .f32⟩
  | 14 => ⟨S256x256, .f32⟩
  | 15 => ⟨S256, .f32⟩
  | 16 => ⟨S1x256, .f32⟩
  | 17 => ⟨S1, .f32⟩
  | 18 => ⟨S256x64, .f32⟩
  | 19 => ⟨S256, .f32⟩
  | 20 => ⟨S256x256, .f32⟩
  | 21 => ⟨S256, .f32⟩
  | 22 => ⟨S1x256, .f32⟩
  | 23 => ⟨S1, .f32⟩
  | 24 => ⟨S65536x8x64, .f32⟩
  | 25 => ⟨S65536x8x32, .f32⟩
  | 26 => ⟨S65536x8x96, .f32⟩
  | 27 => ⟨S65536x8x64, .f32⟩
  | 28 => ⟨S1x1x64, .f32⟩
  | 29 => ⟨S65536x8x64, .f32⟩
  | 30 => ⟨S65536x8x64, .f32⟩
  | 31 => ⟨S_, .f32⟩
  | 32 => ⟨S65536x8x64, .f32⟩
  | 33 => ⟨S65536x8x64, .i1⟩
  | 34 => ⟨S_, .f32⟩
  | 35 => ⟨S65536x8x64, .f32⟩
  | 36 => ⟨S65536x8x64, .f32⟩
  | 37 => ⟨S65536x8x64, .f32⟩
  | 38 => ⟨S65536x1x64, .f32⟩
  | 39 => ⟨S65536x64, .f32⟩
  | 40 => ⟨S65536x7x64, .f32⟩
  | 41 => ⟨S64x32, .f32⟩
  | 42 => ⟨S65536x32, .f32⟩
  | 43 => ⟨S1x32, .f32⟩
  | 44 => ⟨S65536x32, .f32⟩
  | 45 => ⟨S65536x32, .f32⟩
  | 46 => ⟨S65536x7x32, .f32⟩
  | 47 => ⟨S1x1x32, .f32⟩
  | 48 => ⟨S65536x7x32, .f32⟩
  | 49 => ⟨S65536x7x32, .f32⟩
  | 50 => ⟨S65536x7x32, .f32⟩
  | 51 => ⟨S1x1x32, .f32⟩
  | 52 => ⟨S65536x7x32, .f32⟩
  | 53 => ⟨S65536x7x32, .f32⟩
  | 54 => ⟨S64x32, .f32⟩
  | 55 => ⟨S65536x32, .f32⟩
  | 56 => ⟨S1x32, .f32⟩
  | 57 => ⟨S65536x32, .f32⟩
  | 58 => ⟨S65536x32, .f32⟩
  | 59 => ⟨S1x32, .f32⟩
  | 60 => ⟨S32x1, .f32⟩
  | 61 => ⟨S65536x1, .f32⟩
  | 62 => ⟨S65536x1x1, .f32⟩
  | 63 => ⟨S1x32, .f32⟩
  | 64 => ⟨S65536x7x1, .f32⟩
  | 65 => ⟨S65536x7x1, .f32⟩
  | 66 => ⟨S65536x7x1, .f32⟩
  | 67 => ⟨S1x1x1, .f32⟩
  | 68 => ⟨S65536x7x1, .f32⟩
  | 69 => ⟨S65536x7x1, .f32⟩
  | 70 => ⟨S_, .f32⟩
  | 71 => ⟨S65536x7x1, .f32⟩
  | 72 => ⟨S65536x7x1, .f32⟩
  | 73 => ⟨S_, .f32⟩
  | 74 => ⟨S65536x1, .f32⟩
  | 75 => ⟨S_, .f32⟩
  | 76 => ⟨S65536x1, .f32⟩
  | 77 => ⟨S65536x1, .f32⟩
  | 78 => ⟨S65536x1x1, .f32⟩
  | 79 => ⟨S65536x7x1, .f32⟩
  | 80 => ⟨S65536x7x1, .f32⟩
  | 81 => ⟨S65536x7x1, .f32⟩
  | 82 => ⟨S_, .f32⟩
  | 83 => ⟨S65536x1, .f32⟩
  | 84 => ⟨S65536x1x1, .f32⟩
  | 85 => ⟨S65536x7x1, .f32⟩
  | 86 => ⟨S65536x7x1, .f32⟩
  | 87 => ⟨S65536x7x32, .f32⟩
  | 88 => ⟨S65536x7x32, .f32⟩
  | 89 => ⟨S_, .f32⟩
  | 90 => ⟨S65536x32, .f32⟩
  | 91 => ⟨S65536x64, .f32⟩
  | 92 => ⟨S64x256, .f32⟩
  | 93 => ⟨S65536x256, .f32⟩
  | 94 => ⟨S1x256, .f32⟩
  | 95 => ⟨S65536x256, .f32⟩
  | 96 => ⟨S65536x256, .f32⟩
  | 97 => ⟨S_, .f32⟩
  | 98 => ⟨S65536x256, .f32⟩
  | 99 => ⟨S65536x256, .i1⟩
  | 100 => ⟨S_, .f32⟩
  | 101 => ⟨S65536x256, .f32⟩
  | 102 => ⟨S65536x256, .f32⟩
  | 103 => ⟨S65536x256, .f32⟩
  | 104 => ⟨S256x256, .f32⟩
  | 105 => ⟨S65536x256, .f32⟩
  | 106 => ⟨S1x256, .f32⟩
  | 107 => ⟨S65536x256, .f32⟩
  | 108 => ⟨S65536x256, .f32⟩
  | 109 => ⟨S_, .f32⟩
  | 110 => ⟨S65536x256, .f32⟩
  | 111 => ⟨S65536x256, .i1⟩
  | 112 => ⟨S_, .f32⟩
  | 113 => ⟨S65536x256, .f32⟩
  | 114 => ⟨S65536x256, .f32⟩
  | 115 => ⟨S65536x256, .f32⟩
  | 116 => ⟨S256x1, .f32⟩
  | 117 => ⟨S65536x1, .f32⟩
  | 118 => ⟨S1x1, .f32⟩
  | 119 => ⟨S65536x1, .f32⟩
  | 120 => ⟨S65536x1, .f32⟩
  | 121 => ⟨S64x256, .f32⟩
  | 122 => ⟨S65536x256, .f32⟩
  | 123 => ⟨S1x256, .f32⟩
  | 124 => ⟨S65536x256, .f32⟩
  | 125 => ⟨S65536x256, .f32⟩
  | 126 => ⟨S_, .f32⟩
  | 127 => ⟨S65536x256, .f32⟩
  | _ => ⟨S65536x512, .f32⟩

abbrev hbmTy0_1 (i : Nat) : BufTy := match i % 128 with
  | 0 => ⟨S65536x256, .i1⟩
  | 1 => ⟨S_, .f32⟩
  | 2 => ⟨S65536x256, .f32⟩
  | 3 => ⟨S65536x256, .f32⟩
  | 4 => ⟨S65536x256, .f32⟩
  | 5 => ⟨S256x256, .f32⟩
  | 6 => ⟨S65536x256, .f32⟩
  | 7 => ⟨S1x256, .f32⟩
  | 8 => ⟨S65536x256, .f32⟩
  | 9 => ⟨S65536x256, .f32⟩
  | 10 => ⟨S_, .f32⟩
  | 11 => ⟨S65536x256, .f32⟩
  | 12 => ⟨S65536x256, .i1⟩
  | 13 => ⟨S_, .f32⟩
  | 14 => ⟨S65536x256, .f32⟩
  | 15 => ⟨S65536x256, .f32⟩
  | 16 => ⟨S65536x256, .f32⟩
  | 17 => ⟨S256x1, .f32⟩
  | 18 => ⟨S65536x1, .f32⟩
  | 19 => ⟨S1x1, .f32⟩
  | 20 => ⟨S65536x1, .f32⟩
  | 21 => ⟨S65536x1, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_1 : Ref sig .tc := ⟨.hbm, 70, rfl⟩
abbrev main_v44 : Ref sig .tc := ⟨.hbm, 71, rfl⟩
abbrev main_v45 : Ref sig .tc := ⟨.hbm, 72, rfl⟩
abbrev main_cst_2 : Ref sig .tc := ⟨.hbm, 73, rfl⟩
abbrev main_v46 : Ref sig .tc := ⟨.hbm, 74, rfl⟩
abbrev main_cst_3 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_4 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_6 : Ref sig .tc := ⟨.hbm, 97, rfl⟩
abbrev main_v66 : Ref sig .tc := ⟨.hbm, 98, rfl⟩
abbrev main_v67 : Ref sig .tc := ⟨.hbm, 99, rfl⟩
abbrev main_cst_7 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_cst_9 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_10 : Ref sig .tc := ⟨.hbm, 126, rfl⟩
abbrev main_v91 : Ref sig .tc := ⟨.hbm, 127, rfl⟩
abbrev main_v92 : Ref sig .tc := ⟨.hbm, 128, rfl⟩
abbrev main_cst_11 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_12 : Ref sig .tc := ⟨.hbm, 138, rfl⟩
abbrev main_v101 : Ref sig .tc := ⟨.hbm, 139, rfl⟩
abbrev main_v102 : Ref sig .tc := ⟨.hbm, 140, rfl⟩
abbrev main_cst_13 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]

class Facts₀ : Prop where
  shapeCasts_S65536x512_S65536x8x64 : S65536x512.ShapeCasts S65536x8x64
  shapeCasts_S65536x256_S65536x8x32 : S65536x256.ShapeCasts S65536x8x32
  concatenates_S65536x8x64_S65536x8x32_S65536x8x96_d2 : Shape.Concatenates [S65536x8x64, S65536x8x32] S65536x8x96 2
  bcast_S64_S1x1x64_2 : S64.BroadcastsInDim S1x1x64 (![2] : Fin 1 → Fin S1x1x64.rank)
  bcast_S1x1x64_S65536x8x64_0_1_2 : S1x1x64.BroadcastsInDim S65536x8x64 (![0, 1, 2] : Fin 3 → Fin S65536x8x64.rank)
  bcast_S_S65536x8x64 : S_.BroadcastsInDim S65536x8x64 (![] : Fin 0 → Fin S65536x8x64.rank)
  slices_S65536x8x64_S65536x1x64_0_0_0 : S65536x8x64.Slices ![0, 0, 0] S65536x1x64
  shapeCasts_S65536x1x64_S65536x64 : S65536x1x64.ShapeCasts S65536x64
  slices_S65536x8x64_S65536x7x64_0_1_0 : S65536x8x64.Slices ![0, 1, 0] S65536x7x64
  transposes_S32x64_S64x32_1_0 : S32x64.Transposes [1, 0] S64x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S32_S1x1x32_2 : S32.BroadcastsInDim S1x1x32 (![2] : Fin 1 → Fin S1x1x32.rank)
  bcast_S1x1x32_S65536x7x32_0_1_2 : S1x1x32.BroadcastsInDim S65536x7x32 (![0, 1, 2] : Fin 3 → Fin S65536x7x32.rank)
  slices_S1x64_S1x32_0_0 : S1x64.Slices ![0, 0] S1x32
  transposes_S1x32_S32x1_1_0 : S1x32.Transposes [1, 0] S32x1
  bcast_S65536x1_S65536x1x1_0_2 : S65536x1.BroadcastsInDim S65536x1x1 (![0, 2] : Fin 2 → Fin S65536x1x1.rank)
  slices_S1x64_S1x32_0_32 : S1x64.Slices ![0, 32] S1x32
  bcast_S65536x1x1_S65536x7x1_0_1_2 : S65536x1x1.BroadcastsInDim S65536x7x1 (![0, 1, 2] : Fin 3 → Fin S65536x7x1.rank)
  bcast_S1_S1x1x1_2 : S1.BroadcastsInDim S1x1x1 (![2] : Fin 1 → Fin S1x1x1.rank)
  bcast_S1x1x1_S65536x7x1_0_1_2 : S1x1x1.BroadcastsInDim S65536x7x1 (![0, 1, 2] : Fin 3 → Fin S65536x7x1.rank)
  bcast_S_S65536x7x1 : S_.BroadcastsInDim S65536x7x1 (![] : Fin 0 → Fin S65536x7x1.rank)
  reducesTo_S65536x7x1_S65536x1_d1 : S65536x7x1.ReducesTo [1] S65536x1
  h_S_ : 0 < S_.numel
  bcast_S_S65536x1 : S_.BroadcastsInDim S65536x1 (![] : Fin 0 → Fin S65536x1.rank)
  bcast_S65536x7x1_S65536x7x32_0_1_2 : S65536x7x1.BroadcastsInDim S65536x7x32 (![0, 1, 2] : Fin 3 → Fin S65536x7x32.rank)
  reducesTo_S65536x7x32_S65536x32_d1 : S65536x7x32.ReducesTo [1] S65536x32
  concatenates_S65536x32_S65536x32_S65536x64_d1 : Shape.Concatenates [S65536x32, S65536x32] S65536x64 1
  transposes_S256x64_S64x256_1_0 : S256x64.Transposes [1, 0] S64x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x8x96_S64x96_S65536x8x64_2_1_01_0_n_n_wf : DotDims.WF S65536x8x96 S64x96 S65536x8x64 [2] [1] [0, 1] [0] [] []
  dot_S65536x64_S64x32_S65536x32_1_0_0_1_n_n_wf : DotDims.WF S65536x64 S64x32 S65536x32 [1] [0] [0] [1] [] []
  dot_S65536x7x64_S32x64_S65536x7x32_2_1_01_0_n_n_wf : DotDims.WF S65536x7x64 S32x64 S65536x7x32 [2] [1] [0, 1] [0] [] []
  dot_S65536x32_S32x1_S65536x1_1_0_0_1_n_n_wf : DotDims.WF S65536x32 S32x1 S65536x1 [1] [0] [0] [1] [] []
  dot_S65536x7x32_S1x32_S65536x7x1_2_1_01_0_n_n_wf : DotDims.WF S65536x7x32 S1x32 S65536x7x1 [2] [1] [0, 1] [0] [] []
  dot_S65536x64_S64x256_S65536x256_1_0_0_1_n_n_wf : DotDims.WF S65536x64 S64x256 S65536x256 [1] [0] [0] [1] [] []
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []

variable [Facts₀]

def dot_S65536x8x96_S64x96_S65536x8x64_2_1_01_0_n_n : DotDims S65536x8x96 S64x96 S65536x8x64 where
  lhsContracting := [2]
  rhsContracting := [1]
  lhsNonContracting := [0, 1]
  rhsNonContracting := [0]
  lhsBatch := []
  rhsBatch := []
  wf := dot_S65536x8x96_S64x96_S65536x8x64_2_1_01_0_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x7x64_S32x64_S65536x7x32_2_1_01_0_n_n : DotDims S65536x7x64 S32x64 S65536x7x32 where
  lhsContracting := [2]
  rhsContracting := [1]
  lhsNonContracting := [0, 1]
  rhsNonContracting := [0]
  lhsBatch := []
  rhsBatch := []
  wf := dot_S65536x7x64_S32x64_S65536x7x32_2_1_01_0_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf
def dot_S65536x7x32_S1x32_S65536x7x1_2_1_01_0_n_n : DotDims S65536x7x32 S1x32 S65536x7x1 where
  lhsContracting := [2]
  rhsContracting := [1]
  lhsNonContracting := [0, 1]
  rhsNonContracting := [0]
  lhsBatch := []
  rhsBatch := []
  wf := dot_S65536x7x32_S1x32_S65536x7x1_2_1_01_0_n_n_wf
def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.AttnCritic.lean ====
/-
  One row of the attention critic, as a function on the extended reals.

  A row carries eight agents, each with 64 observation features and 32 action features. Every agent is embedded by
  one shared affine map (64 + 32 inputs, 64 outputs) followed by a leaky rectifier. Agent 0, the row's own agent,
  gives the query and its own value vector; agents 1 … 7 give keys and values. The seven logits are the sum of a
  linear form of the query, a linear form of the key and a bias, scaled by 1/16; a softmax over the seven agents
  (shifted by their maximum) weighs the seven value vectors. Own value and weighted value, 32 + 32 entries, feed two
  heads, each two leaky affine layers of width 256 and a last linear form. The two results of a row depend on that row
  only, so a program that treats 2048 rows at a time and one that treats all rows at once compute this same function
  row by row; the parameters are read either from the whole argument arrays or from the weight blocks a grid point holds.
-/
import Idealize.ShloMosaic.PureOps.Ideal
import Idealize.ShloMosaic.PureOps.Ideal.Laws
import Idealize.ShloMosaic.Lib.ValueIdx

noncomputable section

namespace Cert.AttnCritic

open Idealize.ShloMosaic Idealize.ShloMosaic.ValueIdx

/-- The weights and biases one row's computation reads, entry by entry. -/
structure Params where
  embObs : Fin 64 → Fin 64 → EReal
  embAct : Fin 64 → Fin 32 → EReal
  embBias : Fin 64 → EReal
  qW : Fin 32 → Fin 64 → EReal
  qB : Fin 32 → EReal
  kW : Fin 32 → Fin 64 → EReal
  kB : Fin 32 → EReal
  vW : Fin 32 → Fin 64 → EReal
  vB : Fin 32 → EReal
  attQ : Fin 32 → EReal
  attK : Fin 32 → EReal
  attB : EReal
  a1W : Fin 256 → Fin 64 → EReal
  a1B : Fin 256 → EReal
  a2W : Fin 256 → Fin 256 → EReal
  a2B : Fin 256 → EReal
  a3W : Fin 256 → EReal
  a3B : EReal
  b1W : Fin 256 → Fin 64 → EReal
  b1B : Fin 256 → EReal
  b2W : Fin 256 → Fin 256 → EReal
  b2B : Fin 256 → EReal
  b3W : Fin 256 → EReal
  b3B : EReal

/-- The leaky rectifier: x where x ≥ 0, else the slope (the float nearest 1/100) times x. -/
def leaky (x : EReal) : EReal :=
  Scalar.select (FloatOps.cmpf (F := Ideal) (φ := .f32) .oge x (Ideal.ofBits .f32 0x00000000#32)) x
    (Ideal.ofBits .f32 0x3C23D70A#32 * x)

/-- Two vectors of 32 entries one after the other. -/
def joinOf (own oth : Fin 32 → EReal) (f : Fin 64) : EReal :=
  if h : f.val < 32 then own ⟨f.val, h⟩ else oth ⟨f.val - 32, by omega⟩

/-- A head's first layer, of a 64-entry input. -/
def layer1 (xc : Fin 64 → EReal) (W : Fin 256 → Fin 64 → EReal) (b : Fin 256 → EReal) (u : Fin 256) : EReal :=
  leaky ((∑ f : Fin 64, xc f * W u f) + b u)

/-- A head's second layer. -/
def layer2 (xc : Fin 64 → EReal) (W1 : Fin 256 → Fin 64 → EReal) (b1 : Fin 256 → EReal) (W2 : Fin 256 → Fin 256 → EReal)
    (b2 : Fin 256 → EReal) (u : Fin 256) : EReal :=
  leaky ((∑ f : Fin 256, layer1 xc W1 b1 f * W2 u f) + b2 u)

/-- A head's result: the last linear form of the second layer, plus its bias. -/
def head (xc : Fin 64 → EReal) (W1 : Fin 256 → Fin 64 → EReal) (b1 : Fin 256 → EReal) (W2 : Fin 256 → Fin 256 → EReal)
    (b2 : Fin 256 → EReal) (W3 : Fin 256 → EReal) (b3 : EReal) : EReal :=
  (∑ f : Fin 256, layer2 xc W1 b1 W2 b2 f * W3 f) + b3

section Row

variable (P : Params) (obs : Fin 8 → Fin 64 → EReal) (act : Fin 8 → Fin 32 → EReal)

/-- Agent n's embedding: the observation part and the action part of the shared affine map, summed, then rectified. -/
def embed (n : Fin 8) (o : Fin 64) : EReal :=
  leaky ((∑ f : Fin 64, obs n f * P.embObs o f) + (∑ f : Fin 32, act n f * P.embAct o f) + P.embBias o)

/-- The query, from the row's own agent. -/
def query (o : Fin 32) : EReal := (∑ f : Fin 64, embed P obs act 0 f * P.qW o f) + P.qB o

/-- Agent n's key. -/
def key (n : Fin 8) (o : Fin 32) : EReal := (∑ f : Fin 64, embed P obs act n f * P.kW o f) + P.kB o

/-- Agent n's value vector. -/
def value (n : Fin 8) (o : Fin 32) : EReal := (∑ f : Fin 64, embed P obs act n f * P.vW o f) + P.vB o

/-- The scaled logit of the j-th other agent (agent j + 1). -/
def logit (j : Fin 7) : EReal :=
  ((∑ o : Fin 32, query P obs act o * P.attQ o) + (∑ o : Fin 32, key P obs act j.succ o * P.attK o) + P.attB)
    * Ideal.ofBits .f32 0x3D800000#32

/-- The largest of the seven logits (the fold of max from −∞). -/
def top : EReal := (Finset.univ : Finset (Fin 7)).fold max (Ideal.ofBits .f32 0xFF800000#32) (logit P obs act)

/-- The exponential of a logit shifted by the largest. -/
def expo (j : Fin 7) : EReal := Ideal.exp (logit P obs act j - top P obs act)

/-- The softmax weight of the j-th other agent. -/
def weight (j : Fin 7) : EReal := Ideal.div (expo P obs act j) (∑ j' : Fin 7, expo P obs act j')

/-- The others' values, weighted. -/
def others (o : Fin 32) : EReal := ∑ j : Fin 7, weight P obs act j * value P obs act j.succ o

/-- Own value followed by the others' weighted value. -/
def joined : Fin 64 → EReal := joinOf (value P obs act 0) (others P obs act)

/-- The first head's result. -/
def headA : EReal := head (joined P obs act) P.a1W P.a1B P.a2W P.a2B P.a3W P.a3B

/-- The second head's result. -/
def headB : EReal := head (joined P obs act) P.b1W P.b1B P.b2W P.b2B P.b3W P.b3B

/-- The row's two results. -/
def out (j : Fin 2) : EReal := if j.val = 0 then headA P obs act else headB P obs act

end Row

/-! ## Reading rows and parameters out of arrays -/

/-- Row b's observations in the whole observation array: agent n's 64 features are columns 64 n … 64 n + 63. -/
def obsRowOfArray (a0 : (⟨2, ![65536, 512]⟩ : Shape).Idx → EReal) (b : Fin 65536) (n : Fin 8) (f : Fin 64) : EReal :=
  a0 (ix2 b ⟨64 * n.val + f.val, by omega⟩)

/-- Row b's actions in the whole action array: agent n's 32 features are columns 32 n … 32 n + 31. -/
def actRowOfArray (a1 : (⟨2, ![65536, 256]⟩ : Shape).Idx → EReal) (b : Fin 65536) (n : Fin 8) (f : Fin 32) : EReal :=
  a1 (ix2 b ⟨32 * n.val + f.val, by omega⟩)

/-- Row r of a block of 2048 rows laid out one agent per line: agent n of row r is line 8 r + n. -/
def obsRowOfBlock (x0 : (⟨2, ![16384, 64]⟩ : Shape).Idx → EReal) (r : Fin 2048) (n : Fin 8) (f : Fin 64) : EReal :=
  x0 (ix2 ⟨8 * r.val + n.val, by omega⟩ f)

/-- The same for the action block. -/
def actRowOfBlock (x1 : (⟨2, ![16384, 32]⟩ : Shape).Idx → EReal) (r : Fin 2048) (n : Fin 8) (f : Fin 32) : EReal :=
  x1 (ix2 ⟨8 * r.val + n.val, by omega⟩ f)

/-- The parameters as the whole argument arrays hold them: the embedding's weight is one 64 × 96 matrix whose first 64
    columns meet the observations and last 32 the actions; the attention form is one 1 × 64 row, first half for the
    query, second half for the key; each head has its own three layers. -/
def Params.ofArgs
    (a2 : (⟨2, ![64, 96]⟩ : Shape).Idx → EReal) (a3 : (⟨1, ![64]⟩ : Shape).Idx → EReal)
    (a4 : (⟨2, ![32, 64]⟩ : Shape).Idx → EReal) (a5 : (⟨1, ![32]⟩ : Shape).Idx → EReal)
    (a6 : (⟨2, ![32, 64]⟩ : Shape).Idx → EReal) (a7 : (⟨1, ![32]⟩ : Shape).Idx → EReal)
    (a8 : (⟨2, ![32, 64]⟩ : Shape).Idx → EReal) (a9 : (⟨1, ![32]⟩ : Shape).Idx → EReal)
    (a10 : (⟨2, ![1, 64]⟩ : Shape).Idx → EReal) (a11 : (⟨1, ![1]⟩ : Shape).Idx → EReal)
    (a12 : (⟨2, ![256, 64]⟩ : Shape).Idx → EReal) (a13 : (⟨1, ![256]⟩ : Shape).Idx → EReal)
    (a14 : (⟨2, ![256, 256]⟩ : Shape).Idx → EReal) (a15 : (⟨1, ![256]⟩ : Shape).Idx → EReal)
    (a16 : (⟨2, ![1, 256]⟩ : Shape).Idx → EReal) (a17 : (⟨1, ![1]⟩ : Shape).Idx → EReal)
    (a18 : (⟨2, ![256, 64]⟩ : Shape).Idx → EReal) (a19 : (⟨1, ![256]⟩ : Shape).Idx → EReal)
    (a20 : (⟨2, ![256, 256]⟩ : Shape).Idx → EReal) (a21 : (⟨1, ![256]⟩ : Shape).Idx → EReal)
    (a22 : (⟨2, ![1, 256]⟩ : Shape).Idx → EReal) (a23 : (⟨1, ![1]⟩ : Shape).Idx → EReal) : Params where
  embObs o f := a2 (ix2 o ⟨f.val, by omega⟩)
  embAct o f := a2 (ix2 o ⟨64 + f.val, by omega⟩)
  embBias o := a3 (ix1 o)
  qW o f := a4 (ix2 o f)
  qB o := a5 (ix1 o)
  kW o f := a6 (ix2 o f)
  kB o := a7 (ix1 o)
  vW o f := a8 (ix2 o f)
  vB o := a9 (ix1 o)
  attQ o := a10 (ix2 (0 : Fin 1) ⟨o.val, by omega⟩)
  attK o := a10 (ix2 (0 : Fin 1) ⟨32 + o.val, by omega⟩)
  attB := a11 (ix1 (0 : Fin 1))
  a1W u f := a12 (ix2 u f)
  a1B u := a13 (ix1 u)
  a2W u f := a14 (ix2 u f)
  a2B u := a15 (ix1 u)
  a3W f := a16 (ix2 (0 : Fin 1) f)
  a3B := a17 (ix1 (0 : Fin 1))
  b1W u f := a18 (ix2 u f)
  b1B u := a19 (ix1 u)
  b2W u f := a20 (ix2 u f)
  b2B u := a21 (ix1 u)
  b3W f := a22 (ix2 (0 : Fin 1) f)
  b3B := a23 (ix1 (0 : Fin 1))

/-- The parameters as a grid point's weight blocks hold them: the embedding's weight already split in its two column
    groups, and the two heads' first layers stacked, head A's 256 lines above head B's. -/
def Params.ofBlocks
    (x2 : (⟨2, ![64, 64]⟩ : Shape).Idx → EReal) (x3 : (⟨2, ![64, 32]⟩ : Shape).Idx → EReal)
    (x4 : (⟨1, ![64]⟩ : Shape).Idx → EReal)
    (x5 : (⟨2, ![32, 64]⟩ : Shape).Idx → EReal) (x6 : (⟨1, ![32]⟩ : Shape).Idx → EReal)
    (x7 : (⟨2, ![32, 64]⟩ : Shape).Idx → EReal) (x8 : (⟨1, ![32]⟩ : Shape).Idx → EReal)
    (x9 : (⟨2, ![32, 64]⟩ : Shape).Idx → EReal) (x10 : (⟨1, ![32]⟩ : Shape).Idx → EReal)
    (x11 : (⟨2, ![1, 64]⟩ : Shape).Idx → EReal) (x12 : (⟨1, ![1]⟩ : Shape).Idx → EReal)
    (x13 : (⟨2, ![512, 64]⟩ : Shape).Idx → EReal) (x14 : (⟨1, ![512]⟩ : Shape).Idx → EReal)
    (x15 : (⟨2, ![256, 256]⟩ : Shape).Idx → EReal) (x16 : (⟨1, ![256]⟩ : Shape).Idx → EReal)
    (x17 : (⟨2, ![256, 256]⟩ : Shape).Idx → EReal) (x18 : (⟨1, ![256]⟩ : Shape).Idx → EReal)
    (x19 : (⟨2, ![1, 256]⟩ : Shape).Idx → EReal) (x20 : (⟨1, ![1]⟩ : Shape).Idx → EReal)
    (x21 : (⟨2, ![1, 256]⟩ : Shape).Idx → EReal) (x22 : (⟨1, ![1]⟩ : Shape).Idx → EReal) : Params where
  embObs o f := x2 (ix2 o f)
  embAct o f := x3 (ix2 o f)
  embBias o := x4 (ix1 o)
  qW o f := x5 (ix2 o f)
  qB o := x6 (ix1 o)
  kW o f := x7 (ix2 o f)
  kB o := x8 (ix1 o)
  vW o f := x9 (ix2 o f)
  vB o := x10 (ix1 o)
  attQ o := x11 (ix2 (0 : Fin 1) ⟨o.val, by omega⟩)
  attK o := x11 (ix2 (0 : Fin 1) ⟨32 + o.val, by omega⟩)
  attB := x12 (ix1 (0 : Fin 1))
  a1W u f := x13 (ix2 ⟨u.val, by omega⟩ f)
  a1B u := x14 (ix1 ⟨u.val, by omega⟩)
  a2W u f := x15 (ix2 u f)
  a2B u := x16 (ix1 u)
  a3W f := x19 (ix2 (0 : Fin 1) f)
  a3B := x20 (ix1 (0 : Fin 1))
  b1W u f := x13 (ix2 ⟨256 + u.val, by omega⟩ f)
  b1B u := x14 (ix1 ⟨256 + u.val, by omega⟩)
  b2W u f := x17 (ix2 u f)
  b2B u := x18 (ix1 u)
  b3W f := x21 (ix2 (0 : Fin 1) f)
  b3B := x22 (ix1 (0 : Fin 1))

/-! ## Three facts about the literals and one about sums -/

/-- The pattern of −∞ denotes the bottom of the extended reals, so it is neutral for max. -/
theorem max_negInf (y : EReal) : max (Ideal.ofBits .f32 0xFF800000#32) y = y := by
  simp [Ideal.ofBits, Ideal.ieee]

/-- 16.0 denotes the real 16. -/
theorem ofBits_sixteen : Ideal.ofBits .f32 0x41800000#32 = ((16 : ℝ) : EReal) := by
  simp [Ideal.ofBits, Ideal.ieee, -EReal.coe_mul]; norm_num

/-- 0.0625 denotes the real 1/16. -/
theorem ofBits_sixteenth : Ideal.ofBits .f32 0x3D800000#32 = ((1 / 16 : ℝ) : EReal) := by
  simp [Ideal.ofBits, Ideal.ieee, -EReal.coe_mul]; norm_num

/-- Dividing by 16 is multiplying by 1/16, on every extended real (the infinities included). -/
theorem div_sixteen (x : EReal) :
    Ideal.div x (Ideal.ofBits .f32 0x41800000#32) = x * Ideal.ofBits .f32 0x3D800000#32 := by
  rw [ofBits_sixteen, ofBits_sixteenth]
  exact Ideal.div_coe (by norm_num : (16 : ℝ) ≠ 0) x

/-- A sum over 96 indices is the sum over the first 64 plus the sum over the last 32. -/
theorem sum_split_96 (g : Fin 96 → EReal) :
    (∑ f : Fin 96, g f) = (∑ f : Fin 64, g ⟨f.val, by omega⟩) + ∑ f : Fin 32, g ⟨64 + f.val, by omega⟩ := by
  have h := Fin.sum_univ_add (M := EReal) (a := 64) (b := 32) (fun i => g i)
  rw [h]
  rfl

end Cert.AttnCritic

end
-- ==== Proof.Windows.lean ====
/-
  The arrays the kernel's one launch finds, and the blocks its grid points hold.

  Before the launch the host re-lays the observation array [65536, 512] as [524288, 64] (one agent per line: line 8 b + n is
  agent n of row b) and the action array [65536, 256] as [524288, 32]; cuts the embedding weight [64, 96] into its first 64
  and last 32 columns; and stacks the two heads' first-layer weights [256, 64] and biases [256] into [512, 64] and [512].
  The grid has 32 points; point t holds lines 16384 t … 16384 t + 16383 of the two re-laid arrays, every weight whole, and
  writes rows 2048 t … 2048 t + 2047 of the [65536, 2] result.
-/
import proofs.«174824_j49409303773229_2_alg».proof.Proof.Gen.KernelIdeal.Frame
import proofs.«174824_j49409303773229_2_alg».proof.Proof.AttnCritic
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.CriticKernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## Where each window's block sits, decided over the 32 grid points -/

/-- The two re-laid inputs and the result move one block down per point; they have one block across. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_23.index t (0 : Fin 2) = t.val ∧ win0_23.index t (1 : Fin 2) = 0 :=
  (by decide +kernel : ∀ t : Fin grid0.N, _)

/-- Window 2 is its whole array at every point. -/
theorem idx_whole2 : ∀ t : Fin cfg0.N, win0_2.index t (0 : Fin 2) = 0 ∧ win0_2.index t (1 : Fin 2) = 0 :=
  (by decide +kernel : ∀ t : Fin grid0.N, _)
/-- Window 3 is its whole array at every point. -/
theorem idx_whole3 : ∀ t : Fin cfg0.N, win0_3.index t (0 : Fin 2) = 0 ∧ win0_3.index t (1 : Fin 2) = 0 :=
  (by decide +kernel : ∀ t : Fin grid0.N, _)
/-- Window 4 is its whole array at every point. -/
theorem idx_whole4 : ∀ t : Fin cfg0.N, win0_4.index t (0 : Fin 1) = 0 :=
  (by decide +kernel : ∀ t : Fin grid0.N, _)
/-- Window 5 is its whole array at every point. -/
theorem idx_whole5 : ∀ t : Fin cfg0.N, win0_5.index t (0 : Fin 2) = 0 ∧ win0_5.index t (1 : Fin 2) = 0 :=
  (by decide +kernel : ∀ t : Fin grid0.N, _)
/-- Window 6 is its whole array at every point. -/
theorem idx_whole6 : ∀ t : Fin cfg0.N, win0_6.index t (0 : Fin 1) = 0 :=
  (by decide +kernel : ∀ t : Fin grid0.N, _)
/-- Window 7 is its whole array at every point. -/
theorem idx_whole7 : ∀ t : Fin cfg0.N, win0_7.index t (0 : Fin 2) = 0 ∧ win0_7.index t (1 : Fin 2) = 0 :=
  (by decide +kernel : ∀ t : Fin grid0.N, _)
/-- Window 8 is its whole array at every point. -/
theorem idx_whole8 : ∀ t : Fin cfg0.N, win0_8.index t (0 : Fin 1) = 0 :=
  (by decide +kernel : ∀ t : Fin grid0.N, _)
/-- Window 9 is its whole array at every point. -/
theorem idx_whole9 : ∀ t : Fin cfg0.N, win0_9.index t (0 : Fin 2) = 0 ∧ win0_9.index t (1 : Fin 2) = 0 :=
  (by decide +kernel : ∀ t : Fin grid0.N, _)
/-- Window 10 is its whole array at every point. -/
theorem idx_whole10 : ∀ t : Fin cfg0.N, win0_10.index t (0 : Fin 1) = 0 :=
  (by decide +kernel : ∀ t : Fin grid0.N, _)
/-- Window 11 is its whole array at every point. -/
theorem idx_whole11 : ∀ t : Fin cfg0.N, win0_11.index t (0 : Fin 2) = 0 ∧ win0_11.index t (1 : Fin 2) = 0 :=
  (by decide +kernel : ∀ t : Fin grid0.N, _)
/-- Window 12 is its whole array at every point. -/
theorem idx_whole12 : ∀ t : Fin cfg0.N, win0_12.index t (0 : Fin 1) = 0 :=
  (by decide +kernel : ∀ t : Fin grid0.N, _)
/-- Window 13 is its whole array at every point. -/
theorem idx_whole13 : ∀ t : Fin cfg0.N, win0_13.index t (0 : Fin 2) = 0 ∧ win0_13.index t (1 : Fin 2) = 0 :=
  (by decide +kernel : ∀ t : Fin grid0.N, _)
/-- Window 14 is its whole array at every point. -/
theorem idx_whole14 : ∀ t : Fin cfg0.N, win0_14.index t (0 : Fin 1) = 0 :=
  (by decide +kernel : ∀ t : Fin grid0.N, _)
/-- Window 15 is its whole array at every point. -/
theorem idx_whole15 : ∀ t : Fin cfg0.N, win0_15.index t (0 : Fin 2) = 0 ∧ win0_15.index t (1 : Fin 2) = 0 :=
  (by decide +kernel : ∀ t : Fin grid0.N, _)
/-- Window 16 is its whole array at every point. -/
theorem idx_whole16 : ∀ t : Fin cfg0.N, win0_16.index t (0 : Fin 1) = 0 :=
  (by decide +kernel : ∀ t : Fin grid0.N, _)
/-- Window 17 is its whole array at every point. -/
theorem idx_whole17 : ∀ t : Fin cfg0.N, win0_17.index t (0 : Fin 2) = 0 ∧ win0_17.index t (1 : Fin 2) = 0 :=
  (by decide +kernel : ∀ t : Fin grid0.N, _)
/-- Window 18 is its whole array at every point. -/
theorem idx_whole18 : ∀ t : Fin cfg0.N, win0_18.index t (0 : Fin 1) = 0 :=
  (by decide +kernel : ∀ t : Fin grid0.N, _)
/-- Window 19 is its whole array at every point. -/
theorem idx_whole19 : ∀ t : Fin cfg0.N, win0_19.index t (0 : Fin 2) = 0 ∧ win0_19.index t (1 : Fin 2) = 0 :=
  (by decide +kernel : ∀ t : Fin grid0.N, _)
/-- Window 20 is its whole array at every point. -/
theorem idx_whole20 : ∀ t : Fin cfg0.N, win0_20.index t (0 : Fin 1) = 0 :=
  (by decide +kernel : ∀ t : Fin grid0.N, _)
/-- Window 21 is its whole array at every point. -/
theorem idx_whole21 : ∀ t : Fin cfg0.N, win0_21.index t (0 : Fin 2) = 0 ∧ win0_21.index t (1 : Fin 2) = 0 :=
  (by decide +kernel : ∀ t : Fin grid0.N, _)
/-- Window 22 is its whole array at every point. -/
theorem idx_whole22 : ∀ t : Fin cfg0.N, win0_22.index t (0 : Fin 1) = 0 :=
  (by decide +kernel : ∀ t : Fin grid0.N, _)

/-! ## A whole window's block is its array as the launch finds it -/

theorem blk2 (c : Dev nD) (t : Fin cfg0.N) (y : S64x64.Idx) : iblk m c 2 t y = V m c main_v2 y := by
  show V m c main_v2 (((cfg0.win 2).blk t).view.emb y) = _
  obtain ⟨e0, e1⟩ := idx_whole2 t
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem blk3 (c : Dev nD) (t : Fin cfg0.N) (y : S64x32.Idx) : iblk m c 3 t y = V m c main_v3 y := by
  show V m c main_v3 (((cfg0.win 3).blk t).view.emb y) = _
  obtain ⟨e0, e1⟩ := idx_whole3 t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega

theorem blk4 (c : Dev nD) (t : Fin cfg0.N) (y : S64.Idx) : iblk m c 4 t y = V m c main_arg3 y := by
  show V m c main_arg3 (((cfg0.win 4).blk t).view.emb y) = _
  have e0 := idx_whole4 t
  refine congrArg _ (funext fun a => Fin.ext ?_)
  match a with
  | ⟨0, _⟩ => show win0_4.index t (0 : Fin 1) * 64 + 1 * (y 0).val = (y 0).val; omega

theorem blk5 (c : Dev nD) (t : Fin cfg0.N) (y : S32x64.Idx) : iblk m c 5 t y = V m c main_arg4 y := by
  show V m c main_arg4 (((cfg0.win 5).blk t).view.emb y) = _
  obtain ⟨e0, e1⟩ := idx_whole5 t
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 64 + 1 * (y 1).val = (y 1).val; omega

theorem blk6 (c : Dev nD) (t : Fin cfg0.N) (y : S32.Idx) : iblk m c 6 t y = V m c main_arg5 y := by
  show V m c main_arg5 (((cfg0.win 6).blk t).view.emb y) = _
  have e0 := idx_whole6 t
  refine congrArg _ (funext fun a => Fin.ext ?_)
  match a with
  | ⟨0, _⟩ => show win0_6.index t (0 : Fin 1) * 32 + 1 * (y 0).val = (y 0).val; omega

theorem blk7 (c : Dev nD) (t : Fin cfg0.N) (y : S32x64.Idx) : iblk m c 7 t y = V m c main_arg6 y := by
  show V m c main_arg6 (((cfg0.win 7).blk t).view.emb y) = _
  obtain ⟨e0, e1⟩ := idx_whole7 t
  refine congrArg _ (funext fun a => Fin.ext ?_)
  match a with
  | ⟨0, _⟩ => show win0_7.index t (0 : Fin 2) * 32 + 1 * (y 0).val = (y 0).val; omega
  | ⟨1, _⟩ => show win0_7.index t (1 : Fin 2) * 64 + 1 * (y 1).val = (y 1).val; omega

theorem blk8 (c : Dev nD) (t : Fin cfg0.N) (y : S32.Idx) : iblk m c 8 t y = V m c main_arg7 y := by
  show V m c main_arg7 (((cfg0.win 8).blk t).view.emb y) = _
  have e0 := idx_whole8 t
  refine congrArg _ (funext fun a => Fin.ext ?_)
  match a with
  | ⟨0, _⟩ => show win0_8.index t (0 : Fin 1) * 32 + 1 * (y 0).val = (y 0).val; omega

theorem blk9 (c : Dev nD) (t : Fin cfg0.N) (y : S32x64.Idx) : iblk m c 9 t y = V m c main_arg8 y := by
  show V m c main_arg8 (((cfg0.win 9).blk t).view.emb y) = _
  obtain ⟨e0, e1⟩ := idx_whole9 t
  refine congrArg _ (funext fun a => Fin.ext ?_)
  match a with
  | ⟨0, _⟩ => show win0_9.index t (0 : Fin 2) * 32 + 1 * (y 0).val = (y 0).val; omega
  | ⟨1, _⟩ => show win0_9.index t (1 : Fin 2) * 64 + 1 * (y 1).val = (y 1).val; omega

theorem blk10 (c : Dev nD) (t : Fin cfg0.N) (y : S32.Idx) : iblk m c 10 t y = V m c main_arg9 y := by
  show V m c main_arg9 (((cfg0.win 10).blk t).view.emb y) = _
  have e0 := idx_whole10 t
  refine congrArg _ (funext fun a => Fin.ext ?_)
  match a with
  | ⟨0, _⟩ => show win0_10.index t (0 : Fin 1) * 32 + 1 * (y 0).val = (y 0).val; omega

theorem blk11 (c : Dev nD) (t : Fin cfg0.N) (y : S1x64.Idx) : iblk m c 11 t y = V m c main_arg10 y := by
  show V m c main_arg10 (((cfg0.win 11).blk t).view.emb y) = _
  obtain ⟨e0, e1⟩ := idx_whole11 t
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 64 + 1 * (y 1).val = (y 1).val; omega

theorem blk12 (c : Dev nD) (t : Fin cfg0.N) (y : S1.Idx) : iblk m c 12 t y = V m c main_arg11 y := by
  show V m c main_arg11 (((cfg0.win 12).blk t).view.emb y) = _
  have e0 := idx_whole12 t
  refine congrArg _ (funext fun a => Fin.ext ?_)
  match a with
  | ⟨0, _⟩ => show win0_12.index t (0 : Fin 1) * 1 + 1 * (y 0).val = (y 0).val; omega

theorem blk13 (c : Dev nD) (t : Fin cfg0.N) (y : S512x64.Idx) : iblk m c 13 t y = V m c main_v4 y := by
  show V m c main_v4 (((cfg0.win 13).blk t).view.emb y) = _
  obtain ⟨e0, e1⟩ := idx_whole13 t
  refine congrArg _ (funext fun a => Fin.ext ?_)
  match a with
  | ⟨0, _⟩ => show win0_13.index t (0 : Fin 2) * 512 + 1 * (y 0).val = (y 0).val; omega
  | ⟨1, _⟩ => show win0_13.index t (1 : Fin 2) * 64 + 1 * (y 1).val = (y 1).val; omega

theorem blk14 (c : Dev nD) (t : Fin cfg0.N) (y : S512.Idx) : iblk m c 14 t y = V m c main_v5 y := by
  show V m c main_v5 (((cfg0.win 14).blk t).view.emb y) = _
  have e0 := idx_whole14 t
  refine congrArg _ (funext fun a => Fin.ext ?_)
  match a with
  | ⟨0, _⟩ => show win0_14.index t (0 : Fin 1) * 512 + 1 * (y 0).val = (y 0).val; omega

theorem blk15 (c : Dev nD) (t : Fin cfg0.N) (y : S256x256.Idx) : iblk m c 15 t y = V m c main_arg14 y := by
  show V m c main_arg14 (((cfg0.win 15).blk t).view.emb y) = _
  obtain ⟨e0, e1⟩ := idx_whole15 t
  refine congrArg _ (funext fun a => Fin.ext ?_)
  match a with
  | ⟨0, _⟩ => show win0_15.index t (0 : Fin 2) * 256 + 1 * (y 0).val = (y 0).val; omega
  | ⟨1, _⟩ => show win0_15.index t (1 : Fin 2) * 256 + 1 * (y 1).val = (y 1).val; omega

theorem blk16 (c : Dev nD) (t : Fin cfg0.N) (y : S256.Idx) : iblk m c 16 t y = V m c main_arg15 y := by
  show V m c main_arg15 (((cfg0.win 16).blk t).view.emb y) = _
  have e0 := idx_whole16 t
  refine congrArg _ (funext fun a => Fin.ext ?_)
  match a with
  | ⟨0, _⟩ => show win0_16.index t (0 : Fin 1) * 256 + 1 * (y 0).val = (y 0).val; omega

theorem blk17 (c : Dev nD) (t : Fin cfg0.N) (y : S256x256.Idx) : iblk m c 17 t y = V m c main_arg20 y := by
  show V m c main_arg20 (((cfg0.win 17).blk t).view.emb y) = _
  obtain ⟨e0, e1⟩ := idx_whole17 t
  refine congrArg _ (funext fun a => Fin.ext ?_)
  match a with
  | ⟨0, _⟩ => show win0_17.index t (0 : Fin 2) * 256 + 1 * (y 0).val = (y 0).val; omega
  | ⟨1, _⟩ => show win0_17.index t (1 : Fin 2) * 256 + 1 * (y 1).val = (y 1).val; omega

theorem blk18 (c : Dev nD) (t : Fin cfg0.N) (y : S256.Idx) : iblk m c 18 t y = V m c main_arg21 y := by
  show V m c main_arg21 (((cfg0.win 18).blk t).view.emb y) = _
  have e0 := idx_whole18 t
  refine congrArg _ (funext fun a => Fin.ext ?_)
  match a with
  | ⟨0, _⟩ => show win0_18.index t (0 : Fin 1) * 256 + 1 * (y 0).val = (y 0).val; omega

theorem blk19 (c : Dev nD) (t : Fin cfg0.N) (y : S1x256.Idx) : iblk m c 19 t y = V m c main_arg16 y := by
  show V m c main_arg16 (((cfg0.win 19).blk t).view.emb y) = _
  obtain ⟨e0, e1⟩ := idx_whole19 t
  refine congrArg _ (funext fun a => Fin.ext ?_)
  match a with
  | ⟨0, _⟩ => show win0_19.index t (0 : Fin 2) * 1 + 1 * (y 0).val = (y 0).val; omega
  | ⟨1, _⟩ => show win0_19.index t (1 : Fin 2) * 256 + 1 * (y 1).val = (y 1).val; omega

theorem blk20 (c : Dev nD) (t : Fin cfg0.N) (y : S1.Idx) : iblk m c 20 t y = V m c main_arg17 y := by
  show V m c main_arg17 (((cfg0.win 20).blk t).view.emb y) = _
  have e0 := idx_whole20 t
  refine congrArg _ (funext fun a => Fin.ext ?_)
  match a with
  | ⟨0, _⟩ => show win0_20.index t (0 : Fin 1) * 1 + 1 * (y 0).val = (y 0).val; omega

theorem blk21 (c : Dev nD) (t : Fin cfg0.N) (y : S1x256.Idx) : iblk m c 21 t y = V m c main_arg22 y := by
  show V m c main_arg22 (((cfg0.win 21).blk t).view.emb y) = _
  obtain ⟨e0, e1⟩ := idx_whole21 t
  refine congrArg _ (funext fun a => Fin.ext ?_)
  match a with
  | ⟨0, _⟩ => show win0_21.index t (0 : Fin 2) * 1 + 1 * (y 0).val = (y 0).val; omega
  | ⟨1, _⟩ => show win0_21.index t (1 : Fin 2) * 256 + 1 * (y 1).val = (y 1).val; omega

theorem blk22 (c : Dev nD) (t : Fin cfg0.N) (y : S1.Idx) : iblk m c 22 t y = V m c main_arg23 y := by
  show V m c main_arg23 (((cfg0.win 22).blk t).view.emb y) = _
  have e0 := idx_whole22 t
  refine congrArg _ (funext fun a => Fin.ext ?_)
  match a with
  | ⟨0, _⟩ => show win0_22.index t (0 : Fin 1) * 1 + 1 * (y 0).val = (y 0).val; omega

/-! ## The moving windows' blocks -/

/-- The grid has 32 points. -/
theorem pt_lt (t : Fin cfg0.N) : t.val < 32 := lt_of_lt_of_eq t.isLt N_0

/-- Point t's observation block is lines 16384 t … of the re-laid observation array. -/
theorem blk0 (c : Dev nD) (t : Fin cfg0.N) (y : S16384x64.Idx) :
    iblk m c 0 t y = V m c main_v0 (ix2 (⟨16384 * t.val + (y 0).val, by
      have := pt_lt t; have h0 : (y 0).val < 16384 := (y 0).isLt; omega⟩ : Fin 524288) (⟨(y 1).val, (y 1).isLt⟩ : Fin 64)) := by
  show V m c main_v0 (((cfg0.win 0).blk t).view.emb y) = _
  obtain ⟨e0, e1, -, -, -, -⟩ := idx_moving t
  refine congrArg _ (funext fun a => Fin.ext ?_)
  match a with
  | ⟨0, _⟩ => show win0_0.index t (0 : Fin 2) * 16384 + 1 * (y 0).val = 16384 * t.val + (y 0).val; omega
  | ⟨1, _⟩ => show win0_0.index t (1 : Fin 2) * 64 + 1 * (y 1).val = (y 1).val; omega

/-- Point t's action block is lines 16384 t … of the re-laid action array. -/
theorem blk1 (c : Dev nD) (t : Fin cfg0.N) (y : S16384x32.Idx) :
    iblk m c 1 t y = V m c main_v1 (ix2 (⟨16384 * t.val + (y 0).val, by
      have := pt_lt t; have h0 : (y 0).val < 16384 := (y 0).isLt; omega⟩ : Fin 524288) (⟨(y 1).val, (y 1).isLt⟩ : Fin 32)) := by
  show V m c main_v1 (((cfg0.win 1).blk t).view.emb y) = _
  obtain ⟨-, -, e0, e1, -, -⟩ := idx_moving t
  refine congrArg _ (funext fun a => Fin.ext ?_)
  match a with
  | ⟨0, _⟩ => show win0_1.index t (0 : Fin 2) * 16384 + 1 * (y 0).val = 16384 * t.val + (y 0).val; omega
  | ⟨1, _⟩ => show win0_1.index t (1 : Fin 2) * 32 + 1 * (y 1).val = (y 1).val; omega

/-! ## The arrays the host lines before the launch write, as terms of the arguments -/

theorem entry_v0 (c : Dev nD) : (V m c main_v0 : S524288x64.Idx → EReal)
    = shapeCast S524288x64 (m ((c : Thread nD τ).loc main_arg0)) shapeCasts_S65536x512_S524288x64 := by
  show StableHlo.after hostOps0 (fun b => m (c, b)) (Proc.devRef .tc main_v0) = _
  after_results
  rfl

theorem entry_v1 (c : Dev nD) : (V m c main_v1 : S524288x32.Idx → EReal)
    = shapeCast S524288x32 (m ((c : Thread nD τ).loc main_arg1)) shapeCasts_S65536x256_S524288x32 := by
  show StableHlo.after hostOps0 (fun b => m (c, b)) (Proc.devRef .tc main_v1) = _
  after_results
  rfl

theorem entry_v2 (c : Dev nD) : (V m c main_v2 : S64x64.Idx → EReal)
    = extractStridedSlice S64x64 ![0, 0] (m ((c : Thread nD τ).loc main_arg2)) slices_S64x96_S64x64_0_0 := by
  show StableHlo.after hostOps0 (fun b => m (c, b)) (Proc.devRef .tc main_v2) = _
  after_results

theorem entry_v3 (c : Dev nD) : (V m c main_v3 : S64x32.Idx → EReal)
    = extractStridedSlice S64x32 ![0, 64] (m ((c : Thread nD τ).loc main_arg2)) slices_S64x96_S64x32_0_64 := by
  show StableHlo.after hostOps0 (fun b => m (c, b)) (Proc.devRef .tc main_v3) = _
  after_results

theorem entry_v4 (c : Dev nD) : (V m c main_v4 : S512x64.Idx → EReal)
    = concatenate S512x64 0 [⟨S256x64, m ((c : Thread nD τ).loc main_arg12)⟩, ⟨S256x64, m ((c : Thread nD τ).loc main_arg18)⟩]
        concatenates_S256x64_S256x64_S512x64_d0 := by
  show StableHlo.after hostOps0 (fun b => m (c, b)) (Proc.devRef .tc main_v4) = _
  after_results

theorem entry_v5 (c : Dev nD) : (V m c main_v5 : S512.Idx → EReal)
    = concatenate S512 0 [⟨S256, m ((c : Thread nD τ).loc main_arg13)⟩, ⟨S256, m ((c : Thread nD τ).loc main_arg19)⟩]
        concatenates_S256_S256_S512_d0 := by
  show StableHlo.after hostOps0 (fun b => m (c, b)) (Proc.devRef .tc main_v5) = _
  after_results

end Cert.CriticKernel

end
-- ==== Proof.Rows.lean ====
/-
  A grid point's rows and parameters are the whole arrays' rows and parameters.

  Line l of the re-laid observation array is agent l mod 8 of row l div 8: its entry f is column 64 (l mod 8) + f of that row
  of the observation argument; likewise for the actions with 32. So agent n of row r of point t's block — line
  16384 t + 8 r + n — is agent n of row 2048 t + r of the argument. The two column groups of the embedding weight and the
  two halves of the stacked first layers are read back where the host lines took them from.
-/
import proofs.«174824_j49409303773229_2_alg».proof.Proof.Windows

set_option maxRecDepth 16384

noncomputable section

namespace Cert.CriticKernel

open Cert.KernelIdeal Cert.KernelIdeal.Gen Idealize.ShloMosaic Idealize.ShloMosaic.TcCoe Idealize.SL.Sem
open Idealize.ShloMosaic.ValueIdx Idealize.ShloMosaic.StableHlo Cert.AttnCritic

variable (m : (ℓ : Loc nD τ sig) → Buf (Elt Ideal) ℓ)

/-! ## The host-written arrays at an index -/

/-- Line l, entry f of the re-laid observations. -/
theorem obs_line (c : Dev nD) (l : Fin 524288) (f : Fin 64) :
    V m c main_v0 (ix2 l f)
      = (m ((c : Thread nD τ).loc main_arg0)) (ix2 (⟨l.val / 8, by omega⟩ : Fin 65536) (⟨64 * (l.val % 8) + f.val, by omega⟩ : Fin 512)) := by
  refine (congrFun (entry_v0 m c) (ix2 l f)).trans ?_
  exact shapeCast_apply _ shapeCasts_S65536x512_S524288x64 (ix2 l f) _ (by
    rewrite [Shape.rowMajor_val_two, Shape.rowMajor_val_two]
    show (l.val / 8) * 512 + (64 * (l.val % 8) + f.val) = l.val * 64 + f.val
    omega)

/-- Line l, entry f of the re-laid actions. -/
theorem act_line (c : Dev nD) (l : Fin 524288) (f : Fin 32) :
    V m c main_v1 (ix2 l f)
      = (m ((c : Thread nD τ).loc main_arg1)) (ix2 (⟨l.val / 8, by omega⟩ : Fin 65536) (⟨32 * (l.val % 8) + f.val, by omega⟩ : Fin 256)) := by
  refine (congrFun (entry_v1 m c) (ix2 l f)).trans ?_
  exact shapeCast_apply _ shapeCasts_S65536x256_S524288x32 (ix2 l f) _ (by
    rewrite [Shape.rowMajor_val_two, Shape.rowMajor_val_two]
    show (l.val / 8) * 256 + (32 * (l.val % 8) + f.val) = l.val * 32 + f.val
    omega)

/-- The embedding weight's first 64 columns. -/
theorem embObs_entry (c : Dev nD) (o : Fin 64) (f : Fin 64) :
    V m c main_v2 (ix2 o f) = (m ((c : Thread nD τ).loc main_arg2)) (ix2 o (⟨f.val, by omega⟩ : Fin 96)) := by
  refine (congrFun (entry_v2 m c) (ix2 o f)).trans ?_
  exact slice2_axis1_apply 0 _ slices_S64x96_S64x64_0_0 o f _ (Nat.zero_add _).symm

/-- The embedding weight's last 32 columns. -/
theorem embAct_entry (c : Dev nD) (o : Fin 64) (f : Fin 32) :
    V m c main_v3 (ix2 o f) = (m ((c : Thread nD τ).loc main_arg2)) (ix2 o (⟨64 + f.val, by omega⟩ : Fin 96)) := by
  refine (congrFun (entry_v3 m c) (ix2 o f)).trans ?_
  exact slice2_axis1_apply 64 _ slices_S64x96_S64x32_0_64 o f _ rfl

/-- The stacked first-layer weight: its upper 256 lines are the first head's. -/
theorem stackW_top (c : Dev nD) (u : Fin 256) (f : Fin 64) :
    V m c main_v4 (ix2 (⟨u.val, by omega⟩ : Fin 512) f) = (m ((c : Thread nD τ).loc main_arg12)) (ix2 u f) := by
  refine (congrFun (entry_v4 m c) _).trans ?_
  exact concatenate_pair_apply_left (t := S512x64) (s₁ := S256x64) (s₂ := S256x64) (0 : Fin 2) _ _ concatenates_S256x64_S256x64_S512x64_d0
    (ix2 (⟨u.val, by omega⟩ : Fin 512) f) rfl (ix2 u f)
    (fun b => by match b with | ⟨0, _⟩ => rfl | ⟨1, _⟩ => rfl)

/-- Its lower 256 lines are the second head's. -/
theorem stackW_bot (c : Dev nD) (u : Fin 256) (f : Fin 64) :
    V m c main_v4 (ix2 (⟨256 + u.val, by omega⟩ : Fin 512) f) = (m ((c : Thread nD τ).loc main_arg18)) (ix2 u f) := by
  refine (congrFun (entry_v4 m c) _).trans ?_
  exact concatenate_pair_apply_right (t := S512x64) (s₁ := S256x64) (s₂ := S256x64) (0 : Fin 2) _ _ concatenates_S256x64_S256x64_S512x64_d0
    (ix2 (⟨256 + u.val, by omega⟩ : Fin 512) f) rfl rfl (ix2 u f)
    (fun b hb => by match b, hb with | ⟨0, _⟩, hb => exact absurd rfl hb | ⟨1, _⟩, _ => rfl)
    (by show u.val + 256 = 256 + u.val; omega)

/-- The stacked first-layer bias, upper half. -/
theorem stackB_top (c : Dev nD) (u : Fin 256) :
    V m c main_v5 (ix1 (⟨u.val, by omega⟩ : Fin 512)) = (m ((c : Thread nD τ).loc main_arg13)) (ix1 u) := by
  refine (congrFun (entry_v5 m c) _).trans ?_
  exact concatenate_pair_apply_left (t := S512) (s₁ := S256) (s₂ := S256) (0 : Fin 1) _ _ concatenates_S256_S256_S512_d0
    (ix1 (⟨u.val, by omega⟩ : Fin 512)) rfl (ix1 u)
    (fun b => by match b with | ⟨0, _⟩ => rfl)

/-- The stacked first-layer bias, lower half. -/
theorem stackB_bot (c : Dev nD) (u : Fin 256) :
    V m c main_v5 (ix1 (⟨256 + u.val, by omega⟩ : Fin 512)) = (m ((c : Thread nD τ).loc main_arg19)) (ix1 u) := by
  refine (congrFun (entry_v5 m c) _).trans ?_
  exact concatenate_pair_apply_right (t := S512) (s₁ := S256) (s₂ := S256) (0 : Fin 1) _ _ concatenates_S256_S256_S512_d0
    (ix1 (⟨256 + u.val, by omega⟩ : Fin 512)) rfl rfl (ix1 u)
    (fun b hb => by match b, hb with | ⟨0, _⟩, hb => exact absurd rfl hb)
    (by show u.val + 256 = 256 + u.val; omega)

/-! ## A point's rows -/

/-- Row r of point t's observation block is row 2048 t + r of the observation argument. -/
theorem obs_row_eq (c : Dev nD) (t : Fin cfg0.N) (r : Fin 2048) :
    obsRowOfBlock (iblk m c 0 t) r
      = obsRowOfArray (m ((c : Thread nD τ).loc main_arg0)) (⟨2048 * t.val + r.val, by have := pt_lt t; omega⟩ : Fin 65536) := by
  funext n f
  have ht := pt_lt t
  refine (blk0 m c t _).trans ?_
  refine (obs_line m c _ _).trans ?_
  refine congrArg _ (funext fun a => Fin.ext ?_)
  match a with
  | ⟨0, _⟩ => show (16384 * t.val + (8 * r.val + n.val)) / 8 = 2048 * t.val + r.val; omega
  | ⟨1, _⟩ => show 64 * ((16384 * t.val + (8 * r.val + n.val)) % 8) + f.val = 64 * n.val + f.val; omega

/-- The same for the actions. -/
theorem act_row_eq (c : Dev nD) (t : Fin cfg0.N) (r : Fin 2048) :
    actRowOfBlock (iblk m c 1 t) r
      = actRowOfArray (m ((c : Thread nD τ).loc main_arg1)) (⟨2048 * t.val + r.val, by have := pt_lt t; omega⟩ : Fin 65536) := by
  funext n f
  have ht := pt_lt t
  refine (blk1 m c t _).trans ?_
  refine (act_line m c _ _).trans ?_
  refine congrArg _ (funext fun a => Fin.ext ?_)
  match a with
  | ⟨0, _⟩ => show (16384 * t.val + (8 * r.val + n.val)) / 8 = 2048 * t.val + r.val; omega
  | ⟨1, _⟩ => show 32 * ((16384 * t.val + (8 * r.val + n.val)) % 8) + f.val = 32 * n.val + f.val; omega

/-! ## A point's parameters -/

/-- Every point reads the same parameters, those of the argument arrays. -/
theorem params_eq (c : Dev nD) (t : Fin cfg0.N) :
    Params.ofBlocks (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
      = Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  simp only [Params.ofBlocks, Params.ofArgs, Params.mk.injEq]
  refine ⟨?_, ?_, ?_, ?_, ?_, ?_, ?_, ?_, ?_, ?_, ?_, ?_, ?_, ?_, ?_, ?_, ?_, ?_, ?_, ?_, ?_, ?_, ?_, ?_⟩
  · funext o f; exact (blk2 m c t _).trans (embObs_entry m c o f)
  · funext o f; exact (blk3 m c t _).trans (embAct_entry m c o f)
  · funext o; exact (blk4 m c t _).trans (congrFun (V_main_arg3 m c) _)
  · funext o f; exact (blk5 m c t _).trans (congrFun (V_main_arg4 m c) _)
  · funext o; exact (blk6 m c t _).trans (congrFun (V_main_arg5 m c) _)
  · funext o f; exact (blk7 m c t _).trans (congrFun (V_main_arg6 m c) _)
  · funext o; exact (blk8 m c t _).trans (congrFun (V_main_arg7 m c) _)
  · funext o f; exact (blk9 m c t _).trans (congrFun (V_main_arg8 m c) _)
  · funext o; exact (blk10 m c t _).trans (congrFun (V_main_arg9 m c) _)
  · funext o; exact (blk11 m c t _).trans (congrFun (V_main_arg10 m c) _)
  · funext o; exact (blk11 m c t _).trans (congrFun (V_main_arg10 m c) _)
  · exact (blk12 m c t _).trans (congrFun (V_main_arg11 m c) _)
  · funext u f; exact (blk13 m c t _).trans (stackW_top m c u f)
  · funext u; exact (blk14 m c t _).trans (stackB_top m c u)
  · funext u f; exact (blk15 m c t _).trans (congrFun (V_main_arg14 m c) _)
  · funext u; exact (blk16 m c t _).trans (congrFun (V_main_arg15 m c) _)
  · funext f; exact (blk19 m c t _).trans (congrFun (V_main_arg16 m c) _)
  · exact (blk20 m c t _).trans (congrFun (V_main_arg17 m c) _)
  · funext u f; exact (blk13 m c t _).trans (stackW_bot m c u f)
  · funext u; exact (blk14 m c t _).trans (stackB_bot m c u)
  · funext u f; exact (blk17 m c t _).trans (congrFun (V_main_arg20 m c) _)
  · funext u; exact (blk18 m c t _).trans (congrFun (V_main_arg21 m c) _)
  · funext f; exact (blk21 m c t _).trans (congrFun (V_main_arg22 m c) _)
  · exact (blk22 m c t _).trans (congrFun (V_main_arg23 m c) _)

/-- So row r of point t computes what row 2048 t + r of the arguments computes. -/
theorem row_eq (c : Dev nD) (t : Fin cfg0.N) (r : Fin 2048) (j : Fin 2) :
    out (Params.ofBlocks (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))
        (obsRowOfBlock (iblk m c 0 t) r) (actRowOfBlock (iblk m c 1 t) r) j
      = out (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
        (obsRowOfArray (m ((c : Thread nD τ).loc main_arg0)) (⟨2048 * t.val + r.val, by have := pt_lt t; omega⟩ : Fin 65536))
        (actRowOfArray (m ((c : Thread nD τ).loc main_arg1)) (⟨2048 * t.val + r.val, by have := pt_lt t; omega⟩ : Fin 65536)) j := by
  rw [params_eq m c t, obs_row_eq m c t r, act_row_eq m c t r]

end Cert.CriticKernel

end
-- ==== Proof.BodyAttn1.lean ====
/-
  Readings used by the attention part of the kernel body: a matrix product accumulated into zero at an entry is the sum
  of the operands' products over the contracted axis; reshapes, slices and broadcasts at an index given by coordinates
  read one entry of their operand; a reduction over one axis is the sum, or the fold of max, over that axis's coordinates.
-/
import proofs.«174824_j49409303773229_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.BodyAttn

open Idealize.ShloMosaic Idealize.ShloMosaic.ValueIdx Idealize.SL.Sem
open Cert.KernelIdeal Cert.KernelIdeal.Gen

/-! ## A matrix product accumulated into zero, read at an entry -/

theorem mm_obs_l0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl
theorem mm_obs_l1 (i : S16384x64.Idx) (q : dot_S16384x64_S64x64_S16384x64_1_0_0_1_n_n.contr.Idx) : (dot_S16384x64_S64x64_S16384x64_1_0_0_1_n_n.lhsIdx i q 1).val = (q ⟨0, by decide⟩).val :=
  dot_S16384x64_S64x64_S16384x64_1_0_0_1_n_n.lhsIdx_val_of_single rfl i q
theorem mm_obs_r0 (i : S16384x64.Idx) (q : dot_S16384x64_S64x64_S16384x64_1_0_0_1_n_n.contr.Idx) : (dot_S16384x64_S64x64_S16384x64_1_0_0_1_n_n.rhsIdx i q 0).val = (q ⟨0, by decide⟩).val :=
  dot_S16384x64_S64x64_S16384x64_1_0_0_1_n_n.rhsIdx_val_of_single rfl i q
theorem mm_obs_r1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl
/-- The product of a 16384 × 64 matrix and a 64 × 64 one, accumulated into zero, read at an entry. -/
theorem mm_obs (A : FVec Ideal S16384x64 .f32) (B : FVec Ideal S64x64 .f32) (l : Fin 16384) (o : Fin 64) :
    matmul dot_S16384x64_S64x64_S16384x64_1_0_0_1_n_n none A B (constant (F := Ideal) S16384x64 .f32 0x00000000#32) (ix2 l o)
      = ∑ f : Fin 64, A (ix2 l f) * B (ix2 f o) := by
  simp only [matmul]
  rw [Ideal.matmul_constant_zero_apply, ← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 l o) ((contrEquiv1 dot_S16384x64_S64x64_S16384x64_1_0_0_1_n_n 64 rfl rfl).symm k) = ix2 l k :=
    funext fun a => Fin.ext (by
      match a with
      | ⟨0, _⟩ => exact mm_obs_l0 _ _
      | ⟨1, _⟩ => exact (mm_obs_l1 _ _).trans hk)
  have er : dot_S16384x64_S64x64_S16384x64_1_0_0_1_n_n.rhsIdx (ix2 l o) ((contrEquiv1 dot_S16384x64_S64x64_S16384x64_1_0_0_1_n_n 64 rfl rfl).symm k) = ix2 k o :=
    funext fun a => Fin.ext (by
      match a with
      | ⟨0, _⟩ => exact (mm_obs_r0 _ _).trans hk
      | ⟨1, _⟩ => exact mm_obs_r1 _ _)
  rw [el, er]

theorem mm_act_l0 (i : S16384x64.Idx) (q : dot_S16384x32_S32x64_S16384x64_1_0_0_1_n_n.contr.Idx) : (dot_S16384x32_S32x64_S16384x64_1_0_0_1_n_n.lhsIdx i q 0).val = (i 0).val := by
  unfold DotDims.lhsIdx
  rw [dif_neg (show ¬(0 : Fin S16384x32.rank) ∈ dot_S16384x32_S32x64_S16384x64_1_0_0_1_n_n.lhsBatch by decide),
    dif_pos (show (0 : Fin S16384x32.rank) ∈ dot_S16384x32_S32x64_S16384x64_1_0_0_1_n_n.lhsNonContracting by decide)]
  rfl
theorem mm_act_l1 (i : S16384x64.Idx) (q : dot_S16384x32_S32x64_S16384x64_1_0_0_1_n_n.contr.Idx) : (dot_S16384x32_S32x64_S16384x64_1_0_0_1_n_n.lhsIdx i q 1).val = (q ⟨0, by decide⟩).val :=
  dot_S16384x32_S32x64_S16384x64_1_0_0_1_n_n.lhsIdx_val_of_single rfl i q
theorem mm_act_r0 (i : S16384x64.Idx) (q : dot_S16384x32_S32x64_S16384x64_1_0_0_1_n_n.contr.Idx) : (dot_S16384x32_S32x64_S16384x64_1_0_0_1_n_n.rhsIdx i q 0).val = (q ⟨0, by decide⟩).val :=
  dot_S16384x32_S32x64_S16384x64_1_0_0_1_n_n.rhsIdx_val_of_single rfl i q
theorem mm_act_r1 (i : S16384x64.Idx) (q : dot_S16384x32_S32x64_S16384x64_1_0_0_1_n_n.contr.Idx) : (dot_S16384x32_S32x64_S16384x64_1_0_0_1_n_n.rhsIdx i q 1).val = (i 1).val := by
  unfold DotDims.rhsIdx
  rw [dif_neg (show ¬(1 : Fin S32x64.rank) ∈ dot_S16384x32_S32x64_S16384x64_1_0_0_1_n_n.rhsBatch by decide),
    dif_pos (show (1 : Fin S32x64.rank) ∈ dot_S16384x32_S32x64_S16384x64_1_0_0_1_n_n.rhsNonContracting by decide)]
  rfl
/-- The product of a 16384 × 32 matrix and a 32 × 64 one, accumulated into zero, read at an entry. -/
theorem mm_act (A : FVec Ideal S16384x32 .f32) (B : FVec Ideal S32x64 .f32) (l : Fin 16384) (o : Fin 64) :
    matmul dot_S16384x32_S32x64_S16384x64_1_0_0_1_n_n none A B (constant (F := Ideal) S16384x64 .f32 0x00000000#32) (ix2 l o)
      = ∑ f : Fin 32, A (ix2 l f) * B (ix2 f o) := by
  simp only [matmul]
  rw [Ideal.matmul_constant_zero_apply, ← Equiv.sum_comp (contrEquiv1 dot_S16384x32_S32x64_S16384x64_1_0_0_1_n_n 32 rfl rfl).symm]
  refine Finset.sum_congr rfl fun k _ => ?_
  have hk := contrEquiv1_symm_val dot_S16384x32_S32x64_S16384x64_1_0_0_1_n_n 32 rfl rfl k
  have el : dot_S16384x32_S32x64_S16384x64_1_0_0_1_n_n.lhsIdx (ix2 l o) ((contrEquiv1 dot_S16384x32_S32x64_S16384x64_1_0_0_1_n_n 32 rfl rfl).symm k) = ix2 l k :=
    funext fun a => Fin.ext (by
      match a with
      | ⟨0, _⟩ => exact mm_act_l0 _ _
      | ⟨1, _⟩ => exact (mm_act_l1 _ _).trans hk)
  have er : dot_S16384x32_S32x64_S16384x64_1_0_0_1_n_n.rhsIdx (ix2 l o) ((contrEquiv1 dot_S16384x32_S32x64_S16384x64_1_0_0_1_n_n 32 rfl rfl).symm k) = ix2 k o :=
    funext fun a => Fin.ext (by
      match a with
      | ⟨0, _⟩ => exact (mm_act_r0 _ _).trans hk
      | ⟨1, _⟩ => exact mm_act_r1 _ _)
  rw [el, er]

theorem mm_row_l0 (i : S2048x32.Idx) (q : dot_S2048x64_S64x32_S2048x32_1_0_0_1_n_n.contr.Idx) : (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem mm_row_l1 (i : S2048x32.Idx) (q : dot_S2048x64_S64x32_S2048x32_1_0_0_1_n_n.contr.Idx) : (dot_S2048x64_S64x32_S2048x32_1_0_0_1_n_n.lhsIdx i q 1).val = (q ⟨0, by decide⟩).val :=
  dot_S2048x64_S64x32_S2048x32_1_0_0_1_n_n.lhsIdx_val_of_single rfl i q
theorem mm_row_r0 (i : S2048x32.Idx) (q : dot_S2048x64_S64x32_S2048x32_1_0_0_1_n_n.contr.Idx) : (dot_S2048x64_S64x32_S2048x32_1_0_0_1_n_n.rhsIdx i q 0).val = (q ⟨0, by decide⟩).val :=
  dot_S2048x64_S64x32_S2048x32_1_0_0_1_n_n.rhsIdx_val_of_single rfl i q
theorem mm_row_r1 (i : S2048x32.Idx) (q : dot_S2048x64_S64x32_S2048x32_1_0_0_1_n_n.contr.Idx) : (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl
/-- The product of a 2048 × 64 matrix and a 64 × 32 one, accumulated into zero, read at an entry. -/
theorem mm_row (A : FVec Ideal S2048x64 .f32) (B : FVec Ideal S64x32 .f32) (l : Fin 2048) (o : Fin 32) :
    matmul dot_S2048x64_S64x32_S2048x32_1_0_0_1_n_n none A B (constant (F := Ideal) S2048x32 .f32 0x00000000#32) (ix2 l o)
      = ∑ f : Fin 64, A (ix2 l f) * B (ix2 f o) := by
  simp only [matmul]
  rw [Ideal.matmul_constant_zero_apply, ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 l o) ((contrEquiv1 dot_S2048x64_S64x32_S2048x32_1_0_0_1_n_n 64 rfl rfl).symm k) = ix2 l k :=
    funext fun a => Fin.ext (by
      match a with
      | ⟨0, _⟩ => exact mm_row_l0 _ _
      | ⟨1, _⟩ => exact (mm_row_l1 _ _).trans hk)
  have er : dot_S2048x64_S64x32_S2048x32_1_0_0_1_n_n.rhsIdx (ix2 l o) ((contrEquiv1 dot_S2048x64_S64x32_S2048x32_1_0_0_1_n_n 64 rfl rfl).symm k) = ix2 k o :=
    funext fun a => Fin.ext (by
      match a with
      | ⟨0, _⟩ => exact (mm_row_r0 _ _).trans hk
      | ⟨1, _⟩ => exact mm_row_r1 _ _)
  rw [el, er]

theorem mm_line_l0 (i : S16384x32.Idx) (q : dot_S16384x64_S64x32_S16384x32_1_0_0_1_n_n.contr.Idx) : (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch by decide),
    dif_pos (show (0 : Fin S16384x64.rank) ∈ dot_S16384x64_S64x32_S16384x32_1_0_0_1_n_n.lhsNonContracting by decide)]
  rfl
theorem mm_line_l1 (i : S16384x32.Idx) (q : dot_S16384x64_S64x32_S16384x32_1_0_0_1_n_n.contr.Idx) : (dot_S16384x64_S64x32_S16384x32_1_0_0_1_n_n.lhsIdx i q 1).val = (q ⟨0, by decide⟩).val :=
  dot_S16384x64_S64x32_S16384x32_1_0_0_1_n_n.lhsIdx_val_of_single rfl i q
theorem mm_line_r0 (i : S16384x32.Idx) (q : dot_S16384x64_S64x32_S16384x32_1_0_0_1_n_n.contr.Idx) : (dot_S16384x64_S64x32_S16384x32_1_0_0_1_n_n.rhsIdx i q 0).val = (q ⟨0, by decide⟩).val :=
  dot_S16384x64_S64x32_S16384x32_1_0_0_1_n_n.rhsIdx_val_of_single rfl i q
theorem mm_line_r1 (i : S16384x32.Idx) (q : dot_S16384x64_S64x32_S16384x32_1_0_0_1_n_n.contr.Idx) : (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch by decide),
    dif_pos (show (1 : Fin S64x32.rank) ∈ dot_S16384x64_S64x32_S16384x32_1_0_0_1_n_n.rhsNonContracting by decide)]
  rfl
/-- The product of a 16384 × 64 matrix and a 64 × 32 one, accumulated into zero, read at an entry. -/
theorem mm_line (A : FVec Ideal S16384x64 .f32) (B : FVec Ideal S64x32 .f32) (l : Fin 16384) (o : Fin 32) :
    matmul dot_S16384x64_S64x32_S16384x32_1_0_0_1_n_n none A B (constant (F := Ideal) S16384x32 .f32 0x00000000#32) (ix2 l o)
      = ∑ f : Fin 64, A (ix2 l f) * B (ix2 f o) := by
  simp only [matmul]
  rw [Ideal.matmul_constant_zero_apply, ← Equiv.sum_comp (contrEquiv1 dot_S16384x64_S64x32_S16384x32_1_0_0_1_n_n 64 rfl rfl).symm]
  refine Finset.sum_congr rfl fun k _ => ?_
  have hk := contrEquiv1_symm_val dot_S16384x64_S64x32_S16384x32_1_0_0_1_n_n 64 rfl rfl k
  have el : dot_S16384x64_S64x32_S16384x32_1_0_0_1_n_n.lhsIdx (ix2 l o) ((contrEquiv1 dot_S16384x64_S64x32_S16384x32_1_0_0_1_n_n 64 rfl rfl).symm k) = ix2 l k :=
    funext fun a => Fin.ext (by
      match a with
      | ⟨0, _⟩ => exact mm_line_l0 _ _
      | ⟨1, _⟩ => exact (mm_line_l1 _ _).trans hk)
  have er : dot_S16384x64_S64x32_S16384x32_1_0_0_1_n_n.rhsIdx (ix2 l o) ((contrEquiv1 dot_S16384x64_S64x32_S16384x32_1_0_0_1_n_n 64 rfl rfl).symm k) = ix2 k o :=
    funext fun a => Fin.ext (by
      match a with
      | ⟨0, _⟩ => exact (mm_line_r0 _ _).trans hk
      | ⟨1, _⟩ => exact mm_line_r1 _ _)
  rw [el, er]

/-! ## Layout operations read at an index given by coordinates -/

section Layout
variable {α : Type}

/-- An [m, c] array cast to [a, b, c] reads, at (r, n, f), line r·b + n at column f. -/
theorem shapeCast_mc_abc_apply {m a b c : ℕ} (x : (⟨2, ![m, c]⟩ : Shape).Idx → α)
    (h : (⟨2, ![m, c]⟩ : Shape).ShapeCasts ⟨3, ![a, b, c]⟩) (r : Fin a) (n : Fin b) (f : Fin c) (l : Fin m)
    (hl : l.val = r.val * b + n.val) :
    shapeCast ⟨3, ![a, b, c]⟩ x h (ix3 r n f) = x (ix2 l f) :=
  shapeCast_apply x h _ _ (by
    rw [Shape.rowMajor_val_two, Shape.rowMajor_val_three]
    show l.val * c + f.val = (r.val * b + n.val) * c + f.val
    rw [hl])

/-- An [a, 1, c] array cast to [a, c] reads, at (r, f), the operand at (r, 0, f). -/
theorem shapeCast_a1c_ac_apply {a c : ℕ} (x : (⟨3, ![a, 1, c]⟩ : Shape).Idx → α)
    (h : (⟨3, ![a, 1, c]⟩ : Shape).ShapeCasts ⟨2, ![a, c]⟩) (r : Fin a) (f : Fin c) :
    shapeCast ⟨2, ![a, c]⟩ x h (ix2 r f) = x (ix3 r (0 : Fin 1) f) :=
  shapeCast_apply x h _ _ (by
    rw [Shape.rowMajor_val_three, Shape.rowMajor_val_two]
    show (r.val * 1 + 0) * c + f.val = r.val * c + f.val
    rw [Nat.mul_one, Nat.add_zero])

/-- An [a] array cast to [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A [c] array cast to [1, 1, c] reads, at (u, v, o), the operand at o. -/
theorem shapeCast_c_11c_apply {c : ℕ} (x : (⟨1, ![c]⟩ : Shape).Idx → α)
    (h : (⟨1, ![c]⟩ : Shape).ShapeCasts ⟨3, ![1, 1, c]⟩) (u v : Fin 1) (o : Fin c) :
    shapeCast ⟨3, ![1, 1, c]⟩ x h (ix3 u v o) = x (ix1 o) :=
  shapeCast_apply x h _ _ (by
    have hu : u.val = 0 := by omega
    have hv : v.val = 0 := by omega
    rw [Shape.rowMajor_val_one, Shape.rowMajor_val_three]
    show o.val = (u.val * 1 + v.val) * c + o.val
    simp [hu, hv])

/-- An [a, b] array cast to [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_two, Shape.rowMajor_val_three]
    show r.val * b + j.val = (r.val * b + j.val) * 1 + u.val
    rw [hu, Nat.mul_one, Nat.add_zero])

/-- A [1, 1, c] array broadcast to [a, b, c] reads, at (r, j, o), the operand at (0, 0, o). -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (j : Fin b) (o : Fin c) :
    broadcastTo ⟨3, ![a, b, c]⟩ v h (ix3 r j o) = v (ix3 (0 : Fin 1) (0 : Fin 1) o) := by
  refine broadcastTo_apply v h (ix3 r j o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-- An [a, 1, 1] array broadcast to [a, b, 1] reads, at (r, j, u), the operand at (r, 0, 0). -/
theorem broadcastTo_a11_ab1_apply {a b : ℕ} (v : (⟨3, ![a, 1, 1]⟩ : Shape).Idx → α)
    (h : (⟨3, ![a, 1, 1]⟩ : Shape).Broadcasts ⟨3, ![a, b, 1]⟩) (r : Fin a) (j : Fin b) (u : Fin 1) :
    broadcastTo ⟨3, ![a, b, 1]⟩ v h (ix3 r j u) = v (ix3 r (0 : Fin 1) (0 : Fin 1)) := by
  refine broadcastTo_apply v h (ix3 r j u) (ix3 r (0 : Fin 1) (0 : Fin 1)) fun ax => ?_
  match ax with
  | ⟨0, _⟩ =>
    show r.val = if a = 1 then 0 else r.val
    split
    · have := r.isLt; omega
    · rfl
  | ⟨1, _⟩ => rfl
  | ⟨2, _⟩ => rfl

/-- An [a, b, 1] array broadcast to [a, b, c] reads, at (r, j, o), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (o : Fin c) :
    broadcastTo ⟨3, ![a, b, c]⟩ v h (ix3 r j o) = v (ix3 r j (0 : Fin 1)) := by
  refine broadcastTo_apply v h (ix3 r j o) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Layout

/-! ## The lane sums and the maximum over the seven others -/

/-- The sum over the 32 lanes of a [2048, 32] array, at row r. -/
theorem sum_lanes2 (src : FVec Ideal S2048x32 .f32) (h : S2048x32.Reduces [1] S2048) (hφ : FTy.f32 = FTy.f32 ∨ FTy.f32 = FTy.bf16)
    (hacc : (0x00000000#32 : BitVec 32) = 0x00000000#32) (r : Fin 2048) :
    multiReduction (F := Ideal) .add [1] S2048 src 0x00000000#32 h hφ hacc (ix1 r) = ∑ o : Fin 32, src (ix2 r o) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- The sum over the 32 lanes of a [2048, 7, 32] array, at (r, j). -/
theorem sum_lanes3 (src : FVec Ideal S2048x7x32 .f32) (h : S2048x7x32.Reduces [2] S2048x7) (hφ : FTy.f32 = FTy.f32 ∨ FTy.f32 = FTy.bf16)
    (hacc : (0x00000000#32 : BitVec 32) = 0x00000000#32) (r : Fin 2048) (j : Fin 7) :
    multiReduction (F := Ideal) .add [2] S2048x7 src 0x00000000#32 h hφ hacc (ix2 r j) = ∑ o : Fin 32, src (ix3 r j o) := by
  refine (Ideal.multiReduction_add_single src 0x00000000#32 h hφ hacc (ix2 r j)).trans ?_
  refine Finset.sum_congr rfl fun k _ => congrArg src (funext fun a => Fin.ext ?_)
  match a with
  | ⟨0, _⟩ => rfl
  | ⟨1, _⟩ => rfl
  | ⟨2, _⟩ => rfl

/-- The sum over the seven others of a [2048, 7, 1] array, at (r, u). -/
theorem sum_others (src : FVec Ideal S2048x7x1 .f32) (h : S2048x7x1.Reduces [1] S2048x1) (hφ : FTy.f32 = FTy.f32 ∨ FTy.f32 = FTy.bf16)
    (hacc : (0x00000000#32 : BitVec 32) = 0x00000000#32) (r : Fin 2048) (u : Fin 1) :
    multiReduction (F := Ideal) .add [1] S2048x1 src 0x00000000#32 h hφ hacc (ix2 r u) = ∑ j : Fin 7, src (ix3 r j u) := by
  refine (Ideal.multiReduction_add_single src 0x00000000#32 h hφ hacc (ix2 r u)).trans ?_
  refine Finset.sum_congr rfl fun k _ => congrArg src (funext fun a => Fin.ext ?_)
  match a with
  | ⟨0, _⟩ => rfl
  | ⟨1, _⟩ => rfl
  | ⟨2, _⟩ => rfl

/-- The sum over the seven others of a [2048, 7, 32] array, at (r, o). -/
theorem sum_others32 (src : FVec Ideal S2048x7x32 .f32) (h : S2048x7x32.Reduces [1] S2048x32) (hφ : FTy.f32 = FTy.f32 ∨ FTy.f32 = FTy.bf16)
    (hacc : (0x00000000#32 : BitVec 32) = 0x00000000#32) (r : Fin 2048) (o : Fin 32) :
    multiReduction (F := Ideal) .add [1] S2048x32 src 0x00000000#32 h hφ hacc (ix2 r o) = ∑ j : Fin 7, src (ix3 r j o) := by
  refine (Ideal.multiReduction_add_single src 0x00000000#32 h hφ hacc (ix2 r o)).trans ?_
  refine Finset.sum_congr rfl fun k _ => congrArg src (funext fun a => Fin.ext ?_)
  match a with
  | ⟨0, _⟩ => rfl
  | ⟨1, _⟩ => rfl
  | ⟨2, _⟩ => rfl

/-- The maximum over the seven others of a [2048, 7, 1] array, at (r, u): the fold of max from −∞. -/
theorem max_others (src : FVec Ideal S2048x7x1 .f32) (h : S2048x7x1.Reduces [1] S2048x1) (hφ : FTy.f32 = FTy.f32 ∨ FTy.f32 = FTy.bf16)
    (hacc : (0xFF800000#32 : BitVec 32) = 0xFF800000#32) (r : Fin 2048) (u : Fin 1) :
    multiReduction (F := Ideal) .maximumf [1] S2048x1 src 0xFF800000#32 h hφ hacc (ix2 r u)
      = (Finset.univ : Finset (Fin 7)).fold max (Ideal.ofBits .f32 0xFF800000#32) (fun j => src (ix3 r j u)) := by
  refine (Ideal.multiReduction_maximumf_single src 0xFF800000#32 h hφ hacc (ix2 r u)).trans ?_
  refine congrArg (fun g => (Finset.univ : Finset (Fin 7)).fold max (Ideal.ofBits .f32 0xFF800000#32) g) ?_
  funext k
  refine congrArg src (funext fun a => Fin.ext ?_)
  match a with
  | ⟨0, _⟩ => rfl
  | ⟨1, _⟩ => rfl
  | ⟨2, _⟩ => rfl

end Cert.BodyAttn

end
-- ==== Proof.BodyAttn2.lean ====
/-
  The kernel body's embeddings, query, keys and value vectors read at an entry, in terms of the blocks a grid point
  holds: line 8 r + n of a block is agent n of row r, and each payload entry is the corresponding entry of one row's
  computation. The own-value payload at row r is the row's own value vector.
-/
import proofs.«174824_j49409303773229_2_alg».proof.Proof.BodyAttn1
import proofs.«174824_j49409303773229_2_alg».proof.Proof.AttnCritic

noncomputable section

namespace Cert.BodyAttn

open Idealize.ShloMosaic Idealize.ShloMosaic.ValueIdx Idealize.SL.Sem
open Cert.AttnCritic Cert.KernelIdeal Cert.KernelIdeal.Gen

/-- Line 8 r + n of a block: agent n of row r. -/
def line (r : Fin 2048) (n : Fin 8) : Fin 16384 := ⟨8 * r.val + n.val, by omega⟩

section Embed
variable (x0 : Vec Ideal S16384x64 .f32) (x1 : Vec Ideal S16384x32 .f32) (x2 : Vec Ideal S64x64 .f32)
  (x3 : Vec Ideal S64x32 .f32) (x4 : Vec Ideal S64 .f32)

/-- The embedding of the agent on line l of a block: the two parts of the affine map, summed, then rectified. -/
def embLine (l : Fin 16384) (o : Fin 64) : EReal :=
  leaky ((∑ f : Fin 64, x0 (ix2 l f) * x2 (ix2 o f)) + (∑ f : Fin 32, x1 (ix2 l f) * x3 (ix2 o f)) + x4 (ix1 o))

theorem pay2_apply (l : Fin 16384) (o : Fin 64) :
    k0_pay2 (F := Ideal) x0 x1 x2 x3 x4 (ix2 l o) = embLine x0 x1 x2 x3 x4 l o := by
  unfold k0_pay2 embLine leaky
  simp only [select_apply, cmpf_apply, mulf_apply, addf_apply, broadcast_apply, shapeCast_self, mm_obs, mm_act,
    transpose_ix2_apply, broadcastTo_1b_ab_apply, shapeCast_a_1a_apply]
  have e1 : ∀ f : Fin 64, transpose S64x64 [1, 0] x2 transposes_S64x64_p1_0_S64x64 (ix2 f o) = x2 (ix2 o f) :=
    fun f => transpose_ix2_apply x2 _ f o
  have e2 : ∀ f : Fin 32, transpose S32x64 [1, 0] x3 transposes_S64x32_p1_0_S32x64 (ix2 f o) = x3 (ix2 o f) :=
    fun f => transpose_ix2_apply x3 _ f o
  simp only [e1, e2]
  rfl

end Embed

section Lines
variable (x0 : Vec Ideal S16384x64 .f32) (x1 : Vec Ideal S16384x32 .f32) (x2 : Vec Ideal S64x64 .f32)
  (x3 : Vec Ideal S64x32 .f32) (x4 : Vec Ideal S64 .f32)

/-- The query of row r: the query map of its own agent's embedding. -/
theorem pay3_apply (x5 : Vec Ideal S32x64 .f32) (x6 : Vec Ideal S32 .f32) (r : Fin 2048) (o : Fin 32) :
    k0_pay3 (F := Ideal) x0 x1 x2 x3 x4 x5 x6 (ix2 r o)
      = (∑ f : Fin 64, embLine x0 x1 x2 x3 x4 (line r 0) f * x5 (ix2 o f)) + x6 (ix1 o) := by
  unfold k0_pay3
  simp only [addf_apply, mm_row, broadcastTo_1b_ab_apply, shapeCast_a_1a_apply]
  have e1 : ∀ f : Fin 64, transpose S64x32 [1, 0] x5 transposes_S32x64_p1_0_S64x32 (ix2 f o) = x5 (ix2 o f) :=
    fun f => transpose_ix2_apply x5 _ f o
  have e2 : ∀ f : Fin 64,
      shapeCast S2048x64 (extractStridedSlice S2048x1x64 ![0, 0, 0]
        (shapeCast S2048x8x64 (k0_pay2 (F := Ideal) x0 x1 x2 x3 x4) shapeCasts_S16384x64_S2048x8x64)
        slices_S2048x8x64_o0_0_0_S2048x1x64) shapeCasts_S2048x1x64_S2048x64 (ix2 r f)
        = embLine x0 x1 x2 x3 x4 (line r 0) f := fun f => by
    refine (shapeCast_a1c_ac_apply _ _ r f).trans ?_
    refine (slice3_axis1_apply 0 _ _ r (0 : Fin 1) f (0 : Fin 8) rfl).trans ?_
    refine (shapeCast_mc_abc_apply _ _ r (0 : Fin 8) f (line r 0) (by show 8 * r.val + (0 : Fin 8).val = r.val * 8 + (0 : Fin 8).val; omega)).trans ?_
    exact pay2_apply x0 x1 x2 x3 x4 _ f
  simp only [e1, e2]

/-- The key map of line l's embedding, before its bias. -/
theorem pay4_apply (x7 : Vec Ideal S32x64 .f32) (l : Fin 16384) (o : Fin 32) :
    k0_pay4 (F := Ideal) x0 x1 x2 x3 x4 x7 (ix2 l o) = ∑ f : Fin 64, embLine x0 x1 x2 x3 x4 l f * x7 (ix2 o f) := by
  unfold k0_pay4
  simp only [mm_line, pay2_apply]
  have e1 : ∀ f : Fin 64, transpose S64x32 [1, 0] x7 transposes_S32x64_p1_0_S64x32 (ix2 f o) = x7 (ix2 o f) :=
    fun f => transpose_ix2_apply x7 _ f o
  simp only [e1]

/-- The key bias, on every line. -/
theorem pay5_apply (x8 : Vec Ideal S32 .f32) (l : Fin 16384) (o : Fin 32) :
    k0_pay5 (F := Ideal) x8 (ix2 l o) = x8 (ix1 o) := by
  unfold k0_pay5
  simp only [broadcastTo_1b_ab_apply, shapeCast_a_1a_apply]

end Lines

section Values
variable (v21 : FVec Ideal S16384x64 .f32) (x9 : Vec Ideal S32x64 .f32) (x10 : Vec Ideal S32 .f32)

/-- Agent n of row r's value vector, of the embeddings v21. -/
theorem pay6_apply (r : Fin 2048) (n : Fin 8) (o : Fin 32) :
    k0_pay6 (F := Ideal) v21 x9 x10 (ix3 r n o) = (∑ f : Fin 64, v21 (ix2 (line r n) f) * x9 (ix2 o f)) + x10 (ix1 o) := by
  unfold k0_pay6
  refine (shapeCast_mc_abc_apply _ _ r n o (line r n) (by show 8 * r.val + n.val = r.val * 8 + n.val; omega)).trans ?_
  simp only [addf_apply, mm_line, broadcastTo_1b_ab_apply, shapeCast_a_1a_apply]
  have e1 : ∀ f : Fin 64, transpose S64x32 [1, 0] x9 transposes_S32x64_p1_0_S64x32 (ix2 f o) = x9 (ix2 o f) :=
    fun f => transpose_ix2_apply x9 _ f o
  simp only [e1]

/-- The own agent's value vector is agent 0's. -/
theorem pay7_apply (r : Fin 2048) (o : Fin 32) :
    k0_pay7 (F := Ideal) v21 x9 x10 (ix2 r o) = k0_pay6 (F := Ideal) v21 x9 x10 (ix3 r (0 : Fin 8) o) := by
  unfold k0_pay7
  refine (shapeCast_a1c_ac_apply _ _ r o).trans ?_
  exact slice3_axis1_apply 0 _ _ r (0 : Fin 1) o (0 : Fin 8) rfl

/-- The j-th other's value vector is agent j + 1's. -/
theorem pay8_apply (r : Fin 2048) (j : Fin 7) (o : Fin 32) :
    k0_pay8 (F := Ideal) v21 x9 x10 (ix3 r j o) = k0_pay6 (F := Ideal) v21 x9 x10 (ix3 r j.succ o) := by
  unfold k0_pay8
  exact slice3_axis1_apply 1 _ _ r j o j.succ (by rw [Fin.val_succ]; omega)

end Values

section Own
variable (x0 : Vec Ideal S16384x64 .f32) (x1 : Vec Ideal S16384x32 .f32) (x2 : Vec Ideal S64x64 .f32)
  (x3 : Vec Ideal S64x32 .f32) (x4 : Vec Ideal S64 .f32) (x5 : Vec Ideal S32x64 .f32) (x6 : Vec Ideal S32 .f32)
  (x7 : Vec Ideal S32x64 .f32) (x8 : Vec Ideal S32 .f32) (x9 : Vec Ideal S32x64 .f32) (x10 : Vec Ideal S32 .f32)
  (x11 : Vec Ideal S1x64 .f32) (x12 : Vec Ideal S1 .f32) (x13 : Vec Ideal S512x64 .f32) (x14 : Vec Ideal S512 .f32)
  (x15 : Vec Ideal S256x256 .f32) (x16 : Vec Ideal S256 .f32) (x17 : Vec Ideal S256x256 .f32) (x18 : Vec Ideal S256 .f32)
  (x19 : Vec Ideal S1x256 .f32) (x20 : Vec Ideal S1 .f32) (x21 : Vec Ideal S1x256 .f32) (x22 : Vec Ideal S1 .f32)
  (r : Fin 2048)

/-- Line 8 r + n's embedding is agent n's embedding of row r, read from the blocks. -/
theorem embLine_eq (n : Fin 8) (o : Fin 64) :
    embLine x0 x1 x2 x3 x4 (line r n) o
      = embed (Params.ofBlocks x2 x3 x4 x5 x6 x7 x8 x9 x10 x11 x12 x13 x14 x15 x16 x17 x18 x19 x20 x21 x22)
          (obsRowOfBlock x0 r) (actRowOfBlock x1 r) n o := rfl

/-- The own-value payload at row r is the row's own value vector. -/
theorem own_row (o : Fin 32) :
    k0_pay7 (F := Ideal) (k0_pay2 x0 x1 x2 x3 x4) x9 x10 (ix2 r o)
      = value (Params.ofBlocks x2 x3 x4 x5 x6 x7 x8 x9 x10 x11 x12 x13 x14 x15 x16 x17 x18 x19 x20 x21 x22)
          (obsRowOfBlock x0 r) (actRowOfBlock x1 r) 0 o := by
  rw [pay7_apply, pay6_apply]
  simp only [pay2_apply]
  rfl

/-- The others'-values payload at (r, j) is agent j + 1's value vector. -/
theorem others_value (j : Fin 7) (o : Fin 32) :
    k0_pay8 (F := Ideal) (k0_pay2 x0 x1 x2 x3 x4) x9 x10 (ix3 r j o)
      = value (Params.ofBlocks x2 x3 x4 x5 x6 x7 x8 x9 x10 x11 x12 x13 x14 x15 x16 x17 x18 x19 x20 x21 x22)
          (obsRowOfBlock x0 r) (actRowOfBlock x1 r) j.succ o := by
  rw [pay8_apply, pay6_apply]
  simp only [pay2_apply]
  rfl

end Own

end Cert.BodyAttn

end
-- ==== Proof.BodyAttn3.lean ====
/-
  The attention weights of the kernel body read at an entry: two lane sums give the query's and a key's linear forms,
  their sum with the bias is scaled by 1/16, the maximum over the seven others is the fold of max from −∞, and the
  exponentials of the shifted logits divided by their sum are the softmax weights, the same on every lane. With the
  others' value vectors this gives the row's weighted value.
-/
import proofs.«174824_j49409303773229_2_alg».proof.Proof.BodyAttn2
import proofs.«174824_j49409303773229_2_alg».proof.Proof.AttnCritic

noncomputable section

namespace Cert.BodyAttn

open Idealize.ShloMosaic Idealize.ShloMosaic.ValueIdx Idealize.SL.Sem
open Cert.AttnCritic Cert.KernelIdeal Cert.KernelIdeal.Gen

section Weights
variable {α : Type}

/-- A [16384, 32] array reshaped to [2048, 8, 32]: agent n of row r is line 8 r + n. -/
theorem cast8_32 (X : S16384x32.Idx → α) (h : S16384x32.ShapeCasts S2048x8x32) (r : Fin 2048) (n : Fin 8) (o : Fin 32) :
    shapeCast S2048x8x32 X h (ix3 r n o) = X (ix2 (line r n) o) :=
  shapeCast_mc_abc_apply X h r n o (line r n) (by show 8 * r.val + n.val = r.val * 8 + n.val; omega)

/-- The others' part of a [2048, 8, 32] array: the j-th other is agent j + 1. -/
theorem others_slice (X : S2048x8x32.Idx → α) (h : S2048x8x32.Slices ![0, 1, 0] S2048x7x32) (r : Fin 2048) (j : Fin 7) (o : Fin 32) :
    extractStridedSlice S2048x7x32 ![0, 1, 0] X h (ix3 r j o) = X (ix3 r j.succ o) :=
  slice3_axis1_apply 1 X h r j o j.succ (by rw [Fin.val_succ]; omega)

/-- The first half of the attention form. -/
theorem form_fst (X : S1x64.Idx → α) (h : S1x64.Slices ![0, 0] S1x32) (u : Fin 1) (o : Fin 32) :
    extractStridedSlice S1x32 ![0, 0] X h (ix2 u o) = X (ix2 u ⟨o.val, by omega⟩) :=
  slice2_axis1_apply 0 X h u o ⟨o.val, by omega⟩ (by show o.val = 0 + o.val; omega)

/-- The second half of the attention form. -/
theorem form_snd (X : S1x64.Idx → α) (h : S1x64.Slices ![0, 32] S1x32) (u : Fin 1) (o : Fin 32) :
    extractStridedSlice S1x32 ![0, 32] X h (ix2 u o) = X (ix2 u ⟨32 + o.val, by omega⟩) :=
  slice2_axis1_apply 32 X h u o ⟨32 + o.val, by omega⟩ rfl

/-- The exponential at an index is the exponential of the element. -/
theorem exp_apply {s : Shape} {φ : FTy} (a : FVec Ideal s φ) (i : s.Idx) : exp a i = Ideal.exp (a i) := rfl

variable (v31 : FVec Ideal S2048x32 .f32) (v35 v37 : FVec Ideal S16384x32 .f32) (x11 : Vec Ideal S1x64 .f32)
  (x12 : Vec Ideal S1 .f32)

/-- The query's linear form. -/
def qform (r : Fin 2048) : EReal := ∑ o : Fin 32, v31 (ix2 r o) * x11 (ix2 (0 : Fin 1) ⟨o.val, by omega⟩)

/-- The linear form of the j-th other's key (agent j + 1's line, bias added). -/
def kform (r : Fin 2048) (j : Fin 7) : EReal :=
  ∑ o : Fin 32, (v35 (ix2 (line r j.succ) o) + v37 (ix2 (line r j.succ) o)) * x11 (ix2 (0 : Fin 1) ⟨32 + o.val, by omega⟩)

/-- The scaled logit of the j-th other. -/
def logitK (r : Fin 2048) (j : Fin 7) : EReal :=
  (qform v31 x11 r + kform v35 v37 x11 r j + x12 (ix1 (0 : Fin 1))) * Ideal.ofBits .f32 0x3D800000#32

/-- The largest of the seven. -/
def topK (r : Fin 2048) : EReal :=
  (Finset.univ : Finset (Fin 7)).fold max (Ideal.ofBits .f32 0xFF800000#32) (fun j => logitK v31 v35 v37 x11 x12 r j)

/-- The exponential of a logit shifted by the largest. -/
def expoK (r : Fin 2048) (j : Fin 7) : EReal := Ideal.exp (logitK v31 v35 v37 x11 x12 r j - topK v31 v35 v37 x11 x12 r)

/-- The softmax weight. -/
def weightK (r : Fin 2048) (j : Fin 7) : EReal :=
  Ideal.div (expoK v31 v35 v37 x11 x12 r j) (∑ j' : Fin 7, expoK v31 v35 v37 x11 x12 r j')

theorem pay9_apply (r : Fin 2048) (j : Fin 7) (o : Fin 32) :
    k0_pay9 (F := Ideal) v31 v35 v37 x11 x12 (ix3 r j o) = weightK v31 v35 v37 x11 x12 r j := by
  unfold k0_pay9
  simp only [broadcastTo_ab1_abc_apply, divf_apply, exp_apply, subf_apply, mulf_apply, addf_apply, broadcast_apply,
    broadcastTo_a11_ab1_apply, shapeCast_ab_ab1_apply,  broadcastTo_11c_abc_apply,
    shapeCast_c_11c_apply, shapeCast_a_a1_apply, broadcastTo_1b_ab_apply, shapeCast_a_1a_apply,
    shapeCast_1a_a_apply, form_fst, form_snd, others_slice, cast8_32,
    sum_lanes2 (h := reduces_S2048x32_S2048) (hφ := Or.inl rfl) (hacc := rfl),
    sum_lanes3 (h := reduces_S2048x7x32_S2048x7) (hφ := Or.inl rfl) (hacc := rfl),
    sum_others (h := reduces_S2048x7x1_S2048x1) (hφ := Or.inl rfl) (hacc := rfl),
    max_others (h := reduces_S2048x7x1_S2048x1) (hφ := Or.inl rfl) (hacc := rfl)]
  rfl

end Weights

section Others
variable (x0 : Vec Ideal S16384x64 .f32) (x1 : Vec Ideal S16384x32 .f32) (x2 : Vec Ideal S64x64 .f32)
  (x3 : Vec Ideal S64x32 .f32) (x4 : Vec Ideal S64 .f32) (x5 : Vec Ideal S32x64 .f32) (x6 : Vec Ideal S32 .f32)
  (x7 : Vec Ideal S32x64 .f32) (x8 : Vec Ideal S32 .f32) (x9 : Vec Ideal S32x64 .f32) (x10 : Vec Ideal S32 .f32)
  (x11 : Vec Ideal S1x64 .f32) (x12 : Vec Ideal S1 .f32) (x13 : Vec Ideal S512x64 .f32) (x14 : Vec Ideal S512 .f32)
  (x15 : Vec Ideal S256x256 .f32) (x16 : Vec Ideal S256 .f32) (x17 : Vec Ideal S256x256 .f32) (x18 : Vec Ideal S256 .f32)
  (x19 : Vec Ideal S1x256 .f32) (x20 : Vec Ideal S1 .f32) (x21 : Vec Ideal S1x256 .f32) (x22 : Vec Ideal S1 .f32)
  (r : Fin 2048)

/-- The query payload at row r is the row's query. -/
theorem query_eq (o : Fin 32) :
    k0_pay3 (F := Ideal) x0 x1 x2 x3 x4 x5 x6 (ix2 r o)
      = query (Params.ofBlocks x2 x3 x4 x5 x6 x7 x8 x9 x10 x11 x12 x13 x14 x15 x16 x17 x18 x19 x20 x21 x22)
          (obsRowOfBlock x0 r) (actRowOfBlock x1 r) o := by
  rw [pay3_apply]
  rfl

/-- The key payloads at agent n's line, summed, are agent n's key. -/
theorem key_eq (n : Fin 8) (o : Fin 32) :
    k0_pay4 (F := Ideal) x0 x1 x2 x3 x4 x7 (ix2 (line r n) o) + k0_pay5 (F := Ideal) x8 (ix2 (line r n) o)
      = key (Params.ofBlocks x2 x3 x4 x5 x6 x7 x8 x9 x10 x11 x12 x13 x14 x15 x16 x17 x18 x19 x20 x21 x22)
          (obsRowOfBlock x0 r) (actRowOfBlock x1 r) n o := by
  rw [pay4_apply, pay5_apply]
  rfl

theorem logitK_eq (j : Fin 7) :
    logitK (k0_pay3 (F := Ideal) x0 x1 x2 x3 x4 x5 x6) (k0_pay4 (F := Ideal) x0 x1 x2 x3 x4 x7) (k0_pay5 (F := Ideal) x8) x11 x12 r j
      = logit (Params.ofBlocks x2 x3 x4 x5 x6 x7 x8 x9 x10 x11 x12 x13 x14 x15 x16 x17 x18 x19 x20 x21 x22)
          (obsRowOfBlock x0 r) (actRowOfBlock x1 r) j := by
  unfold logitK qform kform logit
  simp only [query_eq x0 x1 x2 x3 x4 x5 x6 x7 x8 x9 x10 x11 x12 x13 x14 x15 x16 x17 x18 x19 x20 x21 x22 r, key_eq x0 x1 x2 x3 x4 x5 x6 x7 x8 x9 x10 x11 x12 x13 x14 x15 x16 x17 x18 x19 x20 x21 x22 r]
  rfl

theorem topK_eq :
    topK (k0_pay3 (F := Ideal) x0 x1 x2 x3 x4 x5 x6) (k0_pay4 (F := Ideal) x0 x1 x2 x3 x4 x7) (k0_pay5 (F := Ideal) x8) x11 x12 r
      = top (Params.ofBlocks x2 x3 x4 x5 x6 x7 x8 x9 x10 x11 x12 x13 x14 x15 x16 x17 x18 x19 x20 x21 x22)
          (obsRowOfBlock x0 r) (actRowOfBlock x1 r) := by
  unfold topK top
  simp only [logitK_eq x0 x1 x2 x3 x4 x5 x6 x7 x8 x9 x10 x11 x12 x13 x14 x15 x16 x17 x18 x19 x20 x21 x22 r]

theorem expoK_eq (j : Fin 7) :
    expoK (k0_pay3 (F := Ideal) x0 x1 x2 x3 x4 x5 x6) (k0_pay4 (F := Ideal) x0 x1 x2 x3 x4 x7) (k0_pay5 (F := Ideal) x8) x11 x12 r j
      = expo (Params.ofBlocks x2 x3 x4 x5 x6 x7 x8 x9 x10 x11 x12 x13 x14 x15 x16 x17 x18 x19 x20 x21 x22)
          (obsRowOfBlock x0 r) (actRowOfBlock x1 r) j := by
  unfold expoK expo
  rw [logitK_eq, topK_eq]

theorem weightK_eq (j : Fin 7) :
    weightK (k0_pay3 (F := Ideal) x0 x1 x2 x3 x4 x5 x6) (k0_pay4 (F := Ideal) x0 x1 x2 x3 x4 x7) (k0_pay5 (F := Ideal) x8) x11 x12 r j
      = weight (Params.ofBlocks x2 x3 x4 x5 x6 x7 x8 x9 x10 x11 x12 x13 x14 x15 x16 x17 x18 x19 x20 x21 x22)
          (obsRowOfBlock x0 r) (actRowOfBlock x1 r) j := by
  unfold weightK weight
  simp only [expoK_eq x0 x1 x2 x3 x4 x5 x6 x7 x8 x9 x10 x11 x12 x13 x14 x15 x16 x17 x18 x19 x20 x21 x22 r]

/-- The weights payload at (r, j), on every lane, is the j-th other's softmax weight. -/
theorem weights_row (j : Fin 7) (o : Fin 32) :
    k0_pay9 (F := Ideal) (k0_pay3 (F := Ideal) x0 x1 x2 x3 x4 x5 x6) (k0_pay4 (F := Ideal) x0 x1 x2 x3 x4 x7) (k0_pay5 (F := Ideal) x8) x11 x12 (ix3 r j o)
      = weight (Params.ofBlocks x2 x3 x4 x5 x6 x7 x8 x9 x10 x11 x12 x13 x14 x15 x16 x17 x18 x19 x20 x21 x22)
          (obsRowOfBlock x0 r) (actRowOfBlock x1 r) j := by
  rw [pay9_apply, weightK_eq]

/-- The weights payload times the others'-values payload, summed over the seven others, is the row's weighted value. -/
theorem others_row (o : Fin 32) :
    (∑ j : Fin 7, k0_pay9 (F := Ideal) (k0_pay3 (F := Ideal) x0 x1 x2 x3 x4 x5 x6) (k0_pay4 (F := Ideal) x0 x1 x2 x3 x4 x7) (k0_pay5 (F := Ideal) x8) x11 x12 (ix3 r j o)
        * k0_pay8 (F := Ideal) (k0_pay2 x0 x1 x2 x3 x4) x9 x10 (ix3 r j o))
      = others (Params.ofBlocks x2 x3 x4 x5 x6 x7 x8 x9 x10 x11 x12 x13 x14 x15 x16 x17 x18 x19 x20 x21 x22)
          (obsRowOfBlock x0 r) (actRowOfBlock x1 r) o := by
  simp only [weights_row x0 x1 x2 x3 x4 x5 x6 x7 x8 x9 x10 x11 x12 x13 x14 x15 x16 x17 x18 x19 x20 x21 x22 r, others_value x0 x1 x2 x3 x4 x5 x6 x7 x8 x9 x10 x11 x12 x13 x14 x15 x16 x17 x18 x19 x20 x21 x22 r]
  rfl

end Others

end Cert.BodyAttn

end
-- ==== Proof.BodyTrunk.lean ====
/-
  The trunk of the attention critic's body, read row by row.

  After the attention step a row r of the block holds its own value vector (32 entries) and, for each of the seven other
  agents, a weight and a value vector. The body sums the weighted values over the seven others, puts own value and that
  sum side by side (64 entries), and feeds both heads at once: one product with the stacked first-layer weight
  (512 lines of 64, head A's 256 lines above head B's), the stacked bias, a leaky rectifier; then per head the columns
  of its half, a second affine layer of width 256 (its operands pass through a narrower float format, which at the
  extended reals is the identity) and a leaky rectifier; then each head's last linear form and bias; the two results
  stand side by side as columns 0 and 1.

  Every operation is read at one index: a sum over an axis is the sum over that axis's coordinates, a side-by-side
  join reads the piece the column falls in, a product into a zero accumulator is the sum over the contracted
  coordinate, a transposed matrix swaps the coordinates, a bias laid as one row reads its entry. Chained, they give
  the row's two results as the specification's `head` of the joined vector, with the weights read as the specification's
  parameter record reads them off the blocks.
-/
import proofs.«174824_j49409303773229_2_alg».proof.Proof.Gen.KernelIdeal.Skeleton
import proofs.«174824_j49409303773229_2_alg».proof.Proof.AttnCritic
import Idealize.ShloMosaic.Lib.ValueLayout
import Idealize.ShloMosaic.Lib.Pipeline.Value
import Idealize.ShloMosaic.Lib.ValueIdx
import Idealize.ShloMosaic.PureOps.Ideal.Laws

noncomputable section

namespace Cert.BodyTrunk

open Idealize.ShloMosaic Idealize.ShloMosaic.ValueIdx Cert.AttnCritic Cert.KernelIdeal Cert.KernelIdeal.Gen

/-! ## The operations of the trunk read at an index -/

/-- The sum over the seven others of a [2048, 7, 32] array, read at (r, o). -/
theorem red_apply (w : FVec Ideal S2048x7x32 .f32) (r : Fin 2048) (o : Fin 32) :
    multiReduction (F := Ideal) .add [1] S2048x32 w 0x00000000#32 reduces_S2048x7x32_S2048x32 (.inl rfl) rfl (ix2 r o)
      = ∑ j : Fin 7, w (ix3 r j o) := by
  refine (Ideal.multiReduction_add_single w _ reduces_S2048x7x32_S2048x32 _ _ (ix2 r o)).trans ?_
  refine Finset.sum_congr rfl fun k _ => congrArg w ?_
  funext c
  apply Fin.ext
  match c with
  | ⟨0, _⟩ => rfl
  | ⟨1, _⟩ => rfl
  | ⟨2, _⟩ => rfl

/-- Two [2048, 32] arrays side by side: a column below 32 reads the first. -/
theorem cat64_left (a b : FVec Ideal S2048x32 .f32) (r : Fin 2048) (f : Fin 64) (h : f.val < 32) :
    concatenate S2048x64 1 [⟨S2048x32, a⟩, ⟨S2048x32, b⟩] concatenates_S2048x32_S2048x32_S2048x64_d1 (ix2 r f)
      = a (ix2 r ⟨f.val, h⟩) :=
  concatenate_pair_apply_left _ a b _ (ix2 r f) rfl (ix2 r ⟨f.val, h⟩)
    (fun c => match c with | ⟨0, _⟩ => rfl | ⟨1, _⟩ => rfl)

/-- … and a column from 32 on reads the second, 32 columns to the left. -/
theorem cat64_right (a b : FVec Ideal S2048x32 .f32) (r : Fin 2048) (f : Fin 64) (h : 32 ≤ f.val) :
    concatenate S2048x64 1 [⟨S2048x32, a⟩, ⟨S2048x32, b⟩] concatenates_S2048x32_S2048x32_S2048x64_d1 (ix2 r f)
      = b (ix2 r ⟨f.val - 32, by omega⟩) :=
  concatenate_pair_apply_right _ a b _ (ix2 r f) rfl rfl (ix2 r ⟨f.val - 32, by omega⟩)
    (fun c hc => match c, hc with
      | ⟨0, _⟩, _ => rfl
      | ⟨1, _⟩, hc => absurd rfl hc)
    (by show f.val - 32 + 32 = f.val; omega)

theorem mm512_apply_l0 (i : S2048x512.Idx) (q : dot_S2048x64_S64x512_S2048x512_1_0_0_1_n_n.contr.Idx) : (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem mm512_apply_l1 (i : S2048x512.Idx) (q : dot_S2048x64_S64x512_S2048x512_1_0_0_1_n_n.contr.Idx) : (dot_S2048x64_S64x512_S2048x512_1_0_0_1_n_n.lhsIdx i q 1).val = (q ⟨0, by decide⟩).val :=
  dot_S2048x64_S64x512_S2048x512_1_0_0_1_n_n.lhsIdx_val_of_single rfl i q
theorem mm512_apply_r0 (i : S2048x512.Idx) (q : dot_S2048x64_S64x512_S2048x512_1_0_0_1_n_n.contr.Idx) : (dot_S2048x64_S64x512_S2048x512_1_0_0_1_n_n.rhsIdx i q 0).val = (q ⟨0, by decide⟩).val :=
  dot_S2048x64_S64x512_S2048x512_1_0_0_1_n_n.rhsIdx_val_of_single rfl i q
theorem mm512_apply_r1 (i : S2048x512.Idx) (q : dot_S2048x64_S64x512_S2048x512_1_0_0_1_n_n.contr.Idx) : (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

/-- The matrix unit's product of a [2048, 64] operand and a [64, 512] operand into a zero accumulator, read at
    (r, u): the sum over the 64 contracted coordinates of the row's entries times the column's. -/
theorem mm512_apply (lhs : FVec Ideal S2048x64 .f32) (rhs : FVec Ideal S64x512 .f32) (r : Fin 2048) (u : Fin 512) :
    FloatOps.matmul dot_S2048x64_S64x512_S2048x512_1_0_0_1_n_n none lhs rhs (constant (F := Ideal) S2048x512 .f32 0x00000000#32) (ix2 r u)
      = ∑ f : Fin 64, lhs (ix2 r f) * rhs (ix2 f u) := by
  rw [Ideal.matmul_constant_zero_apply, ← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have el : dot_S2048x64_S64x512_S2048x512_1_0_0_1_n_n.lhsIdx (ix2 r u) ((contrEquiv1 dot_S2048x64_S64x512_S2048x512_1_0_0_1_n_n 64 rfl rfl).symm k) = ix2 r k := funext fun a => Fin.ext (by
    match a with
    | ⟨0, _⟩ => exact mm512_apply_l0 _ _
    | ⟨1, _⟩ => exact (mm512_apply_l1 _ _).trans hk)
  have er : dot_S2048x64_S64x512_S2048x512_1_0_0_1_n_n.rhsIdx (ix2 r u) ((contrEquiv1 dot_S2048x64_S64x512_S2048x512_1_0_0_1_n_n 64 rfl rfl).symm k) = ix2 k u := funext fun a => Fin.ext (by
    match a with
    | ⟨0, _⟩ => exact (mm512_apply_r0 _ _).trans hk
    | ⟨1, _⟩ => exact mm512_apply_r1 _ _)
  rw [el, er]

theorem mm256_apply_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem mm256_apply_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem mm256_apply_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem mm256_apply_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The matrix unit's product of a [2048, 256] operand and a [256, 256] operand into a zero accumulator, read at
    (r, u): the sum over the 256 contracted coordinates of the row's entries times the column's. -/
theorem mm256_apply (lhs : FVec Ideal S2048x256 .bf16) (rhs : FVec Ideal S256x256 .bf16) (r : Fin 2048) (u : Fin 256) :
    FloatOps.matmul dot_S2048x256_S256x256_S2048x256_1_0_0_1_n_n none lhs rhs (constant (F := Ideal) S2048x256 .f32 0x00000000#32) (ix2 r u)
      = ∑ f : Fin 256, lhs (ix2 r f) * rhs (ix2 f u) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r u) ((contrEquiv1 dot_S2048x256_S256x256_S2048x256_1_0_0_1_n_n 256 rfl rfl).symm k) = ix2 r k := funext fun a => Fin.ext (by
    match a with
    | ⟨0, _⟩ => exact mm256_apply_l0 _ _
    | ⟨1, _⟩ => exact (mm256_apply_l1 _ _).trans hk)
  have er : dot_S2048x256_S256x256_S2048x256_1_0_0_1_n_n.rhsIdx (ix2 r u) ((contrEquiv1 dot_S2048x256_S256x256_S2048x256_1_0_0_1_n_n 256 rfl rfl).symm k) = ix2 k u := funext fun a => Fin.ext (by
    match a with
    | ⟨0, _⟩ => exact (mm256_apply_r0 _ _).trans hk
    | ⟨1, _⟩ => exact mm256_apply_r1 _ _)
  rw [el, er]

theorem mm1_apply_l0 (i : S2048x1.Idx) (q : dot_S2048x256_S256x1_S2048x1_1_0_0_1_n_n.contr.Idx) : (dot_S2048x256_S256x1_S2048x1_1_0_0_1_n_n.lhsIdx i q 0).val = (i 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl
theorem mm1_apply_l1 (i : S2048x1.Idx) (q : dot_S2048x256_S256x1_S2048x1_1_0_0_1_n_n.contr.Idx) : (dot_S2048x256_S256x1_S2048x1_1_0_0_1_n_n.lhsIdx i q 1).val = (q ⟨0, by decide⟩).val :=
  dot_S2048x256_S256x1_S2048x1_1_0_0_1_n_n.lhsIdx_val_of_single rfl i q
theorem mm1_apply_r0 (i : S2048x1.Idx) (q : dot_S2048x256_S256x1_S2048x1_1_0_0_1_n_n.contr.Idx) : (dot_S2048x256_S256x1_S2048x1_1_0_0_1_n_n.rhsIdx i q 0).val = (q ⟨0, by decide⟩).val :=
  dot_S2048x256_S256x1_S2048x1_1_0_0_1_n_n.rhsIdx_val_of_single rfl i q
theorem mm1_apply_r1 (i : S2048x1.Idx) (q : dot_S2048x256_S256x1_S2048x1_1_0_0_1_n_n.contr.Idx) : (dot_S2048x256_S256x1_S2048x1_1_0_0_1_n_n.rhsIdx i q 1).val = (i 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl

/-- The matrix unit's product of a [2048, 256] operand and a [256, 1] operand into a zero accumulator, read at
    (r, u): the sum over the 256 contracted coordinates of the row's entries times the column's. -/
theorem mm1_apply (lhs : FVec Ideal S2048x256 .f32) (rhs : FVec Ideal S256x1 .f32) (r : Fin 2048) (u : Fin 1) :
    FloatOps.matmul dot_S2048x256_S256x1_S2048x1_1_0_0_1_n_n none lhs rhs (constant (F := Ideal) S2048x1 .f32 0x00000000#32) (ix2 r u)
      = ∑ f : Fin 256, lhs (ix2 r f) * rhs (ix2 f u) := by
  rw [Ideal.matmul_constant_zero_apply, ← Equiv.sum_comp (contrEquiv1 dot_S2048x256_S256x1_S2048x1_1_0_0_1_n_n 256 rfl rfl).symm]
  refine Finset.sum_congr rfl fun k _ => ?_
  have hk := contrEquiv1_symm_val dot_S2048x256_S256x1_S2048x1_1_0_0_1_n_n 256 rfl rfl k
  have el : dot_S2048x256_S256x1_S2048x1_1_0_0_1_n_n.lhsIdx (ix2 r u) ((contrEquiv1 dot_S2048x256_S256x1_S2048x1_1_0_0_1_n_n 256 rfl rfl).symm k) = ix2 r k := funext fun a => Fin.ext (by
    match a with
    | ⟨0, _⟩ => exact mm1_apply_l0 _ _
    | ⟨1, _⟩ => exact (mm1_apply_l1 _ _).trans hk)
  have er : dot_S2048x256_S256x1_S2048x1_1_0_0_1_n_n.rhsIdx (ix2 r u) ((contrEquiv1 dot_S2048x256_S256x1_S2048x1_1_0_0_1_n_n 256 rfl rfl).symm k) = ix2 k u := funext fun a => Fin.ext (by
    match a with
    | ⟨0, _⟩ => exact (mm1_apply_r0 _ _).trans hk
    | ⟨1, _⟩ => exact mm1_apply_r1 _ _)
  rw [el, er]

/-- A bias of 512 entries laid as one row and repeated over the 2048 rows reads, at (r, u), its entry u. -/
theorem bias512_apply (b : FVec Ideal S512 .f32) (r : Fin 2048) (u : Fin 512) :
    broadcastTo S2048x512 (shapeCast S1x512 b shapeCasts_S512_S1x512) broadcasts_S1x512_S2048x512 (ix2 r u) = b (ix1 u) :=
  (broadcastTo_1b_ab_apply _ broadcasts_S1x512_S2048x512 r u).trans (shapeCast_a_1a_apply b shapeCasts_S512_S1x512 0 u)

/-- The same for a bias of 256 entries. -/
theorem bias256_apply (b : FVec Ideal S256 .f32) (r : Fin 2048) (u : Fin 256) :
    broadcastTo S2048x256 (shapeCast S1x256 b shapeCasts_S256_S1x256) broadcasts_S1x256_S2048x256 (ix2 r u) = b (ix1 u) :=
  (broadcastTo_1b_ab_apply _ broadcasts_S1x256_S2048x256 r u).trans (shapeCast_a_1a_apply b shapeCasts_S256_S1x256 0 u)

/-- … and for a bias of one entry. -/
theorem bias1_apply (b : FVec Ideal S1 .f32) (r : Fin 2048) (u : Fin 1) :
    broadcastTo S2048x1 (shapeCast S1x1 b shapeCasts_S1_S1x1) broadcasts_S1x1_S2048x1 (ix2 r u) = b (ix1 u) :=
  (broadcastTo_1b_ab_apply _ broadcasts_S1x1_S2048x1 r u).trans (shapeCast_a_1a_apply b shapeCasts_S1_S1x1 0 u)

/-! ## The leaky rectifier as the body spells it -/

/-- The body's select on "v ≥ 0" between v and the slope times v is the leaky rectifier of v. -/
theorem leaky_eq (x : EReal) :
    Scalar.select (FloatOps.cmpf (F := Ideal) (φ := .f32) .oge x (Scalar.ofBits .f32 0x00000000#32)) x
      (Scalar.ofBits (F := Ideal) .f32 0x3C23D70A#32 * x) = leaky x := rfl

/-! ## The first layer of both heads -/

section

variable (v50 : FVec Ideal S2048x32 .f32) (v51 v85 : FVec Ideal S2048x7x32 .f32)
  (x13 : Vec Ideal S512x64 .f32) (x14 : Vec Ideal S512 .f32)
  (x15 x17 : Vec Ideal S256x256 .f32) (x16 x18 : Vec Ideal S256 .f32)
  (x19 x21 : Vec Ideal S1x256 .f32) (x20 x22 : Vec Ideal S1 .f32)
  (r : Fin 2048) (j : Fin 2) (own oth : Fin 32 → EReal)

/-- Own value and the others' weighted value side by side, read at (r, f), is the joined vector's entry f. -/
theorem joined_apply (hown : ∀ o : Fin 32, v50 (ix2 r o) = own o)
    (hoth : ∀ o : Fin 32, (∑ j : Fin 7, v85 (ix3 r j o) * v51 (ix3 r j o)) = oth o) (f : Fin 64) :
    concatenate S2048x64 1 [⟨S2048x32, v50⟩, ⟨S2048x32, multiReduction (F := Ideal) .add [1] S2048x32 (mulf v85 v51) 0x00000000#32
        reduces_S2048x7x32_S2048x32 (.inl rfl) rfl⟩] concatenates_S2048x32_S2048x32_S2048x64_d1 (ix2 r f)
      = joinOf own oth f := by
  unfold joinOf
  split
  · next h => exact (cat64_left _ _ r f h).trans (hown _)
  · next h => exact (cat64_right _ _ r f (by omega)).trans ((red_apply _ r _).trans (hoth _))

/-- The fused first layer of both heads at (r, u): the leaky rectifier of line u of the stacked weight against the
    joined vector, plus entry u of the stacked bias. -/
theorem pay10_apply (hown : ∀ o : Fin 32, v50 (ix2 r o) = own o)
    (hoth : ∀ o : Fin 32, (∑ j : Fin 7, v85 (ix3 r j o) * v51 (ix3 r j o)) = oth o) (u : Fin 512) :
    k0_pay10 (F := Ideal) v50 v51 v85 x13 x14 (ix2 r u)
      = leaky ((∑ f : Fin 64, joinOf own oth f * x13 (ix2 u f)) + x14 (ix1 u)) := by
  unfold k0_pay10
  simp only [select_apply, cmpf_apply, broadcast_apply, mulf_apply, addf_apply, shapeCast_self]
  refine (leaky_eq _).trans (congrArg leaky ?_)
  refine congrArg₂ (· + ·) ?_ (bias512_apply x14 r u)
  refine (mm512_apply _ _ r u).trans (Finset.sum_congr rfl fun f _ => ?_)
  exact congrArg₂ (· * ·) (joined_apply v50 v51 v85 r own oth hown hoth f) (transpose_ix2_apply x13 _ f u)

/-! ## The second layers -/

/-- Head A's second layer at (r, u). -/
theorem pay11_apply (hown : ∀ o : Fin 32, v50 (ix2 r o) = own o)
    (hoth : ∀ o : Fin 32, (∑ j : Fin 7, v85 (ix3 r j o) * v51 (ix3 r j o)) = oth o) (u : Fin 256) :
    k0_pay11 (F := Ideal) v50 v51 v85 x13 x14 x15 x16 (ix2 r u)
      = layer2 (joinOf own oth) (fun u f => x13 (ix2 ⟨u.val, by omega⟩ f)) (fun u => x14 (ix1 ⟨u.val, by omega⟩))
          (fun u f => x15 (ix2 u f)) (fun u => x16 (ix1 u)) u := by
  unfold k0_pay11
  simp only [select_apply, cmpf_apply, broadcast_apply, mulf_apply, addf_apply]
  refine (leaky_eq _).trans (congrArg leaky ?_)
  refine congrArg₂ (· + ·) ?_ (bias256_apply x16 r u)
  refine (mm256_apply _ _ r u).trans (Finset.sum_congr rfl fun f _ => ?_)
  refine congrArg₂ (· * ·) ?_ (transpose_ix2_apply x15 _ f u)
  refine (truncf_apply (ψ := .bf16) _ bitsLt_bf16_f32 (ix2 r f)).trans ?_
  refine (slice2_axis1_apply 0 _ slices_S2048x512_o0_0_S2048x256 r f ⟨f.val, by omega⟩ (Nat.zero_add _).symm).trans ?_
  exact pay10_apply v50 v51 v85 x13 x14 r own oth hown hoth _

/-- Head B's second layer at (r, u), before its rectifier. -/
theorem pay12_apply (hown : ∀ o : Fin 32, v50 (ix2 r o) = own o)
    (hoth : ∀ o : Fin 32, (∑ j : Fin 7, v85 (ix3 r j o) * v51 (ix3 r j o)) = oth o) (u : Fin 256) :
    k0_pay12 (F := Ideal) v50 v51 v85 x13 x14 x17 x18 (ix2 r u)
      = (∑ f : Fin 256, layer1 (joinOf own oth) (fun u f => x13 (ix2 ⟨256 + u.val, by omega⟩ f))
            (fun u => x14 (ix1 ⟨256 + u.val, by omega⟩)) f * x17 (ix2 u f)) + x18 (ix1 u) := by
  unfold k0_pay12
  simp only [addf_apply]
  refine congrArg₂ (· + ·) ?_ (bias256_apply x18 r u)
  refine (mm256_apply _ _ r u).trans (Finset.sum_congr rfl fun f _ => ?_)
  refine congrArg₂ (· * ·) ?_ (transpose_ix2_apply x17 _ f u)
  refine (truncf_apply (ψ := .bf16) _ bitsLt_bf16_f32 (ix2 r f)).trans ?_
  refine (slice2_axis1_apply 256 _ slices_S2048x512_o0_256_S2048x256 r f ⟨256 + f.val, by omega⟩ rfl).trans ?_
  exact pay10_apply v50 v51 v85 x13 x14 r own oth hown hoth _

/-! ## The last linear forms, side by side -/

/-- Two [2048, 1] columns side by side: column 0 reads the first. -/
theorem cat2_left (a b : FVec Ideal S2048x1 .f32) (r : Fin 2048) :
    concatenate S2048x2 1 [⟨S2048x1, a⟩, ⟨S2048x1, b⟩] concatenates_S2048x1_S2048x1_S2048x2_d1 (ix2 r (0 : Fin 2))
      = a (ix2 r (0 : Fin 1)) :=
  concatenate_pair_apply_left _ a b _ (ix2 r (0 : Fin 2)) rfl (ix2 r (0 : Fin 1))
    (fun c => match c with | ⟨0, _⟩ => rfl | ⟨1, _⟩ => rfl)

/-- … and column 1 the second. -/
theorem cat2_right (a b : FVec Ideal S2048x1 .f32) (r : Fin 2048) :
    concatenate S2048x2 1 [⟨S2048x1, a⟩, ⟨S2048x1, b⟩] concatenates_S2048x1_S2048x1_S2048x2_d1 (ix2 r (1 : Fin 2))
      = b (ix2 r (0 : Fin 1)) :=
  concatenate_pair_apply_right _ a b _ (ix2 r (1 : Fin 2)) rfl rfl (ix2 r (0 : Fin 1))
    (fun c hc => match c, hc with
      | ⟨0, _⟩, _ => rfl
      | ⟨1, _⟩, hc => absurd rfl hc)
    rfl

/-- The row's two results: each head's last linear form of its second layer, plus its bias. -/
theorem trunk_row (hown : ∀ o : Fin 32, v50 (ix2 r o) = own o)
    (hoth : ∀ o : Fin 32, (∑ j : Fin 7, v85 (ix3 r j o) * v51 (ix3 r j o)) = oth o) :
    k0_pay1 (F := Ideal) (k0_pay11 v50 v51 v85 x13 x14 x15 x16) (k0_pay12 v50 v51 v85 x13 x14 x17 x18)
        (Scalar.ofBits .f32 0x00000000#32) x19 x20 x21 x22 (ix2 r j)
      = if j.val = 0
        then head (joinOf own oth) (fun u f => x13 (ix2 ⟨u.val, by omega⟩ f)) (fun u => x14 (ix1 ⟨u.val, by omega⟩))
          (fun u f => x15 (ix2 u f)) (fun u => x16 (ix1 u)) (fun f => x19 (ix2 (0 : Fin 1) f)) (x20 (ix1 (0 : Fin 1)))
        else head (joinOf own oth) (fun u f => x13 (ix2 ⟨256 + u.val, by omega⟩ f)) (fun u => x14 (ix1 ⟨256 + u.val, by omega⟩))
          (fun u f => x17 (ix2 u f)) (fun u => x18 (ix1 u)) (fun f => x21 (ix2 (0 : Fin 1) f)) (x22 (ix1 (0 : Fin 1))) := by
  unfold k0_pay1
  match j with
  | ⟨0, _⟩ =>
    rw [if_pos rfl]
    refine (cat2_left _ _ r).trans ?_
    simp only [addf_apply]
    unfold head
    refine congrArg₂ (· + ·) ?_ (bias1_apply x20 r 0)
    refine (mm1_apply _ _ r 0).trans (Finset.sum_congr rfl fun f _ => ?_)
    exact congrArg₂ (· * ·) (pay11_apply v50 v51 v85 x13 x14 x15 x16 r own oth hown hoth f) (transpose_ix2_apply x19 _ f 0)
  | ⟨1, _⟩ =>
    rw [if_neg (show ¬ (1 : Nat) = 0 by decide)]
    refine (cat2_right _ _ r).trans ?_
    simp only [addf_apply]
    unfold head
    refine congrArg₂ (· + ·) ?_ (bias1_apply x22 r 0)
    refine (mm1_apply _ _ r 0).trans (Finset.sum_congr rfl fun f _ => ?_)
    refine congrArg₂ (· * ·) ?_ (transpose_ix2_apply x21 _ f 0)
    simp only [select_apply, cmpf_apply, broadcast_apply, mulf_apply]
    refine (leaky_eq _).trans ?_
    unfold layer2
    exact congrArg leaky (pay12_apply v50 v51 v85 x13 x14 x17 x18 r own oth hown hoth f)

end

end Cert.BodyTrunk

end
-- ==== Proof.BodyRow.lean ====
/-
  What one grid point stores at row r, column j of its result block is the row function of the point's blocks.

  The body stores one value into the whole [2048, 2] result block. That value's two columns are the two heads of a row,
  computed from the row's own value vector and the others' weighted value vectors, which in turn are computed from the
  row's eight embedded agents: the attention part and the two heads are read separately and meet here.
-/
import proofs.«174824_j49409303773229_2_alg».proof.Proof.Gen.KernelIdeal.Frame
import proofs.«174824_j49409303773229_2_alg».proof.Proof.AttnCritic
import proofs.«174824_j49409303773229_2_alg».proof.Proof.BodyAttn3
import proofs.«174824_j49409303773229_2_alg».proof.Proof.BodyTrunk
import Idealize.ShloMosaic.Lib.Pipeline.Value

set_option maxRecDepth 16384

noncomputable section

namespace Cert.CriticKernel

open Cert.KernelIdeal Cert.KernelIdeal.Gen Idealize.ShloMosaic Idealize.ShloMosaic.TcCoe Idealize.SL.Sem
open Idealize.ShloMosaic.ValueIdx Cert.AttnCritic

theorem hz2 : (![0, 0] : Fin 2 → Nat) = fun _ => 0 := funext fun a => by fin_cases a <;> rfl
theorem hz1 : (![0] : Fin 1 → Nat) = fun _ => 0 := funext fun a => by fin_cases a <;> rfl

set_option maxHeartbeats 1600000 in
theorem body_row (x0 : Vec Ideal S16384x64 .f32) (x1 : Vec Ideal S16384x32 .f32) (x2 : Vec Ideal S64x64 .f32) (x3 : Vec Ideal S64x32 .f32) (x4 : Vec Ideal S64 .f32) (x5 : Vec Ideal S32x64 .f32) (x6 : Vec Ideal S32 .f32) (x7 : Vec Ideal S32x64 .f32) (x8 : Vec Ideal S32 .f32) (x9 : Vec Ideal S32x64 .f32) (x10 : Vec Ideal S32 .f32) (x11 : Vec Ideal S1x64 .f32) (x12 : Vec Ideal S1 .f32) (x13 : Vec Ideal S512x64 .f32) (x14 : Vec Ideal S512 .f32) (x15 : Vec Ideal S256x256 .f32) (x16 : Vec Ideal S256 .f32) (x17 : Vec Ideal S256x256 .f32) (x18 : Vec Ideal S256 .f32) (x19 : Vec Ideal S1x256 .f32) (x20 : Vec Ideal S1 .f32) (x21 : Vec Ideal S1x256 .f32) (x22 : Vec Ideal S1 .f32)
    (r : Fin 2048) (j : Fin 2) :
    out0_23 (F := Ideal) x0 x1 x2 x3 x4 x5 x6 x7 x8 x9 x10 x11 x12 x13 x14 x15 x16 x17 x18 x19 x20 x21 x22 (ix2 r j)
      = out (Params.ofBlocks x2 x3 x4 x5 x6 x7 x8 x9 x10 x11 x12 x13 x14 x15 x16 x17 x18 x19 x20 x21 x22) (obsRowOfBlock x0 r) (actRowOfBlock x1 r) j := by
  unfold out0_23
  rw [View.canon_unit_zero hz2]
  simp only [View.ld_unit_zero (S := S16384x64) hz2,
    View.ld_unit_zero (S := S16384x32) hz2,
    View.ld_unit_zero (S := S64x64) hz2,
    View.ld_unit_zero (S := S64x32) hz2,
    View.ld_unit_zero (S := S32x64) hz2,
    View.ld_unit_zero (S := S1x64) hz2,
    View.ld_unit_zero (S := S512x64) hz2,
    View.ld_unit_zero (S := S256x256) hz2,
    View.ld_unit_zero (S := S1x256) hz2,
    View.ld_unit_zero (S := S2048x2) hz2,
    View.ld_unit_zero (S := S64) hz1,
    View.ld_unit_zero (S := S32) hz1,
    View.ld_unit_zero (S := S1) hz1,
    View.ld_unit_zero (S := S512) hz1,
    View.ld_unit_zero (S := S256) hz1]
  refine (Cert.BodyTrunk.trunk_row
    (k0_pay7 (F := Ideal) (k0_pay2 x0 x1 x2 x3 x4) x9 x10)
    (k0_pay8 (F := Ideal) (k0_pay2 x0 x1 x2 x3 x4) x9 x10)
    (k0_pay9 (F := Ideal) (k0_pay3 x0 x1 x2 x3 x4 x5 x6) (k0_pay4 x0 x1 x2 x3 x4 x7) (k0_pay5 x8) x11 x12)
    x13 x14 x15 x17 x16 x18 x19 x21 x20 x22 r j
    (value (Params.ofBlocks x2 x3 x4 x5 x6 x7 x8 x9 x10 x11 x12 x13 x14 x15 x16 x17 x18 x19 x20 x21 x22) (obsRowOfBlock x0 r) (actRowOfBlock x1 r) 0)
    (others (Params.ofBlocks x2 x3 x4 x5 x6 x7 x8 x9 x10 x11 x12 x13 x14 x15 x16 x17 x18 x19 x20 x21 x22) (obsRowOfBlock x0 r) (actRowOfBlock x1 r))
    (fun o => Cert.BodyAttn.own_row x0 x1 x2 x3 x4 x5 x6 x7 x8 x9 x10 x11 x12 x13 x14 x15 x16 x17 x18 x19 x20 x21 x22 r o)
    (fun o => Cert.BodyAttn.others_row x0 x1 x2 x3 x4 x5 x6 x7 x8 x9 x10 x11 x12 x13 x14 x15 x16 x17 x18 x19 x20 x21 x22 r o)).trans ?_
  rfl

end Cert.CriticKernel

end
-- ==== Proof.OutArray.lean ====
/-
  The kernel's result array, and its two columns.

  Point t writes rows 2048 t … 2048 t + 2047 of the [65536, 2] result; row r of its block holds the row function of the
  point's blocks, which is the row function of row 2048 t + r of the arguments. The 32 blocks tile the array, so after the
  launch entry (b, j) of the array is head j of row b. The two host lines after the launch cut the array into its two
  columns: the program's two results.
-/
import proofs.«174824_j49409303773229_2_alg».proof.Proof.Rows
import proofs.«174824_j49409303773229_2_alg».proof.Proof.BodyRow

set_option maxRecDepth 16384

noncomputable section

namespace Cert.CriticKernel

open Cert.KernelIdeal Cert.KernelIdeal.Gen Idealize.ShloMosaic Idealize.ShloMosaic.TcCoe Idealize.SL.Sem
open Idealize.ShloMosaic.ValueIdx Idealize.ShloMosaic.StableHlo Cert.AttnCritic
open Idealize.ShloMosaic.Pipeline (Dat)

variable (m : (ℓ : Loc nD τ sig) → Buf (Elt Ideal) ℓ) (ρ : Dev nD → PrngReg)

/-- Head j of row b of the argument arrays. -/
def resultAt (c : Dev nD) (b : Fin 65536) (j : Fin 2) : EReal :=
  out (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (obsRowOfArray (m ((c : Thread nD τ).loc main_arg0)) b) (actRowOfArray (m ((c : Thread nD τ).loc main_arg1)) b) j

/-- The result array: entry (b, j) is head j of row b. -/
def result (c : Dev nD) : S65536x2.Idx → EReal :=
  fun i => resultAt m c ⟨(i 0).val, (i 0).isLt⟩ ⟨(i 1).val, (i 1).isLt⟩

/-- What point t writes back is block t of the result array. -/
theorem flushed_eq (c : Dev nD) (t : Fin cfg0.N) :
    (dats m 0 c).flushed 23 t = ((cfg0.win 23).blk t).view.read (Elt Ideal) (result m c) := by
  show (cfg0.win 23).cut (grid0.coords t) ((dats m 0 c).after 23 t) = _
  rw [after0_23]
  refine funext fun (y : S2048x2.Idx) => ?_
  obtain ⟨r, j, rfl⟩ : ∃ (r : Fin 2048) (j : Fin 2), y = ix2 r j := ⟨y 0, y 1, eq_ix2 y⟩
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 r j)
    = result m c (((cfg0.win 23).blk t).view.emb (ix2 r j))
  refine (body_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) r j).trans ?_
  refine (row_eq m c t r j).trans ?_
  obtain ⟨-, -, -, -, e0, e1⟩ := idx_moving t
  show resultAt m c _ _ = resultAt m c _ _
  congr 1
  · exact Fin.ext (by show 2048 * t.val + r.val = win0_23.index t (0 : Fin 2) * 2048 + 1 * r.val; omega)
  · exact Fin.ext (by show j.val = win0_23.index t (1 : Fin 2) * 2 + 1 * j.val; omega)

/-- An index of the result array is in point t's block iff each coordinate is in the block's range. -/
theorem mem_blk (t : Fin cfg0.N) (i : S65536x2.Idx) :
    i ∈ ((cfg0.win 23).blk t).view.set ↔ ∀ a : Fin 2, win0_23.index t a * S2048x2.size a ≤ (i a).val
      ∧ (i a).val < win0_23.index t a * S2048x2.size a + S2048x2.size a := by
  show i ∈ ((View.whole main_v6).slice (win0_23.rect t)).set ↔ _
  rw [View.set_slice_whole, Rect.mem_set_unit]
  exact Iff.rfl

/-- Row b lies in the block of point b div 2048: the blocks tile the array. -/
theorem cover (i : S65536x2.Idx) :
    ∃ t : Fin cfg0.N, (cfg0.win 23).flush t = true ∧ i ∈ ((cfg0.win 23).blk t).view.set := by
  have h0 : (i 0).val < 65536 := (i 0).isLt
  have h1 : (i 1).val < 2 := (i 1).isLt
  have hlt : (i 0).val / 2048 < grid0.N := lt_of_lt_of_eq (by omega : (i 0).val / 2048 < 32) N_0.symm
  refine ⟨⟨(i 0).val / 2048, hlt⟩, flush0_23 _, ?_⟩
  rw [mem_blk]
  obtain ⟨-, -, -, -, e0, e1⟩ := idx_moving ⟨(i 0).val / 2048, hlt⟩
  have e0' : win0_23.index ⟨(i 0).val / 2048, hlt⟩ (0 : Fin 2) = (i 0).val / 2048 := e0
  intro a
  match a with
  | ⟨0, _⟩ =>
    show win0_23.index ⟨(i 0).val / 2048, hlt⟩ (0 : Fin 2) * 2048 ≤ (i 0).val
      ∧ (i 0).val < win0_23.index ⟨(i 0).val / 2048, hlt⟩ (0 : Fin 2) * 2048 + 2048
    omega
  | ⟨1, _⟩ =>
    show win0_23.index ⟨(i 0).val / 2048, hlt⟩ (1 : Fin 2) * 2 ≤ (i 1).val
      ∧ (i 1).val < win0_23.index ⟨(i 0).val / 2048, hlt⟩ (1 : Fin 2) * 2 + 2
    omega

/-- After the launch the result array holds, at (b, j), head j of row b. -/
theorem final (c : Dev nD) : (dats m 0 c).arrAt 23 cfg0.N = result m c :=
  (dats m 0 c).arrAt_eq_of_cover 23 (result m c) (fun t _ => flushed_eq m c t) (cover)

end Cert.CriticKernel

end
-- ==== Proof.KernelRun.lean ====
/-
  The idealized kernel's run, read: its two results are the two heads, row by row.

  The frame run leaves the result array at the launch's final contents and every other buffer as the host lines after the
  launch leave it. Those two lines cut column 0 and column 1 out of the [65536, 2] result array: entry (b, 0) of the first
  result is head A of row b, entry (b, 0) of the second is head B of row b. The arguments end as they began: a staged input
  is never written back, and the remaining arguments are touched by no line after the launch.
-/
import proofs.«174824_j49409303773229_2_alg».proof.Proof.OutArray

set_option maxRecDepth 16384

noncomputable section

namespace Cert.CriticKernel

open Cert.KernelIdeal Cert.KernelIdeal.Gen Idealize.ShloMosaic Idealize.ShloMosaic.TcCoe Idealize.SL.Sem
open Idealize.ShloMosaic.ValueIdx Idealize.ShloMosaic.StableHlo Cert.AttnCritic
open Idealize.ShloMosaic.Pipeline (Dat)

variable (m : (ℓ : Loc nD τ sig) → Buf (Elt Ideal) ℓ) (ρ : Dev nD → PrngReg)

/-- The first result: head A of every row. -/
def outA (c : Dev nD) : S65536x1.Idx → EReal := fun i => resultAt m c ⟨(i 0).val, (i 0).isLt⟩ 0

/-- The second result: head B of every row. -/
def outB (c : Dev nD) : S65536x1.Idx → EReal := fun i => resultAt m c ⟨(i 0).val, (i 0).isLt⟩ 1

/-- Column 0 of the result array. -/
theorem col0 (c : Dev nD) :
    extractStridedSlice S65536x1 ![0, 0] (result m c) slices_S65536x2_S65536x1_0_0 = outA m c := by
  funext i
  obtain ⟨b, z, rfl⟩ : ∃ (b : Fin 65536) (z : Fin 1), i = ix2 b z := ⟨i 0, i 1, eq_ix2 i⟩
  exact slice2_axis1_apply 0 (result m c) slices_S65536x2_S65536x1_0_0 b z (0 : Fin 2) (by have := z.isLt; show (0 : ℕ) = 0 + z.val; omega)

/-- Column 1 of the result array. -/
theorem col1 (c : Dev nD) :
    extractStridedSlice S65536x1 ![0, 1] (result m c) slices_S65536x2_S65536x1_0_1 = outB m c := by
  funext i
  obtain ⟨b, z, rfl⟩ : ∃ (b : Fin 65536) (z : Fin 1), i = ix2 b z := ⟨i 0, i 1, eq_ix2 i⟩
  exact slice2_axis1_apply 1 (result m c) slices_S65536x2_S65536x1_0_1 b z (1 : Fin 2) (by have := z.isLt; show (1 : ℕ) = 1 + z.val; omega)

/-- What the first line after the launch leaves in the first result. -/
theorem tail_v7 (c : Dev nD) :
    Pipeline.afterTail₀ cfgs (dats m) 0 (V0 m) [hostOps1] c main_v7 = outA m c := by
  unfold Pipeline.afterTail₀
  show StableHlo.after hostOps1 _ (Proc.devRef .tc main_v7) = _
  after_results
  refine Eq.trans ?_ (col0 m c)
  exact congrArg (fun x => extractStridedSlice S65536x1 ![0, 0] x slices_S65536x2_S65536x1_0_0)
    ((Pipeline.withArrays_arr spec0 launch0.win.arr_inj c (V0 m c) (fun w => (dats m 0 c).arrAt w cfg0.N) 23).trans (final m c))

/-- What the second line after the launch leaves in the second result. -/
theorem tail_v8 (c : Dev nD) :
    Pipeline.afterTail₀ cfgs (dats m) 0 (V0 m) [hostOps1] c main_v8 = outB m c := by
  unfold Pipeline.afterTail₀
  show StableHlo.after hostOps1 _ (Proc.devRef .tc main_v8) = _
  after_results
  refine Eq.trans ?_ (col1 m c)
  exact congrArg (fun x => extractStridedSlice S65536x1 ![0, 1] x slices_S65536x2_S65536x1_0_1)
    ((Pipeline.withArrays_arr spec0 launch0.win.arr_inj c (V0 m c) (fun w => (dats m 0 c).arrAt w cfg0.N) 23).trans (final m c))

set_option maxHeartbeats 1600000 in
/-- The run: both results named, the arguments unchanged. -/
theorem run : θ_run defs (onTc (τ := τ) (main (F := Ideal))) ⟨m, fun _ => 0, ρ⟩ fun r => ∀ c : Dev nD,
      r.2.mem ((c : Thread nD τ).loc main_v7) = outA m c
      ∧ r.2.mem ((c : Thread nD τ).loc main_v8) = outB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨
      ((h c).2 main_v7 (Pipeline.mem_restRefs_of main_v7 (by decide) (by decide))).trans (tail_v7 m c),
      ((h c).2 main_v8 (Pipeline.mem_restRefs_of main_v8 (by decide) (by decide))).trans (tail_v8 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      ((h c).1 15).trans (((dats m 0 c).arrAt_in 15 rfl _).trans ((A_eq m c 15).trans (V_main_arg14 m c))),
      ((h c).1 16).trans (((dats m 0 c).arrAt_in 16 rfl _).trans ((A_eq m c 16).trans (V_main_arg15 m c))),
      ((h c).1 19).trans (((dats m 0 c).arrAt_in 19 rfl _).trans ((A_eq m c 19).trans (V_main_arg16 m c))),
      ((h c).1 20).trans (((dats m 0 c).arrAt_in 20 rfl _).trans ((A_eq m c 20).trans (V_main_arg17 m c))),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      ((h c).1 17).trans (((dats m 0 c).arrAt_in 17 rfl _).trans ((A_eq m c 17).trans (V_main_arg20 m c))),
      ((h c).1 18).trans (((dats m 0 c).arrAt_in 18 rfl _).trans ((A_eq m c 18).trans (V_main_arg21 m c))),
      ((h c).1 21).trans (((dats m 0 c).arrAt_in 21 rfl _).trans ((A_eq m c 21).trans (V_main_arg22 m c))),
      ((h c).1 22).trans (((dats m 0 c).arrAt_in 22 rfl _).trans ((A_eq m c 22).trans (V_main_arg23 m c)))⟩)
    (run_main m ρ)

end Cert.CriticKernel

end
-- ==== Proof.RefRows1.lean ====
/-
  The reference program read row by row, first part: the shared embedding of the eight agents, the own agent's slice
  and the seven others' slice, the query, the keys, the values and the own value, each stage at explicit coordinates
  equal to the corresponding function of the row.
-/
import proofs.«174824_j49409303773229_2_alg».proof.Proof.RefRead
import proofs.«174824_j49409303773229_2_alg».proof.Proof.AttnCritic

noncomputable section

namespace Cert.RefRows

open Cert.AttnCritic Cert.ReferenceIdeal Cert.ReferenceIdeal.Gen Cert.ReferenceIdeal.Read
open Idealize.ShloMosaic Idealize.ShloMosaic.ValueIdx

/-- The rectifier as the reference spells it: a select on the comparison with zero between the value and the slope times it. -/
theorem leaky_def (x : EReal) :
    Scalar.select (FloatOps.cmpf (F := Ideal) (φ := .f32) .oge x (FloatOps.ofBits (F := Ideal) .f32 0x00000000#32)) x
      (FloatOps.mulf (F := Ideal) (φ := .f32) (FloatOps.ofBits (F := Ideal) .f32 0x3C23D70A#32) x) = leaky x := rfl

variable (x0 : (⟨S65536x512, .f32⟩ : BufTy).Contents (Elt Ideal)) (x1 : (⟨S65536x256, .f32⟩ : BufTy).Contents (Elt Ideal))
  (x2 : (⟨S64x96, .f32⟩ : BufTy).Contents (Elt Ideal)) (x3 : (⟨S64, .f32⟩ : BufTy).Contents (Elt Ideal))
  (x4 : (⟨S32x64, .f32⟩ : BufTy).Contents (Elt Ideal)) (x5 : (⟨S32, .f32⟩ : BufTy).Contents (Elt Ideal))
  (x6 : (⟨S32x64, .f32⟩ : BufTy).Contents (Elt Ideal)) (x7 : (⟨S32, .f32⟩ : BufTy).Contents (Elt Ideal))
  (x8 : (⟨S32x64, .f32⟩ : BufTy).Contents (Elt Ideal)) (x9 : (⟨S32, .f32⟩ : BufTy).Contents (Elt Ideal))
  (x10 : (⟨S1x64, .f32⟩ : BufTy).Contents (Elt Ideal)) (x11 : (⟨S1, .f32⟩ : BufTy).Contents (Elt Ideal))
  (x12 : (⟨S256x64, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S1x256, .f32⟩ : BufTy).Contents (Elt Ideal)) (x17 : (⟨S1, .f32⟩ : BufTy).Contents (Elt Ideal))
  (x18 : (⟨S256x64, .f32⟩ : BufTy).Contents (Elt Ideal)) (x19 : (⟨S256, .f32⟩ : BufTy).Contents (Elt Ideal))
  (x20 : (⟨S256x256, .f32⟩ : BufTy).Contents (Elt Ideal)) (x21 : (⟨S256, .f32⟩ : BufTy).Contents (Elt Ideal))
  (x22 : (⟨S1x256, .f32⟩ : BufTy).Contents (Elt Ideal)) (x23 : (⟨S1, .f32⟩ : BufTy).Contents (Elt Ideal))
  (b : Fin 65536)

local notation "PP" => Params.ofArgs x2 x3 x4 x5 x6 x7 x8 x9 x10 x11 x12 x13 x14 x15 x16 x17 x18 x19 x20 x21 x22 x23
local notation "OBS" => obsRowOfArray x0 b
local notation "ACT" => actRowOfArray x1 b

local notation:max f:max "⟪⟫" => f x0 x1 x2 x3 x4 x5 x6 x7 x8 x9 x10 x11 x12 x13 x14 x15 x16 x17 x18 x19 x20 x21 x22 x23 b

/-- The concatenated row at a column below 64 is the observation entry. -/
theorem v2_left (n : Fin 8) (f : Fin 64) :
    val_main_v2 (F := Ideal) x0 x1 (ix3 b n (⟨f.val, by omega⟩ : Fin 96)) = OBS n f := by
  unfold val_main_v2
  refine (concatenate_pair_apply_left _ (val_main_v0 (F := Ideal) x0) (val_main_v1 (F := Ideal) x1)
    concatenates_S65536x8x64_S65536x8x32_S65536x8x96_d2 _ rfl (ix3 b n f) ?_).trans ?_
  · intro c; match c with
    | ⟨0, _⟩ => rfl
    | ⟨1, _⟩ => rfl
    | ⟨2, _⟩ => rfl
  · rw [val_main_v0_apply]
    unfold obsRowOfArray
    congr 1
    funext a; match a with
    | ⟨0, _⟩ => exact Fin.ext (by show ((b.val * 8 + n.val) * 64 + f.val) / 512 = b.val; omega)
    | ⟨1, _⟩ => exact Fin.ext (by show ((b.val * 8 + n.val) * 64 + f.val) % 512 = 64 * n.val + f.val; omega)

/-- The concatenated row at a column from 64 on is the action entry. -/
theorem v2_right (n : Fin 8) (f : Fin 32) :
    val_main_v2 (F := Ideal) x0 x1 (ix3 b n (⟨64 + f.val, by omega⟩ : Fin 96)) = ACT n f := by
  unfold val_main_v2
  refine (concatenate_pair_apply_right _ (val_main_v0 (F := Ideal) x0) (val_main_v1 (F := Ideal) x1)
    concatenates_S65536x8x64_S65536x8x32_S65536x8x96_d2 _ rfl rfl (ix3 b n f) ?_ ?_).trans ?_
  · intro c hc; match c with
    | ⟨0, _⟩ => rfl
    | ⟨1, _⟩ => rfl
    | ⟨2, _⟩ => exact absurd rfl hc
  · show f.val + 64 = 64 + f.val; omega
  · rw [val_main_v1_apply]
    unfold actRowOfArray
    congr 1
    funext a; match a with
    | ⟨0, _⟩ => exact Fin.ext (by show ((b.val * 8 + n.val) * 32 + f.val) / 256 = b.val; omega)
    | ⟨1, _⟩ => exact Fin.ext (by show ((b.val * 8 + n.val) * 32 + f.val) % 256 = 32 * n.val + f.val; omega)

/-- The embedding's product: the 96 columns split into the observation part and the action part. -/
theorem v3_eq (n : Fin 8) (o : Fin 64) :
    val_main_v3 (F := Ideal) x0 x1 x2 (ix3 b n o)
      = (∑ f : Fin 64, OBS n f * x2 (ix2 o (⟨f.val, by omega⟩ : Fin 96)))
        + ∑ f : Fin 32, ACT n f * x2 (ix2 o (⟨64 + f.val, by omega⟩ : Fin 96)) := by
  rw [val_main_v3_apply, sum_split_96]
  congr 1
  · refine Finset.sum_congr rfl fun f _ => ?_
    have e1 : lidx_main_v3 (ix3 b n o) (⟨f.val, by omega⟩ : Fin 96) = ix3 b n (⟨f.val, by omega⟩ : Fin 96) := by
      funext a; match a with
      | ⟨0, _⟩ => rfl
      | ⟨1, _⟩ => rfl
      | ⟨2, _⟩ => rfl
    have e2 : ridx_main_v3 (ix3 b n o) (⟨f.val, by omega⟩ : Fin 96) = ix2 o (⟨f.val, by omega⟩ : Fin 96) := by
      funext a; match a with
      | ⟨0, _⟩ => rfl
      | ⟨1, _⟩ => rfl
    show val_main_v2 (F := Ideal) x0 x1 (lidx_main_v3 (ix3 b n o) ⟨f.val, _⟩) * x2 (ridx_main_v3 (ix3 b n o) ⟨f.val, _⟩) = _
    rw [e1, e2, v2_left]
  · refine Finset.sum_congr rfl fun f _ => ?_
    have e1 : lidx_main_v3 (ix3 b n o) (⟨64 + f.val, by omega⟩ : Fin 96) = ix3 b n (⟨64 + f.val, by omega⟩ : Fin 96) := by
      funext a; match a with
      | ⟨0, _⟩ => rfl
      | ⟨1, _⟩ => rfl
      | ⟨2, _⟩ => rfl
    have e2 : ridx_main_v3 (ix3 b n o) (⟨64 + f.val, by omega⟩ : Fin 96) = ix2 o (⟨64 + f.val, by omega⟩ : Fin 96) := by
      funext a; match a with
      | ⟨0, _⟩ => rfl
      | ⟨1, _⟩ => rfl
    show val_main_v2 (F := Ideal) x0 x1 (lidx_main_v3 (ix3 b n o) ⟨64 + f.val, _⟩) * x2 (ridx_main_v3 (ix3 b n o) ⟨64 + f.val, _⟩) = _
    rw [e1, e2, v2_right]

/-- Agent n's embedding. -/
theorem v11_eq (n : Fin 8) (o : Fin 64) :
    val_main_v11 (F := Ideal) x0 x1 x2 x3 (ix3 b n o) = embed PP OBS ACT n o := by
  have e5 : idx_main_v4 (idx_main_v5 (ix3 b n o)) = ix1 o := by
    funext a; match a with
    | ⟨0, _⟩ => rfl
  have h6 : val_main_v6 (F := Ideal) x0 x1 x2 x3 (ix3 b n o)
      = (∑ f : Fin 64, OBS n f * x2 (ix2 o (⟨f.val, by omega⟩ : Fin 96)))
        + (∑ f : Fin 32, ACT n f * x2 (ix2 o (⟨64 + f.val, by omega⟩ : Fin 96))) + x3 (ix1 o) := by
    rw [val_main_v6_apply, val_main_v5_apply, val_main_v4_apply, v3_eq, e5]
    rfl
  rw [val_main_v11_apply, val_main_v8_apply, val_main_v10_apply, val_main_v7_apply, val_main_v9_apply,
    val_main_cst_apply, val_main_cst_0_apply, leaky_def, h6]
  rfl

/-- The own agent's slice of the embedding. -/
theorem v13_eq (o : Fin 64) :
    val_main_v13 (F := Ideal) x0 x1 x2 x3 (ix2 b o) = embed PP OBS ACT 0 o := by
  have e : idx_main_v12 (idx_main_v13 (ix2 b o)) = ix3 b (0 : Fin 8) o := by
    funext a; match a with
    | ⟨0, _⟩ => exact Fin.ext (by show (b.val * 64 + o.val) / 64 = b.val; omega)
    | ⟨1, _⟩ => rfl
    | ⟨2, _⟩ => exact Fin.ext (by show (b.val * 64 + o.val) % 64 = o.val; omega)
  rw [val_main_v13_apply, val_main_v12_apply, e, v11_eq⟪⟫]

/-- The seven other agents' slice of the embedding. -/
theorem v14_eq (j : Fin 7) (o : Fin 64) :
    val_main_v14 (F := Ideal) x0 x1 x2 x3 (ix3 b j o) = embed PP OBS ACT j.succ o := by
  have e : idx_main_v14 (ix3 b j o) = ix3 b j.succ o := by
    funext a; match a with
    | ⟨0, _⟩ => rfl
    | ⟨1, _⟩ => exact Fin.ext (by show 1 + j.val = j.succ.val; rw [Fin.val_succ]; omega)
    | ⟨2, _⟩ => rfl
  rw [val_main_v14_apply, e, v11_eq⟪⟫]

/-- The query. -/
theorem v19_eq (o : Fin 32) :
    val_main_v19 (F := Ideal) x0 x1 x2 x3 x4 x5 (ix2 b o) = query PP OBS ACT o := by
  have e18 : idx_main_v17 (idx_main_v18 (ix2 b o)) = ix1 o := by
    funext a; match a with
    | ⟨0, _⟩ => rfl
  rw [val_main_v19_apply, val_main_v16_apply, val_main_v18_apply, val_main_v17_apply, e18]
  show (∑ k : Fin 64, _) + x5 (ix1 o) = (∑ f : Fin 64, embed PP OBS ACT 0 f * x4 (ix2 o f)) + x5 (ix1 o)
  congr 1
  refine Finset.sum_congr rfl fun k _ => ?_
  have e1 : lidx_main_v16 (ix2 b o) k = ix2 b k := by
    funext a; match a with
    | ⟨0, _⟩ => rfl
    | ⟨1, _⟩ => rfl
  have e2 : idx_main_v15 (ridx_main_v16 (ix2 b o) k) = ix2 o k := by
    funext a; match a with
    | ⟨0, _⟩ => rfl
    | ⟨1, _⟩ => rfl
  rw [e1, val_main_v15_apply, e2, v13_eq⟪⟫]

/-- The keys of the seven others. -/
theorem v23_eq (j : Fin 7) (o : Fin 32) :
    val_main_v23 (F := Ideal) x0 x1 x2 x3 x6 x7 (ix3 b j o) = key PP OBS ACT j.succ o := by
  have e22 : idx_main_v21 (idx_main_v22 (ix3 b j o)) = ix1 o := by
    funext a; match a with
    | ⟨0, _⟩ => rfl
  rw [val_main_v23_apply, val_main_v20_apply, val_main_v22_apply, val_main_v21_apply, e22]
  show (∑ k : Fin 64, _) + x7 (ix1 o) = (∑ f : Fin 64, embed PP OBS ACT j.succ f * x6 (ix2 o f)) + x7 (ix1 o)
  congr 1
  refine Finset.sum_congr rfl fun k _ => ?_
  have e1 : lidx_main_v20 (ix3 b j o) k = ix3 b j k := by
    funext a; match a with
    | ⟨0, _⟩ => rfl
    | ⟨1, _⟩ => rfl
    | ⟨2, _⟩ => rfl
  have e2 : ridx_main_v20 (ix3 b j o) k = ix2 o k := by
    funext a; match a with
    | ⟨0, _⟩ => rfl
    | ⟨1, _⟩ => rfl
  rw [e1, e2, v14_eq⟪⟫]

/-- The values of the seven others. -/
theorem v27_eq (j : Fin 7) (o : Fin 32) :
    val_main_v27 (F := Ideal) x0 x1 x2 x3 x8 x9 (ix3 b j o) = value PP OBS ACT j.succ o := by
  have e26 : idx_main_v25 (idx_main_v26 (ix3 b j o)) = ix1 o := by
    funext a; match a with
    | ⟨0, _⟩ => rfl
  rw [val_main_v27_apply, val_main_v24_apply, val_main_v26_apply, val_main_v25_apply, e26]
  show (∑ k : Fin 64, _) + x9 (ix1 o) = (∑ f : Fin 64, embed PP OBS ACT j.succ f * x8 (ix2 o f)) + x9 (ix1 o)
  congr 1
  refine Finset.sum_congr rfl fun k _ => ?_
  have e1 : lidx_main_v24 (ix3 b j o) k = ix3 b j k := by
    funext a; match a with
    | ⟨0, _⟩ => rfl
    | ⟨1, _⟩ => rfl
    | ⟨2, _⟩ => rfl
  have e2 : ridx_main_v24 (ix3 b j o) k = ix2 o k := by
    funext a; match a with
    | ⟨0, _⟩ => rfl
    | ⟨1, _⟩ => rfl
  rw [e1, e2, v14_eq⟪⟫]

/-- The own agent's value vector. -/
theorem v32_eq (o : Fin 32) :
    val_main_v32 (F := Ideal) x0 x1 x2 x3 x8 x9 (ix2 b o) = value PP OBS ACT 0 o := by
  have e31 : idx_main_v30 (idx_main_v31 (ix2 b o)) = ix1 o := by
    funext a; match a with
    | ⟨0, _⟩ => rfl
  rw [val_main_v32_apply, val_main_v29_apply, val_main_v31_apply, val_main_v30_apply, e31]
  show (∑ k : Fin 64, _) + x9 (ix1 o) = (∑ f : Fin 64, embed PP OBS ACT 0 f * x8 (ix2 o f)) + x9 (ix1 o)
  congr 1
  refine Finset.sum_congr rfl fun k _ => ?_
  have e1 : lidx_main_v29 (ix2 b o) k = ix2 b k := by
    funext a; match a with
    | ⟨0, _⟩ => rfl
    | ⟨1, _⟩ => rfl
  have e2 : idx_main_v28 (ridx_main_v29 (ix2 b o) k) = ix2 o k := by
    funext a; match a with
    | ⟨0, _⟩ => rfl
    | ⟨1, _⟩ => rfl
  rw [e1, val_main_v28_apply, e2, v13_eq⟪⟫]

end Cert.RefRows

end
-- ==== Proof.RefRows2.lean ====
/-
  The reference program read row by row, second part: the seven scaled logits, their maximum, the shifted
  exponentials, the softmax weights, the weighted sum of the others' values, and the 64-entry vector that joins the
  own value with it.
-/
import proofs.«174824_j49409303773229_2_alg».proof.Proof.RefRows1

noncomputable section

namespace Cert.RefRows

open Cert.AttnCritic Cert.ReferenceIdeal Cert.ReferenceIdeal.Gen Cert.ReferenceIdeal.Read
open Idealize.ShloMosaic Idealize.ShloMosaic.ValueIdx

variable (x0 : (⟨S65536x512, .f32⟩ : BufTy).Contents (Elt Ideal)) (x1 : (⟨S65536x256, .f32⟩ : BufTy).Contents (Elt Ideal))
  (x2 : (⟨S64x96, .f32⟩ : BufTy).Contents (Elt Ideal)) (x3 : (⟨S64, .f32⟩ : BufTy).Contents (Elt Ideal))
  (x4 : (⟨S32x64, .f32⟩ : BufTy).Contents (Elt Ideal)) (x5 : (⟨S32, .f32⟩ : BufTy).Contents (Elt Ideal))
  (x6 : (⟨S32x64, .f32⟩ : BufTy).Contents (Elt Ideal)) (x7 : (⟨S32, .f32⟩ : BufTy).Contents (Elt Ideal))
  (x8 : (⟨S32x64, .f32⟩ : BufTy).Contents (Elt Ideal)) (x9 : (⟨S32, .f32⟩ : BufTy).Contents (Elt Ideal))
  (x10 : (⟨S1x64, .f32⟩ : BufTy).Contents (Elt Ideal)) (x11 : (⟨S1, .f32⟩ : BufTy).Contents (Elt Ideal))
  (x12 : (⟨S256x64, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S1x256, .f32⟩ : BufTy).Contents (Elt Ideal)) (x17 : (⟨S1, .f32⟩ : BufTy).Contents (Elt Ideal))
  (x18 : (⟨S256x64, .f32⟩ : BufTy).Contents (Elt Ideal)) (x19 : (⟨S256, .f32⟩ : BufTy).Contents (Elt Ideal))
  (x20 : (⟨S256x256, .f32⟩ : BufTy).Contents (Elt Ideal)) (x21 : (⟨S256, .f32⟩ : BufTy).Contents (Elt Ideal))
  (x22 : (⟨S1x256, .f32⟩ : BufTy).Contents (Elt Ideal)) (x23 : (⟨S1, .f32⟩ : BufTy).Contents (Elt Ideal))
  (b : Fin 65536)

local notation "PP" => Params.ofArgs x2 x3 x4 x5 x6 x7 x8 x9 x10 x11 x12 x13 x14 x15 x16 x17 x18 x19 x20 x21 x22 x23
local notation "OBS" => obsRowOfArray x0 b
local notation "ACT" => actRowOfArray x1 b

local notation:max f:max "⟪⟫" => f x0 x1 x2 x3 x4 x5 x6 x7 x8 x9 x10 x11 x12 x13 x14 x15 x16 x17 x18 x19 x20 x21 x22 x23 b

/-- The query's linear form. -/
theorem v35_eq :
    val_main_v35 (F := Ideal) x0 x1 x2 x3 x4 x5 x10 (ix2 b (0 : Fin 1))
      = ∑ o : Fin 32, query PP OBS ACT o * x10 (ix2 (0 : Fin 1) (⟨o.val, by omega⟩ : Fin 64)) := by
  rw [val_main_v35_apply]
  refine Finset.sum_congr rfl fun k _ => ?_
  have e1 : lidx_main_v35 (ix2 b (0 : Fin 1)) k = ix2 b k := by
    funext a; match a with
    | ⟨0, _⟩ => rfl
    | ⟨1, _⟩ => rfl
  have e2 : idx_main_v33 (idx_main_v34 (ridx_main_v35 (ix2 b (0 : Fin 1)) k)) = ix2 (0 : Fin 1) (⟨k.val, by omega⟩ : Fin 64) := by
    funext a; match a with
    | ⟨0, _⟩ => rfl
    | ⟨1, _⟩ => rfl
  rw [e1, val_main_v34_apply, val_main_v33_apply, e2, v19_eq⟪⟫]

/-- The key's linear form, for each of the seven others. -/
theorem v38_eq (j : Fin 7) :
    val_main_v38 (F := Ideal) x0 x1 x2 x3 x6 x7 x10 (ix3 b j (0 : Fin 1))
      = ∑ o : Fin 32, key PP OBS ACT j.succ o * x10 (ix2 (0 : Fin 1) (⟨32 + o.val, by omega⟩ : Fin 64)) := by
  rw [val_main_v38_apply]
  refine Finset.sum_congr rfl fun k _ => ?_
  have e1 : lidx_main_v38 (ix3 b j (0 : Fin 1)) k = ix3 b j k := by
    funext a; match a with
    | ⟨0, _⟩ => rfl
    | ⟨1, _⟩ => rfl
    | ⟨2, _⟩ => rfl
  have e2 : idx_main_v37 (ridx_main_v38 (ix3 b j (0 : Fin 1)) k) = ix2 (0 : Fin 1) (⟨32 + k.val, by omega⟩ : Fin 64) := by
    funext a; match a with
    | ⟨0, _⟩ => rfl
    | ⟨1, _⟩ => rfl
  rw [e1, val_main_v37_apply, e2, v23_eq⟪⟫]

/-- The scaled logit of the j-th other agent. -/
theorem v45_eq (j : Fin 7) :
    val_main_v45 (F := Ideal) x0 x1 x2 x3 x4 x5 x6 x7 x10 x11 (ix3 b j (0 : Fin 1)) = logit PP OBS ACT j := by
  have e39 : idx_main_v36 (idx_main_v39 (ix3 b j (0 : Fin 1))) = ix2 b (0 : Fin 1) := by
    funext a; match a with
    | ⟨0, _⟩ => rfl
    | ⟨1, _⟩ => rfl
  have e42 : idx_main_v41 (idx_main_v42 (ix3 b j (0 : Fin 1))) = ix1 (0 : Fin 1) := by
    funext a; match a with
    | ⟨0, _⟩ => rfl
  rw [val_main_v45_apply, val_main_v43_apply, val_main_v40_apply, val_main_v39_apply, val_main_v36_apply, e39,
    val_main_v42_apply, val_main_v41_apply, e42, val_main_v44_apply, val_main_cst_1_apply, v35_eq⟪⟫, v38_eq⟪⟫]
  exact div_sixteen _

/-- The seven logits' maximum. -/
theorem v48_eq :
    val_main_v48 (F := Ideal) x0 x1 x2 x3 x4 x5 x6 x7 x10 x11 (ix2 b (0 : Fin 1)) = top PP OBS ACT := by
  have h : S65536x7x1.Reduces [1] S65536x1 := by decide
  have hl : ∀ k : Fin 7, h.lift (ix2 b (0 : Fin 1)) k = ix3 b k (0 : Fin 1) := fun k => by
    funext c; apply Fin.ext
    match c with
    | ⟨0, _⟩ => rfl
    | ⟨1, _⟩ => rfl
    | ⟨2, _⟩ => rfl
  have h46 : val_main_v46 (F := Ideal) x0 x1 x2 x3 x4 x5 x6 x7 x10 x11 (ix2 b (0 : Fin 1)) = top PP OBS ACT := by
    unfold val_main_v46
    rw [Host.reduce_eq_fold_single FloatOps.maximumf _ _ reducesTo_S65536x7x1_S65536x1_d1 h h_S_]
    have hf : (val_main_v45 (F := Ideal) x0 x1 x2 x3 x4 x5 x6 x7 x10 x11 ∘ h.lift (ix2 b (0 : Fin 1))) = logit PP OBS ACT :=
      funext fun k => by
        show val_main_v45 (F := Ideal) x0 x1 x2 x3 x4 x5 x6 x7 x10 x11 (h.lift (ix2 b (0 : Fin 1)) k) = _
        rw [hl k]
        exact v45_eq⟪⟫ k
    rw [hf]
    rfl
  rw [val_main_v48_apply, val_main_v47_apply, val_main_cst_3_apply, h46]
  exact max_negInf _

/-- The exponential of a logit shifted by the maximum. -/
theorem v52_eq (j : Fin 7) :
    val_main_v52 (F := Ideal) x0 x1 x2 x3 x4 x5 x6 x7 x10 x11 (ix3 b j (0 : Fin 1)) = expo PP OBS ACT j := by
  have e50 : idx_main_v49 (idx_main_v50 (ix3 b j (0 : Fin 1))) = ix2 b (0 : Fin 1) := by
    funext a; match a with
    | ⟨0, _⟩ => rfl
    | ⟨1, _⟩ => rfl
  rw [val_main_v52_apply, val_main_v51_apply, val_main_v50_apply, val_main_v49_apply, e50, v45_eq⟪⟫, v48_eq⟪⟫]
  rfl

/-- The sum of the seven exponentials. -/
theorem v53_eq :
    val_main_v53 (F := Ideal) x0 x1 x2 x3 x4 x5 x6 x7 x10 x11 (ix2 b (0 : Fin 1)) = ∑ j : Fin 7, expo PP OBS ACT j := by
  rw [val_main_v53_apply, val_main_cst_4_apply]
  show Ideal.ofBits .f32 0x00000000#32 + _ = _
  rw [Ideal.ofBits_zero_f32, zero_add]
  refine Finset.sum_congr rfl fun k _ => ?_
  have e : idx_main_v53 (ix2 b (0 : Fin 1)) k = ix3 b k (0 : Fin 1) := by
    funext a; match a with
    | ⟨0, _⟩ => rfl
    | ⟨1, _⟩ => rfl
    | ⟨2, _⟩ => rfl
  rw [e, v52_eq⟪⟫]

/-- The softmax weight of the j-th other agent. -/
theorem v56_eq (j : Fin 7) :
    val_main_v56 (F := Ideal) x0 x1 x2 x3 x4 x5 x6 x7 x10 x11 (ix3 b j (0 : Fin 1)) = weight PP OBS ACT j := by
  have e55 : idx_main_v54 (idx_main_v55 (ix3 b j (0 : Fin 1))) = ix2 b (0 : Fin 1) := by
    funext a; match a with
    | ⟨0, _⟩ => rfl
    | ⟨1, _⟩ => rfl
  rw [val_main_v56_apply, val_main_v55_apply, val_main_v54_apply, e55, v52_eq⟪⟫, v53_eq⟪⟫]
  rfl

/-- The others' values, weighted and summed. -/
theorem v59_eq (o : Fin 32) :
    val_main_v59 (F := Ideal) x0 x1 x2 x3 x4 x5 x6 x7 x8 x9 x10 x11 (ix2 b o) = others PP OBS ACT o := by
  rw [val_main_v59_apply, val_main_cst_5_apply]
  show Ideal.ofBits .f32 0x00000000#32 + _ = _
  rw [Ideal.ofBits_zero_f32, zero_add]
  refine Finset.sum_congr rfl fun k _ => ?_
  have e : idx_main_v59 (ix2 b o) k = ix3 b k o := by
    funext a; match a with
    | ⟨0, _⟩ => rfl
    | ⟨1, _⟩ => rfl
    | ⟨2, _⟩ => rfl
  have e57 : idx_main_v57 (ix3 b k o) = ix3 b k (0 : Fin 1) := by
    funext a; match a with
    | ⟨0, _⟩ => rfl
    | ⟨1, _⟩ => rfl
    | ⟨2, _⟩ => rfl
  rw [e, val_main_v58_apply, val_main_v57_apply, e57, v56_eq⟪⟫, v27_eq⟪⟫]
  rfl

/-- The own value followed by the others' weighted value. -/
theorem v60_eq (f : Fin 64) :
    val_main_v60 (F := Ideal) x0 x1 x2 x3 x4 x5 x6 x7 x8 x9 x10 x11 (ix2 b f) = joined PP OBS ACT f := by
  unfold val_main_v60 joined joinOf
  by_cases hf : f.val < 32
  · rw [dif_pos hf]
    refine (concatenate_pair_apply_left _ (val_main_v32 (F := Ideal) x0 x1 x2 x3 x8 x9)
      (val_main_v59 (F := Ideal) x0 x1 x2 x3 x4 x5 x6 x7 x8 x9 x10 x11)
      concatenates_S65536x32_S65536x32_S65536x64_d1 _ rfl (ix2 b (⟨f.val, hf⟩ : Fin 32)) ?_).trans ?_
    · intro c; match c with
      | ⟨0, _⟩ => rfl
      | ⟨1, _⟩ => rfl
    · exact v32_eq⟪⟫ _
  · rw [dif_neg hf]
    refine (concatenate_pair_apply_right _ (val_main_v32 (F := Ideal) x0 x1 x2 x3 x8 x9)
      (val_main_v59 (F := Ideal) x0 x1 x2 x3 x4 x5 x6 x7 x8 x9 x10 x11)
      concatenates_S65536x32_S65536x32_S65536x64_d1 _ rfl rfl (ix2 b (⟨f.val - 32, by omega⟩ : Fin 32)) ?_ ?_).trans ?_
    · intro c hc; match c with
      | ⟨0, _⟩ => rfl
      | ⟨1, _⟩ => exact absurd rfl hc
    · show f.val - 32 + 32 = f.val; omega
    · exact v59_eq⟪⟫ _

end Cert.RefRows

end
-- ==== Proof.RefRows3.lean ====
/-
  The reference program read row by row, third part: the two heads, each two rectified affine layers of width 256
  over the joined vector and a last linear form.
-/
import proofs.«174824_j49409303773229_2_alg».proof.Proof.RefRows2

noncomputable section

namespace Cert.RefRows

open Cert.AttnCritic Cert.ReferenceIdeal Cert.ReferenceIdeal.Gen Cert.ReferenceIdeal.Read
open Idealize.ShloMosaic Idealize.ShloMosaic.ValueIdx

variable (x0 : (⟨S65536x512, .f32⟩ : BufTy).Contents (Elt Ideal)) (x1 : (⟨S65536x256, .f32⟩ : BufTy).Contents (Elt Ideal))
  (x2 : (⟨S64x96, .f32⟩ : BufTy).Contents (Elt Ideal)) (x3 : (⟨S64, .f32⟩ : BufTy).Contents (Elt Ideal))
  (x4 : (⟨S32x64, .f32⟩ : BufTy).Contents (Elt Ideal)) (x5 : (⟨S32, .f32⟩ : BufTy).Contents (Elt Ideal))
  (x6 : (⟨S32x64, .f32⟩ : BufTy).Contents (Elt Ideal)) (x7 : (⟨S32, .f32⟩ : BufTy).Contents (Elt Ideal))
  (x8 : (⟨S32x64, .f32⟩ : BufTy).Contents (Elt Ideal)) (x9 : (⟨S32, .f32⟩ : BufTy).Contents (Elt Ideal))
  (x10 : (⟨S1x64, .f32⟩ : BufTy).Contents (Elt Ideal)) (x11 : (⟨S1, .f32⟩ : BufTy).Contents (Elt Ideal))
  (x12 : (⟨S256x64, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S1x256, .f32⟩ : BufTy).Contents (Elt Ideal)) (x17 : (⟨S1, .f32⟩ : BufTy).Contents (Elt Ideal))
  (x18 : (⟨S256x64, .f32⟩ : BufTy).Contents (Elt Ideal)) (x19 : (⟨S256, .f32⟩ : BufTy).Contents (Elt Ideal))
  (x20 : (⟨S256x256, .f32⟩ : BufTy).Contents (Elt Ideal)) (x21 : (⟨S256, .f32⟩ : BufTy).Contents (Elt Ideal))
  (x22 : (⟨S1x256, .f32⟩ : BufTy).Contents (Elt Ideal)) (x23 : (⟨S1, .f32⟩ : BufTy).Contents (Elt Ideal))
  (b : Fin 65536)

local notation "PP" => Params.ofArgs x2 x3 x4 x5 x6 x7 x8 x9 x10 x11 x12 x13 x14 x15 x16 x17 x18 x19 x20 x21 x22 x23
local notation "OBS" => obsRowOfArray x0 b
local notation "ACT" => actRowOfArray x1 b

local notation:max f:max "⟪⟫" => f x0 x1 x2 x3 x4 x5 x6 x7 x8 x9 x10 x11 x12 x13 x14 x15 x16 x17 x18 x19 x20 x21 x22 x23 b

/-- Head A's first layer. -/
theorem v70_eq (u : Fin 256) :
    val_main_v70 (F := Ideal) x0 x1 x2 x3 x4 x5 x6 x7 x8 x9 x10 x11 x12 x13 (ix2 b u) = layer1 (joined PP OBS ACT) (PP).a1W (PP).a1B u := by
  have eb : idx_main_v63 (idx_main_v64 (ix2 b u)) = ix1 u := by
    funext a; match a with
    | ⟨0, _⟩ => rfl
  have hsum : (∑ k : Fin 64, val_main_v60 (F := Ideal) x0 x1 x2 x3 x4 x5 x6 x7 x8 x9 x10 x11 (lidx_main_v62 (ix2 b u) k)
        * val_main_v61 (F := Ideal) x12 (ridx_main_v62 (ix2 b u) k))
      = ∑ f : Fin 64, joined PP OBS ACT f * (PP).a1W u f := Finset.sum_congr rfl fun k _ => by
    have e1 : lidx_main_v62 (ix2 b u) k = ix2 b k := by
      funext a; match a with
      | ⟨0, _⟩ => rfl
      | ⟨1, _⟩ => rfl
    have e2 : idx_main_v61 (ridx_main_v62 (ix2 b u) k) = ix2 u k := by
      funext a; match a with
      | ⟨0, _⟩ => rfl
      | ⟨1, _⟩ => rfl
    rw [e1, val_main_v61_apply, e2, v60_eq⟪⟫]
    rfl
  rw [val_main_v70_apply, val_main_v67_apply, val_main_v69_apply, val_main_v66_apply, val_main_v68_apply,
    val_main_cst_6_apply, val_main_cst_7_apply, leaky_def, val_main_v65_apply, val_main_v62_apply,
    val_main_v64_apply, val_main_v63_apply, eb, hsum, Ideal.addf_def]
  rfl

/-- Head A's second layer. -/
theorem v80_eq (u : Fin 256) :
    val_main_v80 (F := Ideal) x0 x1 x2 x3 x4 x5 x6 x7 x8 x9 x10 x11 x12 x13 x14 x15 (ix2 b u) = layer2 (joined PP OBS ACT) (PP).a1W (PP).a1B (PP).a2W (PP).a2B u := by
  have eb : idx_main_v73 (idx_main_v74 (ix2 b u)) = ix1 u := by
    funext a; match a with
    | ⟨0, _⟩ => rfl
  have hsum : (∑ k : Fin 256, val_main_v70 (F := Ideal) x0 x1 x2 x3 x4 x5 x6 x7 x8 x9 x10 x11 x12 x13 (lidx_main_v72 (ix2 b u) k)
        * val_main_v71 (F := Ideal) x14 (ridx_main_v72 (ix2 b u) k))
      = ∑ f : Fin 256, layer1 (joined PP OBS ACT) (PP).a1W (PP).a1B f * (PP).a2W u f := Finset.sum_congr rfl fun k _ => by
    have e1 : lidx_main_v72 (ix2 b u) k = ix2 b k := by
      funext a; match a with
      | ⟨0, _⟩ => rfl
      | ⟨1, _⟩ => rfl
    have e2 : idx_main_v71 (ridx_main_v72 (ix2 b u) k) = ix2 u k := by
      funext a; match a with
      | ⟨0, _⟩ => rfl
      | ⟨1, _⟩ => rfl
    rw [e1, val_main_v71_apply, e2, v70_eq⟪⟫]
    rfl
  rw [val_main_v80_apply, val_main_v77_apply, val_main_v79_apply, val_main_v76_apply, val_main_v78_apply,
    val_main_cst_8_apply, val_main_cst_9_apply, leaky_def, val_main_v75_apply, val_main_v72_apply,
    val_main_v74_apply, val_main_v73_apply, eb, hsum, Ideal.addf_def]
  rfl

/-- Head A's result. -/
theorem v85_eq :
    val_main_v85 (F := Ideal) x0 x1 x2 x3 x4 x5 x6 x7 x8 x9 x10 x11 x12 x13 x14 x15 x16 x17 (ix2 b (0 : Fin 1)) = head (joined PP OBS ACT) (PP).a1W (PP).a1B (PP).a2W (PP).a2B (PP).a3W (PP).a3B := by
  have eb : idx_main_v83 (idx_main_v84 (ix2 b (0 : Fin 1))) = ix1 (0 : Fin 1) := by
    funext a; match a with
    | ⟨0, _⟩ => rfl
  have hsum : (∑ k : Fin 256, val_main_v80 (F := Ideal) x0 x1 x2 x3 x4 x5 x6 x7 x8 x9 x10 x11 x12 x13 x14 x15 (lidx_main_v82 (ix2 b (0 : Fin 1)) k)
        * val_main_v81 (F := Ideal) x16 (ridx_main_v82 (ix2 b (0 : Fin 1)) k))
      = ∑ f : Fin 256, layer2 (joined PP OBS ACT) (PP).a1W (PP).a1B (PP).a2W (PP).a2B f * (PP).a3W f := Finset.sum_congr rfl fun k _ => by
    have e1 : lidx_main_v82 (ix2 b (0 : Fin 1)) k = ix2 b k := by
      funext a; match a with
      | ⟨0, _⟩ => rfl
      | ⟨1, _⟩ => rfl
    have e2 : idx_main_v81 (ridx_main_v82 (ix2 b (0 : Fin 1)) k) = ix2 (0 : Fin 1) k := by
      funext a; match a with
      | ⟨0, _⟩ => rfl
      | ⟨1, _⟩ => rfl
    rw [e1, val_main_v81_apply, e2, v80_eq⟪⟫]
    rfl
  rw [val_main_v85_apply, val_main_v82_apply, val_main_v84_apply, val_main_v83_apply, eb, hsum,
    Ideal.addf_def]
  rfl

/-- Head B's first layer. -/
theorem v95_eq (u : Fin 256) :
    val_main_v95 (F := Ideal) x0 x1 x2 x3 x4 x5 x6 x7 x8 x9 x10 x11 x18 x19 (ix2 b u) = layer1 (joined PP OBS ACT) (PP).b1W (PP).b1B u := by
  have eb : idx_main_v88 (idx_main_v89 (ix2 b u)) = ix1 u := by
    funext a; match a with
    | ⟨0, _⟩ => rfl
  have hsum : (∑ k : Fin 64, val_main_v60 (F := Ideal) x0 x1 x2 x3 x4 x5 x6 x7 x8 x9 x10 x11 (lidx_main_v87 (ix2 b u) k)
        * val_main_v86 (F := Ideal) x18 (ridx_main_v87 (ix2 b u) k))
      = ∑ f : Fin 64, joined PP OBS ACT f * (PP).b1W u f := Finset.sum_congr rfl fun k _ => by
    have e1 : lidx_main_v87 (ix2 b u) k = ix2 b k := by
      funext a; match a with
      | ⟨0, _⟩ => rfl
      | ⟨1, _⟩ => rfl
    have e2 : idx_main_v86 (ridx_main_v87 (ix2 b u) k) = ix2 u k := by
      funext a; match a with
      | ⟨0, _⟩ => rfl
      | ⟨1, _⟩ => rfl
    rw [e1, val_main_v86_apply, e2, v60_eq⟪⟫]
    rfl
  rw [val_main_v95_apply, val_main_v92_apply, val_main_v94_apply, val_main_v91_apply, val_main_v93_apply,
    val_main_cst_10_apply, val_main_cst_11_apply, leaky_def, val_main_v90_apply, val_main_v87_apply,
    val_main_v89_apply, val_main_v88_apply, eb, hsum, Ideal.addf_def]
  rfl

/-- Head B's second layer. -/
theorem v105_eq (u : Fin 256) :
    val_main_v105 (F := Ideal) x0 x1 x2 x3 x4 x5 x6 x7 x8 x9 x10 x11 x18 x19 x20 x21 (ix2 b u) = layer2 (joined PP OBS ACT) (PP).b1W (PP).b1B (PP).b2W (PP).b2B u := by
  have eb : idx_main_v98 (idx_main_v99 (ix2 b u)) = ix1 u := by
    funext a; match a with
    | ⟨0, _⟩ => rfl
  have hsum : (∑ k : Fin 256, val_main_v95 (F := Ideal) x0 x1 x2 x3 x4 x5 x6 x7 x8 x9 x10 x11 x18 x19 (lidx_main_v97 (ix2 b u) k)
        * val_main_v96 (F := Ideal) x20 (ridx_main_v97 (ix2 b u) k))
      = ∑ f : Fin 256, layer1 (joined PP OBS ACT) (PP).b1W (PP).b1B f * (PP).b2W u f := Finset.sum_congr rfl fun k _ => by
    have e1 : lidx_main_v97 (ix2 b u) k = ix2 b k := by
      funext a; match a with
      | ⟨0, _⟩ => rfl
      | ⟨1, _⟩ => rfl
    have e2 : idx_main_v96 (ridx_main_v97 (ix2 b u) k) = ix2 u k := by
      funext a; match a with
      | ⟨0, _⟩ => rfl
      | ⟨1, _⟩ => rfl
    rw [e1, val_main_v96_apply, e2, v95_eq⟪⟫]
    rfl
  rw [val_main_v105_apply, val_main_v102_apply, val_main_v104_apply, val_main_v101_apply, val_main_v103_apply,
    val_main_cst_12_apply, val_main_cst_13_apply, leaky_def, val_main_v100_apply, val_main_v97_apply,
    val_main_v99_apply, val_main_v98_apply, eb, hsum, Ideal.addf_def]
  rfl

/-- Head B's result. -/
theorem v110_eq :
    val_main_v110 (F := Ideal) x0 x1 x2 x3 x4 x5 x6 x7 x8 x9 x10 x11 x18 x19 x20 x21 x22 x23 (ix2 b (0 : Fin 1)) = head (joined PP OBS ACT) (PP).b1W (PP).b1B (PP).b2W (PP).b2B (PP).b3W (PP).b3B := by
  have eb : idx_main_v108 (idx_main_v109 (ix2 b (0 : Fin 1))) = ix1 (0 : Fin 1) := by
    funext a; match a with
    | ⟨0, _⟩ => rfl
  have hsum : (∑ k : Fin 256, val_main_v105 (F := Ideal) x0 x1 x2 x3 x4 x5 x6 x7 x8 x9 x10 x11 x18 x19 x20 x21 (lidx_main_v107 (ix2 b (0 : Fin 1)) k)
        * val_main_v106 (F := Ideal) x22 (ridx_main_v107 (ix2 b (0 : Fin 1)) k))
      = ∑ f : Fin 256, layer2 (joined PP OBS ACT) (PP).b1W (PP).b1B (PP).b2W (PP).b2B f * (PP).b3W f := Finset.sum_congr rfl fun k _ => by
    have e1 : lidx_main_v107 (ix2 b (0 : Fin 1)) k = ix2 b k := by
      funext a; match a with
      | ⟨0, _⟩ => rfl
      | ⟨1, _⟩ => rfl
    have e2 : idx_main_v106 (ridx_main_v107 (ix2 b (0 : Fin 1)) k) = ix2 (0 : Fin 1) k := by
      funext a; match a with
      | ⟨0, _⟩ => rfl
      | ⟨1, _⟩ => rfl
    rw [e1, val_main_v106_apply, e2, v105_eq⟪⟫]
    rfl
  rw [val_main_v110_apply, val_main_v107_apply, val_main_v109_apply, val_main_v108_apply, eb, hsum,
    Ideal.addf_def]
  rfl

end Cert.RefRows

end
-- ==== Proof.RefRows.lean ====
/-
  The reference program's two results at row b are the two heads of the row function at that row's observations and
  actions, with the parameters read from the whole argument arrays.
-/
import proofs.«174824_j49409303773229_2_alg».proof.Proof.RefRows3

noncomputable section

namespace Cert.RefRows

open Cert.AttnCritic Cert.ReferenceIdeal Cert.ReferenceIdeal.Gen Cert.ReferenceIdeal.Read
open Idealize.ShloMosaic Idealize.ShloMosaic.ValueIdx

variable (x0 : (⟨S65536x512, .f32⟩ : BufTy).Contents (Elt Ideal)) (x1 : (⟨S65536x256, .f32⟩ : BufTy).Contents (Elt Ideal))
  (x2 : (⟨S64x96, .f32⟩ : BufTy).Contents (Elt Ideal)) (x3 : (⟨S64, .f32⟩ : BufTy).Contents (Elt Ideal))
  (x4 : (⟨S32x64, .f32⟩ : BufTy).Contents (Elt Ideal)) (x5 : (⟨S32, .f32⟩ : BufTy).Contents (Elt Ideal))
  (x6 : (⟨S32x64, .f32⟩ : BufTy).Contents (Elt Ideal)) (x7 : (⟨S32, .f32⟩ : BufTy).Contents (Elt Ideal))
  (x8 : (⟨S32x64, .f32⟩ : BufTy).Contents (Elt Ideal)) (x9 : (⟨S32, .f32⟩ : BufTy).Contents (Elt Ideal))
  (x10 : (⟨S1x64, .f32⟩ : BufTy).Contents (Elt Ideal)) (x11 : (⟨S1, .f32⟩ : BufTy).Contents (Elt Ideal))
  (x12 : (⟨S256x64, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S1x256, .f32⟩ : BufTy).Contents (Elt Ideal)) (x17 : (⟨S1, .f32⟩ : BufTy).Contents (Elt Ideal))
  (x18 : (⟨S256x64, .f32⟩ : BufTy).Contents (Elt Ideal)) (x19 : (⟨S256, .f32⟩ : BufTy).Contents (Elt Ideal))
  (x20 : (⟨S256x256, .f32⟩ : BufTy).Contents (Elt Ideal)) (x21 : (⟨S256, .f32⟩ : BufTy).Contents (Elt Ideal))
  (x22 : (⟨S1x256, .f32⟩ : BufTy).Contents (Elt Ideal)) (x23 : (⟨S1, .f32⟩ : BufTy).Contents (Elt Ideal))
  (b : Fin 65536)

local notation "PP" => Params.ofArgs x2 x3 x4 x5 x6 x7 x8 x9 x10 x11 x12 x13 x14 x15 x16 x17 x18 x19 x20 x21 x22 x23
local notation "OBS" => obsRowOfArray x0 b
local notation "ACT" => actRowOfArray x1 b

local notation:max f:max "⟪⟫" => f x0 x1 x2 x3 x4 x5 x6 x7 x8 x9 x10 x11 x12 x13 x14 x15 x16 x17 x18 x19 x20 x21 x22 x23 b

/-- The first result of the reference at row b. -/
theorem headA_eq :
    Cert.ReferenceIdeal.Read.val_main_v85 (F := Ideal) x0 x1 x2 x3 x4 x5 x6 x7 x8 x9 x10 x11 x12 x13 x14 x15 x16 x17 (ix2 b (0 : Fin 1))
      = out (Params.ofArgs x2 x3 x4 x5 x6 x7 x8 x9 x10 x11 x12 x13 x14 x15 x16 x17 x18 x19 x20 x21 x22 x23)
          (obsRowOfArray x0 b) (actRowOfArray x1 b) 0 := by
  rw [v85_eq⟪⟫]
  rfl

/-- The second result of the reference at row b. -/
theorem headB_eq :
    Cert.ReferenceIdeal.Read.val_main_v110 (F := Ideal) x0 x1 x2 x3 x4 x5 x6 x7 x8 x9 x10 x11 x18 x19 x20 x21 x22 x23 (ix2 b (0 : Fin 1))
      = out (Params.ofArgs x2 x3 x4 x5 x6 x7 x8 x9 x10 x11 x12 x13 x14 x15 x16 x17 x18 x19 x20 x21 x22 x23)
          (obsRowOfArray x0 b) (actRowOfArray x1 b) 1 := by
  rw [v110_eq⟪⟫]
  rfl

end Cert.RefRows

end
-- ==== Proof.RefJoin.lean ====
/-
  The idealized reference's two results, row by row.

  The reference computes, for all 65536 rows at once, the same two heads; read at row b its first result is head A of row b
  of its arguments and its second result head B.
-/
import proofs.«174824_j49409303773229_2_alg».proof.Proof.RefRead
import proofs.«174824_j49409303773229_2_alg».proof.Proof.RefRows
import proofs.«174824_j49409303773229_2_alg».proof.Proof.AttnCritic

set_option maxRecDepth 16384

noncomputable section

namespace Cert.CriticReference

open Cert.ReferenceIdeal Cert.ReferenceIdeal.Gen Idealize.ShloMosaic Idealize.ShloMosaic.TcCoe Idealize.SL.Sem
open Idealize.ShloMosaic.ValueIdx Cert.AttnCritic

variable (m : (ℓ : Loc nD τ sig) → Buf (Elt Ideal) ℓ)

/-- Head j of row b of the reference's argument arrays. -/
def resultAt (c : Dev nD) (b : Fin 65536) (j : Fin 2) : EReal :=
  out (Params.ofArgs (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))
    (obsRowOfArray (m ((c.tc : Thread nD τ).loc main_arg0)) b) (actRowOfArray (m ((c.tc : Thread nD τ).loc main_arg1)) b) j

/-- The first result is head A of every row. -/
theorem res0_eq (c : Dev nD) :
    Cert.ReferenceIdeal.Value.res_main_v85 m c = fun i : S65536x1.Idx => resultAt m c ⟨(i 0).val, (i 0).isLt⟩ 0 := by
  rw [Cert.ReferenceIdeal.Read.val_main_v85_eq]
  funext i
  obtain ⟨b, z, rfl⟩ : ∃ (b : Fin 65536) (z : Fin 1), i = ix2 b z := ⟨i 0, i 1, eq_ix2 i⟩
  obtain rfl : z = 0 := Subsingleton.elim _ _
  exact Cert.RefRows.headA_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) b

/-- The second result is head B of every row. -/
theorem res1_eq (c : Dev nD) :
    Cert.ReferenceIdeal.Value.res_main_v110 m c = fun i : S65536x1.Idx => resultAt m c ⟨(i 0).val, (i 0).isLt⟩ 1 := by
  rw [Cert.ReferenceIdeal.Read.val_main_v110_eq]
  funext i
  obtain ⟨b, z, rfl⟩ : ∃ (b : Fin 65536) (z : Fin 1), i = ix2 b z := ⟨i 0, i 1, eq_ix2 i⟩
  obtain rfl : z = 0 := Subsingleton.elim _ _
  exact Cert.RefRows.headB_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) b

end Cert.CriticReference

end
-- ==== Proof.lean ====
/-
  The certificate of an attention critic: a Pallas kernel that treats 2048 rows of eight agents per grid point against the
  plain jnp program that treats all 65536 rows at once.

  Each row's two results depend on that row alone: a shared embedding of every agent, a query from the row's own agent,
  keys and values from the seven others, a softmax of seven scaled logits, and two three-layer heads on the own value joined
  with the weighted values (Proof/AttnCritic.lean states this row function on the extended reals). At the ideal instance the
  kernel's grid point computes it from its blocks and the reference from the whole arrays; where the two spell it differently
  the spellings agree on every extended real: a 96-term sum split as 64 + 32 terms, a division by 16 against a product with
  1/16, an extra maximum with −∞, a matrix product into a zero accumulator against a plain product, sums taken in another
  grouping. So the two programs' results are equal entry by entry, for all inputs; the precondition is not needed.
  The two kernel frames are the generated ones; the reference's frame is its run with the results dropped; the idealization
  rewrote nothing, so the preservation claim is trivial.
-/
import proofs.«174824_j49409303773229_2_alg».proof.Defs
import proofs.«174824_j49409303773229_2_alg».proof.Proof.Gen.Kernel
import proofs.«174824_j49409303773229_2_alg».proof.Proof.Gen.Kernel.Skeleton
import proofs.«174824_j49409303773229_2_alg».proof.Proof.Gen.Kernel.Launch
import proofs.«174824_j49409303773229_2_alg».proof.Proof.Gen.Kernel.Points
import proofs.«174824_j49409303773229_2_alg».proof.Proof.Gen.Kernel.Frame
import proofs.«174824_j49409303773229_2_alg».proof.Proof.Gen.KernelIdeal
import proofs.«174824_j49409303773229_2_alg».proof.Proof.Gen.KernelIdeal.Skeleton
import proofs.«174824_j49409303773229_2_alg».proof.Proof.Gen.KernelIdeal.Launch
import proofs.«174824_j49409303773229_2_alg».proof.Proof.Gen.KernelIdeal.Points
import proofs.«174824_j49409303773229_2_alg».proof.Proof.Gen.KernelIdeal.Frame
import proofs.«174824_j49409303773229_2_alg».proof.Proof.Gen.ReferenceIdeal
import proofs.«174824_j49409303773229_2_alg».proof.Proof.Gen.Pre_finite_inputs
import proofs.«174824_j49409303773229_2_alg».proof.Proof.KernelRun
import proofs.«174824_j49409303773229_2_alg».proof.Proof.RefJoin
import Idealize.ShloMosaic.Adequacy
import Idealize.ShloMosaic.Init

set_option maxRecDepth 16384

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

set_option maxHeartbeats 1600000 in
/-- From memories that agree on the arguments both idealized programs end with, at row b, the two heads of row b of those
    arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.CriticKernel.outA m c, fun c => Cert.CriticKernel.outB m c, Cert.CriticKernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.CriticReference.res0_eq]
    unfold Cert.CriticReference.resultAt Cert.CriticKernel.outA Cert.CriticKernel.resultAt
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
  · rw [Cert.CriticReference.res1_eq]
    unfold Cert.CriticReference.resultAt Cert.CriticKernel.outB Cert.CriticKernel.resultAt
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
